-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x1024 : Shape := ⟨2, ![512, 1024]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part6 {F : FTy → Type} [FloatOps F] (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  main_v103

def fn_part5 {F : FTy → Type} [FloatOps F] (main_arg18 : FVec F S512 .f32) (main_arg19 : FVec F S512 .f32) (main_arg20 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_v98 main_v101 main_c_39

def fn_part4 {F : FTy → Type} [FloatOps F] (main_arg14 : FVec F S512 .f32) (main_arg15 : FVec F S512 .f32) (main_arg16 : FVec F S512 .f32) (main_arg17 : FVec F S512 .f32) (main_arg18 : FVec F S512 .f32) (main_arg19 : FVec F S512 .f32) (main_arg20 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_arg19 : FVec F S512 .f32) (main_arg20 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_v63 main_v67

def fn_part2 {F : FTy → Type} [FloatOps F] (main_arg7 : FVec F S512x1024 .f32) (main_arg8 : FVec F S512 .f32) (main_arg9 : FVec F S512x1024 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_arg19 : FVec F S512 .f32) (main_arg20 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_arg19 : FVec F S512 .f32) (main_arg20 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S65536x512 .f32) (main_arg1 : FVec F S65536x512 .f32) (main_arg2 : FVec F S65536x512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_arg19 : FVec F S512 .f32) (main_arg20 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S65536x512 : Shape := ⟨2, ![65536, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S512x1 : Shape := ⟨2, ![512, 1]⟩

abbrev nBuf : Space → Nat
  | .hbm => 47
  | .vmem => 32
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .bf16⟩
  | .hbm, ⟨25, _⟩ => ⟨S512x512, .f32⟩
  | .hbm, ⟨26, _⟩ => ⟨S512x512, .bf16⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512, .bf16⟩
  | .hbm, ⟨31, _⟩ => ⟨S512x512, .f32⟩
  | .hbm, ⟨32, _⟩ => ⟨S512x512, .bf16⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S512x512, .f32⟩
  | .hbm, ⟨38, _⟩ => ⟨S512x512, .bf16⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .bf16⟩
  | .hbm, ⟨43, _⟩ => ⟨S512x512, .f32⟩
  | .hbm, ⟨44, _⟩ => ⟨S512x512, .bf16⟩
  | .hbm, ⟨45, _⟩ => ⟨S65536x512, .f32⟩
  | .hbm, ⟨46, _⟩ => ⟨S65536x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512x512, .bf16⟩
  | .local _ .vmem, ⟨12, _⟩ => ⟨S512x512, .bf16⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512x512, .bf16⟩
  | .local _ .vmem, ⟨17, _⟩ => ⟨S512x512, .bf16⟩
  | .local _ .vmem, ⟨18, _⟩ => ⟨S512, .f32⟩
  | .local _ .vmem, ⟨19, _⟩ => ⟨S512, .f32⟩
  | .local _ .vmem, ⟨20, _⟩ => ⟨S512, .f32⟩
  | .local _ .vmem, ⟨21, _⟩ => ⟨S512x512, .bf16⟩
  | .local _ .vmem, ⟨22, _⟩ => ⟨S512x512, .bf16⟩
  | .local _ .vmem, ⟨23, _⟩ => ⟨S512, .f32⟩
  | .local _ .vmem, ⟨24, _⟩ => ⟨S512, .f32⟩
  | .local _ .vmem, ⟨25, _⟩ => ⟨S512, .f32⟩
  | .local _ .vmem, ⟨26, _⟩ => ⟨S512, .f32⟩
  | .local _ .vmem, ⟨27, _⟩ => ⟨S512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg25_1 : Ref sig .tc := ⟨.vmem, 29, rfl⟩
abbrev cc0_stg26_0 : Ref sig .tc := ⟨.vmem, 30, rfl⟩
abbrev cc0_stg26_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29
abbrev cc0_sem26_0 : DmaSem sig := 30
abbrev cc0_sem26_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S65536x512.size a
  hwx0_1 : ∀ i : grid0.Coords, EltTy.bits .f32 = 32 ∨ (Rect.block (s := S65536x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S65536x512.size a
  hwx0_2 : ∀ i : grid0.Coords, EltTy.bits .f32 = 32 ∨ (Rect.block (s := S65536x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .bf16 = 32 ∨ (Rect.block (s := S512x512) S512x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .bf16 = 32 ∨ (Rect.block (s := S512x512) S512x512.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512.size a ≤ S512.size a
  hwx0_20 : ∀ i : grid0.Coords, EltTy.bits .f32 = 32 ∨ (Rect.block (s := S512) S512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512.size a ≤ S512.size a
  hwx0_21 : ∀ i : grid0.Coords, EltTy.bits .f32 = 32 ∨ (Rect.block (s := S512) S512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512.size a ≤ S512.size a
  hwx0_22 : ∀ i : grid0.Coords, EltTy.bits .f32 = 32 ∨ (Rect.block (s := S512) S512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512.size a ≤ S512.size a
  hwx0_23 : ∀ i : grid0.Coords, EltTy.bits .f32 = 32 ∨ (Rect.block (s := S512) S512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S512.size a ≤ S512.size a
  hwx0_24 : ∀ i : grid0.Coords, EltTy.bits .f32 = 32 ∨ (Rect.block (s := S512) S512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S512x512.size a ≤ S65536x512.size a
  hwx0_25 : ∀ i : grid0.Coords, EltTy.bits .f32 = 32 ∨ (Rect.block (s := S65536x512) S512x512.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x512.size a ≤ S65536x512.size a
  hwx0_26 : ∀ i : grid0.Coords, EltTy.bits .f32 = 32 ∨ (Rect.block (s := S65536x512) S512x512.size (cc0_transform_26 i) (hinb0_26 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg8) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v21) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v23) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg10) S512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg17) S512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg18) S512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg19) S512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg20) S512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v24_0) S512x512.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v24_1) S512x512.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x1024 : Shape := ⟨2, ![512, 1024]⟩
abbrev S512 : Shape := ⟨1, ![512]⟩
abbrev S65536x1024 : Shape := ⟨2, ![65536, 1024]⟩
abbrev S1024x512 : Shape := ⟨2, ![1024, 512]⟩
abbrev S1x512 : Shape := ⟨2, ![1, 512]⟩
abbrev S_ : Shape := ⟨0, ![]⟩
abbrev S65536 : Shape := ⟨1, ![65536]⟩
abbrev S65536x1 : Shape := ⟨2, ![65536, 1]⟩

abbrev nBuf : Space → Nat
  | .hbm => 295
  | .vmem => 0
  | .smem => 0
  | _ => 0

abbrev hbmTy0_0 (i : Nat) : BufTy := match i % 128 with
  | 0 => ⟨S65536x512, .f32⟩
  | 1 => ⟨S65536x512, .f32⟩
  | 2 => ⟨S65536x512, .f32⟩
  | 3 => ⟨S512x1024, .f32⟩
  | 4 => ⟨S512, .f32⟩
  | 5 => ⟨S512x1024, .f32⟩
  | 6 => ⟨S512, .f32⟩
  | 7 => ⟨S512x1024, .f32⟩
  | 8 => ⟨S512, .f32⟩
  | 9 => ⟨S512x1024, .f32⟩
  | 10 => ⟨S512, .f32⟩
  | 11 => ⟨S512, .f32⟩
  | 12 => ⟨S512, .f32⟩
  | 13 => ⟨S512, .f32⟩
  | 14 => ⟨S512, .f32⟩
  | 15 => ⟨S512, .f32⟩
  | 16 => ⟨S512, .f32⟩
  | 17 => ⟨S512, .f32⟩
  | 18 => ⟨S512, .f32⟩
  | 19 => ⟨S512, .f32⟩
  | 20 => ⟨S512, .f32⟩
  | 21 => ⟨S65536x1024, .f32⟩
  | 22 => ⟨S1024x512, .f32⟩
  | 23 => ⟨S65536x512, .f32⟩
  | 24 => ⟨S1x512, .f32⟩
  | 25 => ⟨S65536x512, .f32⟩
  | 26 => ⟨S65536x512, .f32⟩
  | 27 => ⟨S_, .f32⟩
  | 28 => ⟨S65536, .f32⟩
  | 29 => ⟨S65536x1, .f32⟩
  | 30 => ⟨S_, .f32⟩
  | 31 => ⟨S65536x1, .f32⟩
  | 32 => ⟨S65536x1, .f32⟩
  | 33 => ⟨S_, .i32⟩
  | 34 => ⟨S_, .f32⟩
  | 35 => ⟨S65536, .f32⟩
  | 36 => ⟨S65536x1, .f32⟩
  | 37 => ⟨S_, .f32⟩
  | 38 => ⟨S65536x1, .f32⟩
  | 39 => ⟨S65536x1, .f32⟩
  | 40 => ⟨S65536x512, .f32⟩
  | 41 => ⟨S65536x512, .f32⟩
  | 42 => ⟨S65536x512, .f32⟩
  | 43 => ⟨S_, .f32⟩
  | 44 => ⟨S_, .f32⟩
  | 45 => ⟨S_, .f32⟩
  | 46 => ⟨S_, .f32⟩
  | 47 => ⟨S65536, .f32⟩
  | 48 => ⟨S65536x1, .f32⟩
  | 49 => ⟨S65536x1, .f32⟩
  | 50 => ⟨S65536x1, .f32⟩
  | 51 => ⟨S_, .f32⟩
  | 52 => ⟨S_, .i1⟩
  | 53 => ⟨S_, .f32⟩
  | 54 => ⟨S_, .f32⟩
  | 55 => ⟨S65536x1, .f32⟩
  | 56 => ⟨S65536x1, .f32⟩
  | 57 => ⟨S65536x1, .f32⟩
  | 58 => ⟨S65536x512, .f32⟩
  | 59 => ⟨S65536x512, .f32⟩
  | 60 => ⟨S1x512, .f32⟩
  | 61 => ⟨S65536x512, .f32⟩
  | 62 => ⟨S65536x512, .f32⟩
  | 63 => ⟨S_, .f32⟩
  | 64 => ⟨S65536x1, .f32⟩
  | 65 => ⟨S65536x1, .f32⟩
  | 66 => ⟨S65536x512, .f32⟩
  | 67 => ⟨S65536x512, .f32⟩
  | 68 => ⟨S1x512, .f32⟩
  | 69 => ⟨S65536x512, .f32⟩
  | 70 => ⟨S65536x512, .f32⟩
  | 71 => ⟨S65536x512, .f32⟩
  | 72 => ⟨S65536x512, .f32⟩
  | 73 => ⟨S_, .f32⟩
  | 74 => ⟨S65536x512, .f32⟩
  | 75 => ⟨S65536x512, .f32⟩
  | 76 => ⟨S_, .f32⟩
  | 77 => ⟨S65536x512, .f32⟩
  | 78 => ⟨S65536x512, .f32⟩
  | 79 => ⟨S1024x512, .f32⟩
  | 80 => ⟨S65536x512, .f32⟩
  | 81 => ⟨S1x512, .f32⟩
  | 82 => ⟨S65536x512, .f32⟩
  | 83 => ⟨S65536x512, .f32⟩
  | 84 => ⟨S_, .f32⟩
  | 85 => ⟨S65536, .f32⟩
  | 86 => ⟨S65536x1, .f32⟩
  | 87 => ⟨S_, .f32⟩
  | 88 => ⟨S65536x1, .f32⟩
  | 89 => ⟨S65536x1, .f32⟩
  | 90 => ⟨S_, .i32⟩
  | 91 => ⟨S_, .f32⟩
  | 92 => ⟨S65536, .f32⟩
  | 93 => ⟨S65536x1, .f32⟩
  | 94 => ⟨S_, .f32⟩
  | 95 => ⟨S65536x1, .f32⟩
  | 96 => ⟨S65536x1, .f32⟩
  | 97 => ⟨S65536x512, .f32⟩
  | 98 => ⟨S65536x512, .f32⟩
  | 99 => ⟨S65536x512, .f32⟩
  | 100 => ⟨S_, .f32⟩
  | 101 => ⟨S_, .f32⟩
  | 102 => ⟨S_, .f32⟩
  | 103 => ⟨S_, .f32⟩
  | 104 => ⟨S65536, .f32⟩
  | 105 => ⟨S65536x1, .f32⟩
  | 106 => ⟨S65536x1, .f32⟩
  | 107 => ⟨S65536x1, .f32⟩
  | 108 => ⟨S_, .f32⟩
  | 109 => ⟨S_, .i1⟩
  | 110 => ⟨S_, .f32⟩
  | 111 => ⟨S_, .f32⟩
  | 112 => ⟨S65536x1, .f32⟩
  | 113 => ⟨S65536x1, .f32⟩
  | 114 => ⟨S65536x1, .f32⟩
  | 115 => ⟨S65536x512, .f32⟩
  | 116 => ⟨S65536x512, .f32⟩
  | 117 => ⟨S1x512, .f32⟩
  | 118 => ⟨S65536x512, .f32⟩
  | 119 => ⟨S65536x512, .f32⟩
  | 120 => ⟨S_, .f32⟩
  | 121 => ⟨S65536x1, .f32⟩
  | 122 => ⟨S65536x1, .f32⟩
  | 123 => ⟨S65536x512, .f32⟩
  | 124 => ⟨S65536x512, .f32⟩
  | 125 => ⟨S1x512, .f32⟩
  | 126 => ⟨S65536x512, .f32⟩
  | 127 => ⟨S65536x512, .f32⟩
  | _ => ⟨S65536x512, .f32⟩

abbrev hbmTy0_1 (i : Nat) : BufTy := match i % 128 with
  | 0 => ⟨S65536x512, .f32⟩
  | 1 => ⟨S65536x512, .f32⟩
  | 2 => ⟨S_, .f32⟩
  | 3 => ⟨S65536x512, .f32⟩
  | 4 => ⟨S65536x512, .f32⟩
  | 5 => ⟨S_, .f32⟩
  | 6 => ⟨S65536x512, .f32⟩
  | 7 => ⟨S65536x512, .f32⟩
  | 8 => ⟨S1024x512, .f32⟩
  | 9 => ⟨S65536x512, .f32⟩
  | 10 => ⟨S1x512, .f32⟩
  | 11 => ⟨S65536x512, .f32⟩
  | 12 => ⟨S65536x512, .f32⟩
  | 13 => ⟨S_, .f32⟩
  | 14 => ⟨S65536, .f32⟩
  | 15 => ⟨S65536x1, .f32⟩
  | 16 => ⟨S_, .f32⟩
  | 17 => ⟨S65536x1, .f32⟩
  | 18 => ⟨S65536x1, .f32⟩
  | 19 => ⟨S_, .i32⟩
  | 20 => ⟨S_, .f32⟩
  | 21 => ⟨S65536, .f32⟩
  | 22 => ⟨S65536x1, .f32⟩
  | 23 => ⟨S_, .f32⟩
  | 24 => ⟨S65536x1, .f32⟩
  | 25 => ⟨S65536x1, .f32⟩
  | 26 => ⟨S65536x512, .f32⟩
  | 27 => ⟨S65536x512, .f32⟩
  | 28 => ⟨S65536x512, .f32⟩
  | 29 => ⟨S_, .f32⟩
  | 30 => ⟨S_, .f32⟩
  | 31 => ⟨S_, .f32⟩
  | 32 => ⟨S_, .f32⟩
  | 33 => ⟨S65536, .f32⟩
  | 34 => ⟨S65536x1, .f32⟩
  | 35 => ⟨S65536x1, .f32⟩
  | 36 => ⟨S65536x1, .f32⟩
  | 37 => ⟨S_, .f32⟩
  | 38 => ⟨S_, .i1⟩
  | 39 => ⟨S_, .f32⟩
  | 40 => ⟨S_, .f32⟩
  | 41 => ⟨S65536x1, .f32⟩
  | 42 => ⟨S65536x1, .f32⟩
  | 43 => ⟨S65536x1, .f32⟩
  | 44 => ⟨S65536x512, .f32⟩
  | 45 => ⟨S65536x512, .f32⟩
  | 46 => ⟨S1x512, .f32⟩
  | 47 => ⟨S65536x512, .f32⟩
  | 48 => ⟨S65536x512, .f32⟩
  | 49 => ⟨S_, .f32⟩
  | 50 => ⟨S65536x1, .f32⟩
  | 51 => ⟨S65536x1, .f32⟩
  | 52 => ⟨S65536x512, .f32⟩
  | 53 => ⟨S65536x512, .f32⟩
  | 54 => ⟨S1x512, .f32⟩
  | 55 => ⟨S65536x512, .f32⟩
  | 56 => ⟨S65536x512, .f32⟩
  | 57 => ⟨S65536x512, .f32⟩
  | 58 => ⟨S65536x512, .f32⟩
  | 59 => ⟨S_, .f32⟩
  | 60 => ⟨S65536x512, .f32⟩
  | 61 => ⟨S65536x512, .f32⟩
  | 62 => ⟨S_, .f32⟩
  | 63 => ⟨S65536x512, .f32⟩
  | 64 => ⟨S65536x512, .f32⟩
  | 65 => ⟨S1024x512, .f32⟩
  | 66 => ⟨S65536x512, .f32⟩
  | 67 => ⟨S1x512, .f32⟩
  | 68 => ⟨S65536x512, .f32⟩
  | 69 => ⟨S65536x512, .f32⟩
  | 70 => ⟨S_, .f32⟩
  | 71 => ⟨S65536, .f32⟩
  | 72 => ⟨S65536x1, .f32⟩
  | 73 => ⟨S_, .f32⟩
  | 74 => ⟨S65536x1, .f32⟩
  | 75 => ⟨S65536x1, .f32⟩
  | 76 => ⟨S_, .i32⟩
  | 77 => ⟨S_, .f32⟩
  | 78 => ⟨S65536, .f32⟩
  | 79 => ⟨S65536x1, .f32⟩
  | 80 => ⟨S_, .f32⟩
  | 81 => ⟨S65536x1, .f32⟩
  | 82 => ⟨S65536x1, .f32⟩
  | 83 => ⟨S65536x512, .f32⟩
  | 84 => ⟨S65536x512, .f32⟩
  | 85 => ⟨S65536x512, .f32⟩
  | 86 => ⟨S_, .f32⟩
  | 87 => ⟨S_, .f32⟩
  | 88 => ⟨S_, .f32⟩
  | 89 => ⟨S_, .f32⟩
  | 90 => ⟨S65536, .f32⟩
  | 91 => ⟨S65536x1, .f32⟩
  | 92 => ⟨S65536x1, .f32⟩
  | 93 => ⟨S65536x1, .f32⟩
  | 94 => ⟨S_, .f32⟩
  | 95 => ⟨S_, .i1⟩
  | 96 => ⟨S_, .f32⟩
  | 97 => ⟨S_, .f32⟩
  | 98 => ⟨S65536x1, .f32⟩
  | 99 => ⟨S65536x1, .f32⟩
  | 100 => ⟨S65536x1, .f32⟩
  | 101 => ⟨S65536x512, .f32⟩
  | 102 => ⟨S65536x512, .f32⟩
  | 103 => ⟨S1x512, .f32⟩
  | 104 => ⟨S65536x512, .f32⟩
  | 105 => ⟨S65536x512, .f32⟩
  | 106 => ⟨S_, .f32⟩
  | 107 => ⟨S65536x1, .f32⟩
  | 108 => ⟨S65536x1, .f32⟩
  | 109 => ⟨S65536x512, .f32⟩
  | 110 => ⟨S65536x512, .f32⟩
  | 111 => ⟨S1x512, .f32⟩
  | 112 => ⟨S65536x512, .f32⟩
  | 113 => ⟨S65536x512, .f32⟩
  | 114 => ⟨S65536x512, .f32⟩
  | 115 => ⟨S65536x512, .f32⟩
  | 116 => ⟨S_, .f32⟩
  | 117 => ⟨S65536x512, .f32⟩
  | 118 => ⟨S65536x512, .f32⟩
  | 119 => ⟨S65536x512, .f32⟩
  | 120 => ⟨S65536x512, .f32⟩
  | 121 => ⟨S65536x512, .f32⟩
  | 122 => ⟨S_, .f32⟩
  | 123 => ⟨S65536, .f32⟩
  | 124 => ⟨S65536x1, .f32⟩
  | 125 => ⟨S_, .f32⟩
  | 126 => ⟨S65536x1, .f32⟩
  | 127 => ⟨S65536x1, .f32⟩
  | _ => ⟨S65536x512, .f32⟩

abbrev hbmTy0_2 (i : Nat) : BufTy := match i % 128 with
  | 0 => ⟨S_, .i32⟩
  | 1 => ⟨S_, .f32⟩
  | 2 => ⟨S65536, .f32⟩
  | 3 => ⟨S65536x1, .f32⟩
  | 4 => ⟨S_, .f32⟩
  | 5 => ⟨S65536x1, .f32⟩
  | 6 => ⟨S65536x1, .f32⟩
  | 7 => ⟨S65536x512, .f32⟩
  | 8 => ⟨S65536x512, .f32⟩
  | 9 => ⟨S65536x512, .f32⟩
  | 10 => ⟨S_, .f32⟩
  | 11 => ⟨S_, .f32⟩
  | 12 => ⟨S_, .f32⟩
  | 13 => ⟨S_, .f32⟩
  | 14 => ⟨S65536, .f32⟩
  | 15 => ⟨S65536x1, .f32⟩
  | 16 => ⟨S65536x1, .f32⟩
  | 17 => ⟨S65536x1, .f32⟩
  | 18 => ⟨S_, .f32⟩
  | 19 => ⟨S_, .i1⟩
  | 20 => ⟨S_, .f32⟩
  | 21 => ⟨S_, .f32⟩
  | 22 => ⟨S65536x1, .f32⟩
  | 23 => ⟨S65536x1, .f32⟩
  | 24 => ⟨S65536x1, .f32⟩
  | 25 => ⟨S65536x512, .f32⟩
  | 26 => ⟨S65536x512, .f32⟩
  | 27 => ⟨S1x512, .f32⟩
  | 28 => ⟨S65536x512, .f32⟩
  | 29 => ⟨S65536x512, .f32⟩
  | 30 => ⟨S_, .f32⟩
  | 31 => ⟨S65536x1, .f32⟩
  | 32 => ⟨S65536x1, .f32⟩
  | 33 => ⟨S65536x512, .f32⟩
  | 34 => ⟨S65536x512, .f32⟩
  | 35 => ⟨S1x512, .f32⟩
  | 36 => ⟨S65536x512, .f32⟩
  | 37 => ⟨S65536x512, .f32⟩
  | 38 => ⟨S65536x512, .f32⟩
  | _ => ⟨S65536x512, .f32⟩

abbrev hbmTy (i : Nat) : BufTy := match i / 128 with
  | 0 => hbmTy0_0 i
  | 1 => hbmTy0_1 i
  | 2 => hbmTy0_2 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_cst_0 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_cst_1 : Ref sig .tc := ⟨.hbm, 44, rfl⟩
abbrev main_call0_call0_v8 : Ref sig .tc := ⟨.hbm, 45, rfl⟩
abbrev main_call0_call0_cst_2 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_cst_3 : Ref sig .tc := ⟨.hbm, 51, rfl⟩
abbrev main_call0_call0_v13 : Ref sig .tc := ⟨.hbm, 52, rfl⟩
abbrev main_call0_call0_cst_4 : Ref sig .tc := ⟨.hbm, 53, rfl⟩
abbrev main_call0_call0_call0_v0 : Ref sig .tc := ⟨.hbm, 54, rfl⟩
abbrev main_call0_call0_call0_v1 : Ref sig .tc := ⟨.hbm, 55, rfl⟩
abbrev main_call0_v0 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_1 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_2 : Ref sig .tc := ⟨.hbm, 73, rfl⟩
abbrev main_v25 : Ref sig .tc := ⟨.hbm, 74, rfl⟩
abbrev main_v26 : Ref sig .tc := ⟨.hbm, 75, rfl⟩
abbrev main_cst_3 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_4 : Ref sig .tc := ⟨.hbm, 84, rfl⟩
abbrev main_v34 : Ref sig .tc := ⟨.hbm, 85, rfl⟩
abbrev main_v35 : Ref sig .tc := ⟨.hbm, 86, rfl⟩
abbrev main_cst_5 : Ref sig .tc := ⟨.hbm, 87, rfl⟩
abbrev main_v36 : Ref sig .tc := ⟨.hbm, 88, rfl⟩
abbrev main_v37 : Ref sig .tc := ⟨.hbm, 89, rfl⟩
abbrev main_c_6 : Ref sig .tc := ⟨.hbm, 90, rfl⟩
abbrev main_call1_call0_cst : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_call0_cst_0 : Ref sig .tc := ⟨.hbm, 94, rfl⟩
abbrev main_call1_call0_v2 : Ref sig .tc := ⟨.hbm, 95, rfl⟩
abbrev main_call1_call0_v3 : Ref sig .tc := ⟨.hbm, 96, rfl⟩
abbrev main_call1_call0_v4 : Ref sig .tc := ⟨.hbm, 97, rfl⟩
abbrev main_call1_call0_v5 : Ref sig .tc := ⟨.hbm, 98, rfl⟩
abbrev main_call1_call0_v6 : Ref sig .tc := ⟨.hbm, 99, rfl⟩
abbrev main_call1_call0_v7 : Ref sig .tc := ⟨.hbm, 100, rfl⟩
abbrev main_call1_call0_cst_1 : Ref sig .tc := ⟨.hbm, 101, rfl⟩
abbrev main_call1_call0_v8 : Ref sig .tc := ⟨.hbm, 102, rfl⟩
abbrev main_call1_call0_cst_2 : Ref sig .tc := ⟨.hbm, 103, rfl⟩
abbrev main_call1_call0_v9 : Ref sig .tc := ⟨.hbm, 104, rfl⟩
abbrev main_call1_call0_v10 : Ref sig .tc := ⟨.hbm, 105, rfl⟩
abbrev main_call1_call0_v11 : Ref sig .tc := ⟨.hbm, 106, rfl⟩
abbrev main_call1_call0_v12 : Ref sig .tc := ⟨.hbm, 107, rfl⟩
abbrev main_call1_call0_cst_3 : Ref sig .tc := ⟨.hbm, 108, rfl⟩
abbrev main_call1_call0_v13 : Ref sig .tc := ⟨.hbm, 109, rfl⟩
abbrev main_call1_call0_cst_4 : Ref sig .tc := ⟨.hbm, 110, rfl⟩
abbrev main_call1_call0_call0_v0 : Ref sig .tc := ⟨.hbm, 111, rfl⟩
abbrev main_call1_call0_call0_v1 : Ref sig .tc := ⟨.hbm, 112, rfl⟩
abbrev main_call1_v0 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_cst_7 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_cst_8 : Ref sig .tc := ⟨.hbm, 130, rfl⟩
abbrev main_v53 : Ref sig .tc := ⟨.hbm, 131, rfl⟩
abbrev main_v54 : Ref sig .tc := ⟨.hbm, 132, rfl⟩
abbrev main_cst_9 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_cst_10 : Ref sig .tc := ⟨.hbm, 141, rfl⟩
abbrev main_v62 : Ref sig .tc := ⟨.hbm, 142, rfl⟩
abbrev main_v63 : Ref sig .tc := ⟨.hbm, 143, rfl⟩
abbrev main_cst_11 : Ref sig .tc := ⟨.hbm, 144, rfl⟩
abbrev main_v64 : Ref sig .tc := ⟨.hbm, 145, rfl⟩
abbrev main_v65 : Ref sig .tc := ⟨.hbm, 146, rfl⟩
abbrev main_c_12 : Ref sig .tc := ⟨.hbm, 147, rfl⟩
abbrev main_call2_call0_cst : Ref sig .tc := ⟨.hbm, 148, rfl⟩
abbrev main_call2_call0_v0 : Ref sig .tc := ⟨.hbm, 149, rfl⟩
abbrev main_call2_call0_v1 : Ref sig .tc := ⟨.hbm, 150, rfl⟩
abbrev main_call2_call0_cst_0 : Ref sig .tc := ⟨.hbm, 151, rfl⟩
abbrev main_call2_call0_v2 : Ref sig .tc := ⟨.hbm, 152, rfl⟩
abbrev main_call2_call0_v3 : Ref sig .tc := ⟨.hbm, 153, rfl⟩
abbrev main_call2_call0_v4 : Ref sig .tc := ⟨.hbm, 154, rfl⟩
abbrev main_call2_call0_v5 : Ref sig .tc := ⟨.hbm, 155, rfl⟩
abbrev main_call2_call0_v6 : Ref sig .tc := ⟨.hbm, 156, rfl⟩
abbrev main_call2_call0_v7 : Ref sig .tc := ⟨.hbm, 157, rfl⟩
abbrev main_call2_call0_cst_1 : Ref sig .tc := ⟨.hbm, 158, rfl⟩
abbrev main_call2_call0_v8 : Ref sig .tc := ⟨.hbm, 159, rfl⟩
abbrev main_call2_call0_cst_2 : Ref sig .tc := ⟨.hbm, 160, rfl⟩
abbrev main_call2_call0_v9 : Ref sig .tc := ⟨.hbm, 161, rfl⟩
abbrev main_call2_call0_v10 : Ref sig .tc := ⟨.hbm, 162, rfl⟩
abbrev main_call2_call0_v11 : Ref sig .tc := ⟨.hbm, 163, rfl⟩
abbrev main_call2_call0_v12 : Ref sig .tc := ⟨.hbm, 164, rfl⟩
abbrev main_call2_call0_cst_3 : Ref sig .tc := ⟨.hbm, 165, rfl⟩
abbrev main_call2_call0_v13 : Ref sig .tc := ⟨.hbm, 166, rfl⟩
abbrev main_call2_call0_cst_4 : Ref sig .tc := ⟨.hbm, 167, rfl⟩
abbrev main_call2_call0_call0_v0 : Ref sig .tc := ⟨.hbm, 168, rfl⟩
abbrev main_call2_call0_call0_v1 : Ref sig .tc := ⟨.hbm, 169, rfl⟩
abbrev main_call2_v0 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_cst_13 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_cst_14 : Ref sig .tc := ⟨.hbm, 187, rfl⟩
abbrev main_v81 : Ref sig .tc := ⟨.hbm, 188, rfl⟩
abbrev main_v82 : Ref sig .tc := ⟨.hbm, 189, rfl⟩
abbrev main_cst_15 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_cst_16 : Ref sig .tc := ⟨.hbm, 198, rfl⟩
abbrev main_v90 : Ref sig .tc := ⟨.hbm, 199, rfl⟩
abbrev main_v91 : Ref sig .tc := ⟨.hbm, 200, rfl⟩
abbrev main_cst_17 : Ref sig .tc := ⟨.hbm, 201, rfl⟩
abbrev main_v92 : Ref sig .tc := ⟨.hbm, 202, rfl⟩
abbrev main_v93 : Ref sig .tc := ⟨.hbm, 203, rfl⟩
abbrev main_c_18 : Ref sig .tc := ⟨.hbm, 204, rfl⟩
abbrev main_call3_call0_cst : Ref sig .tc := ⟨.hbm, 205, rfl⟩
abbrev main_call3_call0_v0 : Ref sig .tc := ⟨.hbm, 206, rfl⟩
abbrev main_call3_call0_v1 : Ref sig .tc := ⟨.hbm, 207, rfl⟩
abbrev main_call3_call0_cst_0 : Ref sig .tc := ⟨.hbm, 208, rfl⟩
abbrev main_call3_call0_v2 : Ref sig .tc := ⟨.hbm, 209, rfl⟩
abbrev main_call3_call0_v3 : Ref sig .tc := ⟨.hbm, 210, rfl⟩
abbrev main_call3_call0_v4 : Ref sig .tc := ⟨.hbm, 211, rfl⟩
abbrev main_call3_call0_v5 : Ref sig .tc := ⟨.hbm, 212, rfl⟩
abbrev main_call3_call0_v6 : Ref sig .tc := ⟨.hbm, 213, rfl⟩
abbrev main_call3_call0_v7 : Ref sig .tc := ⟨.hbm, 214, rfl⟩
abbrev main_call3_call0_cst_1 : Ref sig .tc := ⟨.hbm, 215, rfl⟩
abbrev main_call3_call0_v8 : Ref sig .tc := ⟨.hbm, 216, rfl⟩
abbrev main_call3_call0_cst_2 : Ref sig .tc := ⟨.hbm, 217, rfl⟩
abbrev main_call3_call0_v9 : Ref sig .tc := ⟨.hbm, 218, rfl⟩
abbrev main_call3_call0_v10 : Ref sig .tc := ⟨.hbm, 219, rfl⟩
abbrev main_call3_call0_v11 : Ref sig .tc := ⟨.hbm, 220, rfl⟩
abbrev main_call3_call0_v12 : Ref sig .tc := ⟨.hbm, 221, rfl⟩
abbrev main_call3_call0_cst_3 : Ref sig .tc := ⟨.hbm, 222, rfl⟩
abbrev main_call3_call0_v13 : Ref sig .tc := ⟨.hbm, 223, rfl⟩
abbrev main_call3_call0_cst_4 : Ref sig .tc := ⟨.hbm, 224, rfl⟩
abbrev main_call3_call0_call0_v0 : Ref sig .tc := ⟨.hbm, 225, rfl⟩
abbrev main_call3_call0_call0_v1 : Ref sig .tc := ⟨.hbm, 226, rfl⟩
abbrev main_call3_v0 : Ref sig .tc := ⟨.hbm, 227, rfl⟩
abbrev main_v94 : Ref sig .tc := ⟨.hbm, 228, rfl⟩
abbrev main_v95 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev main_cst_19 : Ref sig .tc := ⟨.hbm, 234, rfl⟩
abbrev main_v100 : Ref sig .tc := ⟨.hbm, 235, rfl⟩
abbrev main_v101 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩
abbrev main_v105 : Ref sig .tc := ⟨.hbm, 240, rfl⟩
abbrev main_v106 : Ref sig .tc := ⟨.hbm, 241, rfl⟩
abbrev main_v107 : Ref sig .tc := ⟨.hbm, 242, rfl⟩
abbrev main_v108 : Ref sig .tc := ⟨.hbm, 243, rfl⟩
abbrev main_cst_20 : Ref sig .tc := ⟨.hbm, 244, rfl⟩
abbrev main_v109 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_cst_21 : Ref sig .tc := ⟨.hbm, 250, rfl⟩
abbrev main_v114 : Ref sig .tc := ⟨.hbm, 251, rfl⟩
abbrev main_v115 : Ref sig .tc := ⟨.hbm, 252, rfl⟩
abbrev main_cst_22 : Ref sig .tc := ⟨.hbm, 253, rfl⟩
abbrev main_v116 : Ref sig .tc := ⟨.hbm, 254, rfl⟩
abbrev main_v117 : Ref sig .tc := ⟨.hbm, 255, rfl⟩
abbrev main_c_23 : Ref sig .tc := ⟨.hbm, 256, rfl⟩
abbrev main_call4_call0_cst : Ref sig .tc := ⟨.hbm, 257, rfl⟩
abbrev main_call4_call0_v0 : Ref sig .tc := ⟨.hbm, 258, rfl⟩
abbrev main_call4_call0_v1 : Ref sig .tc := ⟨.hbm, 259, rfl⟩
abbrev main_call4_call0_cst_0 : Ref sig .tc := ⟨.hbm, 260, rfl⟩
abbrev main_call4_call0_v2 : Ref sig .tc := ⟨.hbm, 261, rfl⟩
abbrev main_call4_call0_v3 : Ref sig .tc := ⟨.hbm, 262, rfl⟩
abbrev main_call4_call0_v4 : Ref sig .tc := ⟨.hbm, 263, rfl⟩
abbrev main_call4_call0_v5 : Ref sig .tc := ⟨.hbm, 264, rfl⟩
abbrev main_call4_call0_v6 : Ref sig .tc := ⟨.hbm, 265, rfl⟩
abbrev main_call4_call0_v7 : Ref sig .tc := ⟨.hbm, 266, rfl⟩
abbrev main_call4_call0_cst_1 : Ref sig .tc := ⟨.hbm, 267, rfl⟩
abbrev main_call4_call0_v8 : Ref sig .tc := ⟨.hbm, 268, rfl⟩
abbrev main_call4_call0_cst_2 : Ref sig .tc := ⟨.hbm, 269, rfl⟩
abbrev main_call4_call0_v9 : Ref sig .tc := ⟨.hbm, 270, rfl⟩
abbrev main_call4_call0_v10 : Ref sig .tc := ⟨.hbm, 271, rfl⟩
abbrev main_call4_call0_v11 : Ref sig .tc := ⟨.hbm, 272, rfl⟩
abbrev main_call4_call0_v12 : Ref sig .tc := ⟨.hbm, 273, rfl⟩
abbrev main_call4_call0_cst_3 : Ref sig .tc := ⟨.hbm, 274, rfl⟩
abbrev main_call4_call0_v13 : Ref sig .tc := ⟨.hbm, 275, rfl⟩
abbrev main_call4_call0_cst_4 : Ref sig .tc := ⟨.hbm, 276, rfl⟩
abbrev main_call4_call0_call0_v0 : Ref sig .tc := ⟨.hbm, 277, rfl⟩
abbrev main_call4_call0_call0_v1 : Ref sig .tc := ⟨.hbm, 278, rfl⟩
abbrev main_call4_v0 : Ref sig .tc := ⟨.hbm, 279, rfl⟩
abbrev main_v118 : Ref sig .tc := ⟨.hbm, 280, rfl⟩
abbrev main_v119 : Ref sig .tc := ⟨.hbm, 281, rfl⟩
abbrev main_v120 : Ref sig .tc := ⟨.hbm, 282, rfl⟩
abbrev main_v121 : Ref sig .tc := ⟨.hbm, 283, rfl⟩
abbrev main_v122 : Ref sig .tc := ⟨.hbm, 284, rfl⟩
abbrev main_v123 : Ref sig .tc := ⟨.hbm, 285, rfl⟩
abbrev main_cst_24 : Ref sig .tc := ⟨.hbm, 286, rfl⟩
abbrev main_v124 : Ref sig .tc := ⟨.hbm, 287, rfl⟩
abbrev main_v125 : Ref sig .tc := ⟨.hbm, 288, rfl⟩
abbrev main_v126 : Ref sig .tc := ⟨.hbm, 289, rfl⟩
abbrev main_v127 : Ref sig .tc := ⟨.hbm, 290, rfl⟩
abbrev main_v128 : Ref sig .tc := ⟨.hbm, 291, rfl⟩
abbrev main_v129 : Ref sig .tc := ⟨.hbm, 292, rfl⟩
abbrev main_v130 : Ref sig .tc := ⟨.hbm, 293, rfl⟩
abbrev main_v131 : Ref sig .tc := ⟨.hbm, 294, rfl⟩

abbrev nD : Nat := 1
abbrev τ : Topo := Topo.v7x

variable {F : FTy → Type} [FloatOps F]

class Facts₀ : Prop where
  concatenates_S65536x512_S65536x512_S65536x1024_d1 : Shape.Concatenates [S65536x512, S65536x512] S65536x1024 1
  transposes_S512x1024_S1024x512_1_0 : S512x1024.Transposes [1, 0] S1024x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S_S65536x512 : S_.BroadcastsInDim S65536x512 (![] : Fin 0 → Fin S65536x512.rank)
  dot_S65536x1024_S1024x512_S65536x512_1_0_0_1_n_n_wf : DotDims.WF S65536x1024 S1024x512 S65536x512 [1] [0] [0] [1] [] []

variable [Facts₀]

def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.Spec.lean ====
/-
  The mathematics of one LSTM cell with layer normalisation, row by row, on the extended reals.

  A batch row of the cell depends on nothing but that row of the inputs x, h, c and on the parameters: four gates
  f, i, o, j, each an affine map of the concatenated row (x ‖ h) followed by a layer normalisation over the 512
  features, and one more layer normalisation of the new cell state.  The layer normalisation subtracts the row mean,
  divides by (sample standard deviation + ε) — the variance divides by 511, ε is added to the standard deviation —
  scales by γ and shifts by β.  The new cell state is  f·c + min(1 − f, i)·tanh-gate,  the output  o · LN(c_new).

  The affine map of a gate is written over the two halves of its weight matrix, contraction index first:
  (x ‖ h) · Wᵀ = x · Wxᵀ + h · Whᵀ,  the sum over the 1024 concatenated features split at 512
  (`sum_split`: additions of extended reals commute and associate, so no finiteness is needed).
-/
import Idealize.ShloMosaic.PureOps.Ideal
import Idealize.ShloMosaic.Lib.ValueIdx

noncomputable section

namespace Cert.LstmSpec

open Idealize.ShloMosaic Idealize.ShloMosaic.ValueIdx

/-- One batch row: 512 features. -/
abbrev Row := Fin 512 → EReal
/-- Half of a gate's weight matrix, contraction (input feature) index first, output feature second. -/
abbrev Mat := Fin 512 → Fin 512 → EReal

/-- The float patterns the programs spell: 512, 511, ε = f32(1e-5), 1. Never evaluated: both programs spell the same words. -/
abbrev c512 : EReal := Ideal.ofBits .f32 0x44000000#32
abbrev c511 : EReal := Ideal.ofBits .f32 0x43FF8000#32
abbrev ceps : EReal := Ideal.ofBits .f32 0x3727C5AC#32
abbrev cone : EReal := Ideal.ofBits .f32 0x3F800000#32

/-- A gate's parameters: the x-half and the h-half of its weights, its bias, and its normalisation's scale and shift. -/
structure Gate where
  Wx : Mat
  Wh : Mat
  b : Row
  g : Row
  β : Row

/-- All parameters of the cell. -/
structure Params where
  f : Gate
  i : Gate
  o : Gate
  j : Gate
  gc : Row
  βc : Row

/-- The affine part of a gate on one row: x·Wx + h·Wh + b. -/
def affRow (xr hr : Row) (Wx Wh : Mat) (b : Row) : Row :=
  fun j => ((∑ k, xr k * Wx k j) + ∑ k, hr k * Wh k j) + b j

/-- The row mean. -/
def mean (v : Row) : EReal := Ideal.div (∑ k, v k) c512

/-- The sample standard deviation of a row (the squared deviations summed and divided by 511). -/
def std (v : Row) : EReal := Ideal.sqrt (Ideal.div (∑ k, (v k - mean v) * (v k - mean v)) c511)

/-- Layer normalisation of a row: γ·(v − mean)/(std + ε) + β. -/
def lnRow (v g β : Row) : Row := fun j => Ideal.div (g j * (v j - mean v)) (std v + ceps) + β j

/-- A gate before its nonlinearity. -/
def gatePre (G : Gate) (xr hr : Row) : Row := lnRow (affRow xr hr G.Wx G.Wh G.b) G.g G.β

/-- The new cell state before its normalisation: f·c + min(1 − f, i)·tanh(j). -/
def cNew (P : Params) (xr hr cr : Row) : Row := fun j =>
  Ideal.logistic (gatePre P.f xr hr j) * cr j
    + min (cone - Ideal.logistic (gatePre P.f xr hr j)) (Ideal.logistic (gatePre P.i xr hr j)) * Ideal.tanh (gatePre P.j xr hr j)

/-- The cell output c: the normalised new cell state. -/
def cOut (P : Params) (xr hr cr : Row) : Row := lnRow (cNew P xr hr cr) P.gc P.βc

/-- The hidden output h = o · c. -/
def hOut (P : Params) (xr hr cr : Row) : Row := fun j => Ideal.logistic (gatePre P.o xr hr j) * cOut P xr hr cr j

/-! ## Arrays -/

/-- Feature k of the concatenated row, first half. -/
abbrev lo (k : Fin 512) : Fin 1024 := ⟨k.val, by have := k.isLt; omega⟩
/-- Feature 512 + k of the concatenated row, second half. -/
abbrev hi (k : Fin 512) : Fin 1024 := ⟨512 + k.val, by have := k.isLt; omega⟩

/-- A sum over the 1024 concatenated features is the sum over the first 512 plus the sum over the last 512. -/
theorem sum_split (f : Fin 1024 → EReal) : ∑ k : Fin 1024, f k = (∑ k : Fin 512, f (lo k)) + ∑ k : Fin 512, f (hi k) := by
  have h := Fin.sum_univ_add (M := EReal) (a := 512) (b := 512) (fun k => f k)
  refine h.trans ?_
  congr 1

/-- Row r of a [R, 512] array. -/
def rowOf {R : Nat} (x : (⟨2, ![R, 512]⟩ : Shape).Idx → EReal) (r : Fin R) : Row := fun k => x (ix2 r k)

/-- A gate's parameters from the arrays as the cell is given them: the weight [512, 1024] with the OUTPUT feature
    first (row j holds the weights of output j over the 1024 concatenated inputs), vectors of 512. -/
def gateOf (W : (⟨2, ![512, 1024]⟩ : Shape).Idx → EReal) (b g β : (⟨1, ![512]⟩ : Shape).Idx → EReal) : Gate where
  Wx := fun k j => W (ix2 j (lo k))
  Wh := fun k j => W (ix2 j (hi k))
  b := fun j => b (ix1 j)
  g := fun j => g (ix1 j)
  β := fun j => β (ix1 j)

/-- A gate's parameters from the two halves already split and transposed (contraction index first). -/
def gateOfT (Wx Wh : (⟨2, ![512, 512]⟩ : Shape).Idx → EReal) (b g β : (⟨1, ![512]⟩ : Shape).Idx → EReal) : Gate where
  Wx := fun k j => Wx (ix2 k j)
  Wh := fun k j => Wh (ix2 k j)
  b := fun j => b (ix1 j)
  g := fun j => g (ix1 j)
  β := fun j => β (ix1 j)

/-- The cell's parameters from the eighteen parameter arrays in the order the programs take them:
    W_f, b_f, W_i, b_i, W_o, b_o, W_j, b_j, then γ and β of f, i, o, j and of the cell state. -/
def paramsOf (Wf : (⟨2, ![512, 1024]⟩ : Shape).Idx → EReal) (bf : (⟨1, ![512]⟩ : Shape).Idx → EReal)
    (Wi : (⟨2, ![512, 1024]⟩ : Shape).Idx → EReal) (bi : (⟨1, ![512]⟩ : Shape).Idx → EReal)
    (Wo : (⟨2, ![512, 1024]⟩ : Shape).Idx → EReal) (bo : (⟨1, ![512]⟩ : Shape).Idx → EReal)
    (Wj : (⟨2, ![512, 1024]⟩ : Shape).Idx → EReal) (bj : (⟨1, ![512]⟩ : Shape).Idx → EReal)
    (gf βf gi βi go βo gj βj gc βc : (⟨1, ![512]⟩ : Shape).Idx → EReal) : Params where
  f := gateOf Wf bf gf βf
  i := gateOf Wi bi gi βi
  o := gateOf Wo bo go βo
  j := gateOf Wj bj gj βj
  gc := fun j => gc (ix1 j)
  βc := fun j => βc (ix1 j)

/-- The cell on a whole [R, 512] batch: the output c. -/
def specC {R : Nat} (P : Params) (x h c : (⟨2, ![R, 512]⟩ : Shape).Idx → EReal) : (⟨2, ![R, 512]⟩ : Shape).Idx → EReal :=
  fun i => cOut P (rowOf x (i 0)) (rowOf h (i 0)) (rowOf c (i 0)) (i 1)

/-- The cell on a whole [R, 512] batch: the output h. -/
def specH {R : Nat} (P : Params) (x h c : (⟨2, ![R, 512]⟩ : Shape).Idx → EReal) : (⟨2, ![R, 512]⟩ : Shape).Idx → EReal :=
  fun i => hOut P (rowOf x (i 0)) (rowOf h (i 0)) (rowOf c (i 0)) (i 1)

theorem specC_ix2 {R : Nat} (P : Params) (x h c : (⟨2, ![R, 512]⟩ : Shape).Idx → EReal) (r : Fin R) (j : Fin 512) :
    specC P x h c (ix2 r j) = cOut P (rowOf x r) (rowOf h r) (rowOf c r) j := rfl

theorem specH_ix2 {R : Nat} (P : Params) (x h c : (⟨2, ![R, 512]⟩ : Shape).Idx → EReal) (r : Fin R) (j : Fin 512) :
    specH P x h c (ix2 r j) = hOut P (rowOf x r) (rowOf h r) (rowOf c r) j := rfl

end Cert.LstmSpec

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.KPayLn.lean ====
/-
  The building blocks of the kernel body's arithmetic on a [512, 512] block, each read at row p and feature j:
  a vector of 512 features added to every row, the column of row means, the column of row sums of squared
  deviations, the layer normalisation built from them, a product with a weight half, and from these a whole gate
  before its nonlinearity — which at row p is the specification's gate on row p of the two input blocks.
-/
import proofs.«138021_j69595650064874_1_alg».proof.Proof.Gen.KernelIdeal.Skeleton
import proofs.«138021_j69595650064874_1_alg».proof.Proof.Spec
import proofs.«138021_j69595650064874_1_alg».proof.Proof.LibKernelIdx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KPay

open Idealize.ShloMosaic Idealize.ShloMosaic.ValueIdx Cert.KernelIdeal Cert.KernelIdeal.Gen Cert.LstmSpec Cert.LibKernelIdx

/-! ## A vector added to every row -/

/-- A vector of 512 features added to every row of a block. -/
def addRow (v : FVec Ideal S512x512 .f32) (b : FVec Ideal S512 .f32) : FVec Ideal S512x512 .f32 :=
  addf v (broadcastTo S512x512 (shapeCast S1x512 b shapeCasts_S512_S1x512) broadcasts_S1x512_S512x512)

theorem addRow_apply (v : FVec Ideal S512x512 .f32) (b : FVec Ideal S512 .f32) (p j : Fin 512) :
    addRow v b (ix2 p j) = v (ix2 p j) + b (ix1 j) := by
  unfold addRow
  rw [addf_apply, broadcastTo_1b_ab_apply, shapeCast_a_1a_apply]

/-! ## Row means and row sums of squared deviations, as columns -/

/-- The column of a block's row means: the lane sums divided by 512. -/
def meanCol (v : FVec Ideal S512x512 .f32) : FVec Ideal S512x1 .f32 :=
  divf (shapeCast S512x1 (multiReduction .add [1] S512 v 0x00000000#32 reduces_S512x512_S512 (.inl rfl) rfl) shapeCasts_S512_S512x1)
    (broadcast S512x1 (Scalar.ofBits .f32 0x44000000#32))

theorem meanCol_apply (v : FVec Ideal S512x512 .f32) (p : Fin 512) (u : Fin 1) :
    meanCol v (ix2 p u) = mean (rowOf (R := 512) v p) := by
  unfold meanCol
  rw [divf_apply, shapeCast_a_a1_apply, broadcast_apply]
  exact congrArg (fun s => Ideal.div s c512) (laneSum_apply v _ _ _ p)

/-- The column of a block's row sums of squared deviations from a column `m`. -/
def ssCol (v : FVec Ideal S512x512 .f32) (m : FVec Ideal S512x1 .f32) : FVec Ideal S512x1 .f32 :=
  shapeCast S512x1 (multiReduction .add [1] S512
      (mulf (subf v (broadcastTo S512x512 m broadcasts_S512x1_S512x512)) (subf v (broadcastTo S512x512 m broadcasts_S512x1_S512x512)))
      0x00000000#32 reduces_S512x512_S512 (.inl rfl) rfl) shapeCasts_S512_S512x1

theorem ssCol_apply (v : FVec Ideal S512x512 .f32) (m : FVec Ideal S512x1 .f32) (p : Fin 512) (u : Fin 1) :
    ssCol v m (ix2 p u)
      = ∑ k : Fin 512, (v (ix2 p k) - m (ix2 p (0 : Fin 1))) * (v (ix2 p k) - m (ix2 p (0 : Fin 1))) := by
  unfold ssCol
  rw [shapeCast_a_a1_apply]
  refine (laneSum_apply _ _ _ _ p).trans ?_
  refine Finset.sum_congr rfl fun k _ => ?_
  rw [mulf_apply, subf_apply, broadcastTo_a1_ab_apply _ _ p k (0 : Fin 1)]

/-! ## The layer normalisation -/

/-- γ·(v − m)/(sqrt(ss / c) + ε) on a block, from a column `m` of means and a column `ss` of sums of squares. -/
def lnTail (v : FVec Ideal S512x512 .f32) (m ss : FVec Ideal S512x1 .f32) (c : Ideal .f32) (g : FVec Ideal S512 .f32) :
    FVec Ideal S512x512 .f32 :=
  divf (mulf (broadcastTo S512x512 (shapeCast S1x512 g shapeCasts_S512_S1x512) broadcasts_S1x512_S512x512)
          (subf v (broadcastTo S512x512 m broadcasts_S512x1_S512x512)))
    (broadcastTo S512x512 (addf (sqrt (divf ss (broadcast S512x1 c))) (broadcast S512x1 (Scalar.ofBits .f32 0x3727C5AC#32)))
      broadcasts_S512x1_S512x512)

theorem lnTail_apply (v : FVec Ideal S512x512 .f32) (m ss : FVec Ideal S512x1 .f32) (c : Ideal .f32) (g : FVec Ideal S512 .f32)
    (p j : Fin 512) :
    lnTail v m ss c g (ix2 p j)
      = Ideal.div (g (ix1 j) * (v (ix2 p j) - m (ix2 p (0 : Fin 1))))
          (Ideal.sqrt (Ideal.div (ss (ix2 p (0 : Fin 1))) c) + ceps) := by
  unfold lnTail
  rw [divf_apply, mulf_apply, subf_apply, broadcastTo_1b_ab_apply, shapeCast_a_1a_apply,
    broadcastTo_a1_ab_apply _ _ p j (0 : Fin 1), broadcastTo_a1_ab_apply _ _ p j (0 : Fin 1)]
  rfl

/-- A block's layer normalisation up to its final shift, row by row: the means and the squared deviations are the
    block's own, the variance divides by 511. -/
def lnBlk (v : FVec Ideal S512x512 .f32) (g : FVec Ideal S512 .f32) : FVec Ideal S512x512 .f32 :=
  lnTail v (meanCol v) (ssCol v (meanCol v)) (Scalar.ofBits .f32 0x43FF8000#32) g

theorem lnBlk_apply (v : FVec Ideal S512x512 .f32) (g : FVec Ideal S512 .f32) (p j : Fin 512) :
    lnBlk v g (ix2 p j)
      = Ideal.div (g (ix1 j) * (rowOf (R := 512) v p j - mean (rowOf (R := 512) v p))) (std (rowOf (R := 512) v p) + ceps) := by
  unfold lnBlk
  rw [lnTail_apply, ssCol_apply, meanCol_apply]
  rfl

/-! ## A product with a weight half, and a gate's affine part -/

/-- A block times a weight half (contraction index first), accumulated from zero. -/
def mmBlk (xb : FVec Ideal S512x512 .bf16) (W : FVec Ideal S512x512 .bf16) : FVec Ideal S512x512 .f32 :=
  matmul dot_S512x512_S512x512_S512x512_1_0_0_1_n_n none xb (shapeCast S512x512 W shapeCasts_S512x512_S512x512)
    (constant S512x512 .f32 0x00000000#32)

theorem mmBlk_apply (xb : FVec Ideal S512x512 .bf16) (W : FVec Ideal S512x512 .bf16) (p j : Fin 512) :
    mmBlk xb W (ix2 p j) = ∑ k : Fin 512, xb (ix2 p k) * W (ix2 k j) := by
  unfold mmBlk
  rw [shapeCast_self]
  exact matmul_zero_apply dot_S512x512_S512x512_S512x512_1_0_0_1_n_n_wf none xb W p j

/-- A gate's affine part on a block: x·Wx + h·Wh + b. -/
def affBlk (xb hb : FVec Ideal S512x512 .bf16) (W1 W2 : FVec Ideal S512x512 .bf16) (b : FVec Ideal S512 .f32) :
    FVec Ideal S512x512 .f32 :=
  addRow (addf (mmBlk xb W1) (mmBlk hb W2)) b

theorem affBlk_row (x0 x1 : FVec Ideal S512x512 .f32) (W1 W2 : FVec Ideal S512x512 .bf16) (b g β : FVec Ideal S512 .f32)
    (p : Fin 512) :
    rowOf (R := 512) (affBlk (k0_pay3 x0) (k0_pay4 x1) W1 W2 b) p
      = affRow (rowOf (R := 512) x0 p) (rowOf (R := 512) x1 p) (gateOfT W1 W2 b g β).Wx (gateOfT W1 W2 b g β).Wh
          (gateOfT W1 W2 b g β).b := by
  funext k
  show affBlk (k0_pay3 x0) (k0_pay4 x1) W1 W2 b (ix2 p k) = _
  unfold affBlk
  rw [addRow_apply, addf_apply, mmBlk_apply, mmBlk_apply]
  rfl

/-! ## A gate before its nonlinearity -/

/-- A gate on a block before its nonlinearity: the layer normalisation of the affine part, shifted by β. -/
def gateBlk (xb hb : FVec Ideal S512x512 .bf16) (W1 W2 : FVec Ideal S512x512 .bf16) (b g β : FVec Ideal S512 .f32) :
    FVec Ideal S512x512 .f32 :=
  addRow (lnBlk (affBlk xb hb W1 W2 b) g) β

/-- At row p it is the specification's gate on row p of the two input blocks. -/
theorem gateBlk_apply (x0 x1 : FVec Ideal S512x512 .f32) (W1 W2 : FVec Ideal S512x512 .bf16) (b g β : FVec Ideal S512 .f32)
    (p j : Fin 512) :
    gateBlk (k0_pay3 x0) (k0_pay4 x1) W1 W2 b g β (ix2 p j)
      = gatePre (gateOfT W1 W2 b g β) (rowOf (R := 512) x0 p) (rowOf (R := 512) x1 p) j := by
  unfold gateBlk
  rw [addRow_apply, lnBlk_apply, affBlk_row x0 x1 W1 W2 b g β p]
  rfl

end Cert.KernelIdeal.KPay

end
-- ==== Proof.KPay.lean ====
/-
  The kernel body's two stored blocks, read at an index: row p of the [512, 512] block the body stores into the
  c-output (window 26) is the cell's normalised new state of row p of the three input blocks, and the block stored into
  the h-output (window 25) the cell's hidden output, with the cell's parameters read off the 22 parameter blocks
  (each gate's two weight halves contraction-index first, as the body's matrix products take them).
-/
import proofs.«138021_j69595650064874_1_alg».proof.Proof.Gen.KernelIdeal.Frame
import proofs.«138021_j69595650064874_1_alg».proof.Proof.Spec
import proofs.«138021_j69595650064874_1_alg».proof.Proof.KPayLn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KPay

open Idealize.ShloMosaic Idealize.ShloMosaic.ValueIdx Cert.KernelIdeal Cert.KernelIdeal.Gen Cert.LstmSpec

/-- The cell's parameters from the body's parameter blocks (windows 3 … 24). -/
def kParams (x3 x4 : Vec Ideal S512x512 .bf16) (x5 x6 x7 : Vec Ideal S512 .f32) (x8 x9 : Vec Ideal S512x512 .bf16) (x10 x11 x12 : Vec Ideal S512 .f32) (x13 x14 : Vec Ideal S512x512 .bf16) (x15 x16 x17 : Vec Ideal S512 .f32) (x18 x19 : Vec Ideal S512x512 .bf16) (x20 x21 x22 : Vec Ideal S512 .f32) (x23 x24 : Vec Ideal S512 .f32) : Params where
  f := gateOfT x3 x4 x5 x6 x7
  i := gateOfT x8 x9 x10 x11 x12
  o := gateOfT x13 x14 x15 x16 x17
  j := gateOfT x18 x19 x20 x21 x22
  gc := fun j => x23 (ix1 j)
  βc := fun j => x24 (ix1 j)

/-! ## The body's payloads as the building blocks

Each equation is between two spellings of one term: a payload's operations, one after the other, are the blocks'
definitions unfolded (the bf16 casts of the two inputs stay as the payloads write them). -/

/-- The f gate: the logistic of the gate on the two input blocks. -/
theorem payF_eq (x0 x1 : Vec Ideal S512x512 .f32) (W1 W2 : Vec Ideal S512x512 .bf16) (b g β : Vec Ideal S512 .f32) :
    k0_pay6 (k0_pay5 x0 x1 W1 W2 b g) β = logistic (gateBlk (k0_pay3 x0) (k0_pay4 x1) W1 W2 b g β) := rfl

/-- The i gate. -/
theorem payI_eq (x0 x1 : Vec Ideal S512x512 .f32) (W1 W2 : Vec Ideal S512x512 .bf16) (b g β : Vec Ideal S512 .f32) :
    k0_pay7 (k0_pay3 x0) (k0_pay4 x1) W1 W2 b g β = logistic (gateBlk (k0_pay3 x0) (k0_pay4 x1) W1 W2 b g β) := rfl

/-- The o gate (its first weight half passes through a same-shape cast of its own). -/
theorem payO_eq (x0 x1 : Vec Ideal S512x512 .f32) (W1 W2 : Vec Ideal S512x512 .bf16) (b g β : Vec Ideal S512 .f32) :
    k0_pay9 (k0_pay3 x0) (k0_pay4 x1) (k0_pay8 W1) W2 b g β = logistic (gateBlk (k0_pay3 x0) (k0_pay4 x1) W1 W2 b g β) := rfl

/-- The new cell state from the cell-state block, the f and i gates and the j gate before its tanh:
    f·c + min(1 − f, i)·tanh(j). -/
def cBlk (c f i jg : FVec Ideal S512x512 .f32) : FVec Ideal S512x512 .f32 :=
  addf (mulf f c) (mulf (minimumf (subf (broadcast S512x512 (Scalar.ofBits .f32 0x3F800000#32)) f) i) (tanh jg))

theorem cBlk_apply (c f i jg : FVec Ideal S512x512 .f32) (y : S512x512.Idx) :
    cBlk c f i jg y = f y * c y + min (cone - f y) (i y) * Ideal.tanh (jg y) := rfl

theorem logistic_apply (v : FVec Ideal S512x512 .f32) (y : S512x512.Idx) : logistic v y = Ideal.logistic (v y) := rfl

/-- The new cell state: the j gate's two products arrive as payloads of their own. -/
theorem payC_eq (x0 x1 x2 : Vec Ideal S512x512 .f32) (f i : FVec Ideal S512x512 .f32) (W1 W2 : Vec Ideal S512x512 .bf16)
    (b g β : Vec Ideal S512 .f32) :
    k0_pay12 x2 f i (k0_pay10 (k0_pay3 x0) W1) (k0_pay11 (k0_pay4 x1) W2) b g β
      = cBlk x2 f i (gateBlk (k0_pay3 x0) (k0_pay4 x1) W1 W2 b g β) := rfl

/-- The stored c block from the new cell state, its column of row means and its column of squared deviations:
    the new cell state's layer normalisation. -/
theorem pay1_eq (C : FVec Ideal S512x512 .f32) (g β : Vec Ideal S512 .f32) :
    k0_pay1 C (meanCol C) (ssCol C (meanCol C)) (Scalar.ofBits .f32 0x43FF8000#32) g β = addRow (lnBlk C g) β := rfl

/-- The column of row means the body keeps of the new cell state. -/
theorem pay13_eq (x2 f i m1 m2 : FVec Ideal S512x512 .f32) (b g β : Vec Ideal S512 .f32) :
    k0_pay13 x2 f i m1 m2 b g β = meanCol (k0_pay12 x2 f i m1 m2 b g β) := rfl

/-- The column of squared deviations the body keeps of the new cell state. -/
theorem pay14_eq (x2 f i m1 m2 : FVec Ideal S512x512 .f32) (b g β : Vec Ideal S512 .f32) :
    k0_pay14 x2 f i m1 m2 b g β = ssCol (k0_pay12 x2 f i m1 m2 b g β) (meanCol (k0_pay12 x2 f i m1 m2 b g β)) := rfl

/-! ## The new cell state, row by row -/

/-- The new cell state block from the input blocks and the f, i, j gates' parameter blocks. -/
def cellBlk (x0 x1 x2 : Vec Ideal S512x512 .f32) (x3 x4 : Vec Ideal S512x512 .bf16) (x5 x6 x7 : Vec Ideal S512 .f32) (x8 x9 : Vec Ideal S512x512 .bf16) (x10 x11 x12 : Vec Ideal S512 .f32) (x18 x19 : Vec Ideal S512x512 .bf16) (x20 x21 x22 : Vec Ideal S512 .f32) : FVec Ideal S512x512 .f32 :=
  cBlk x2 (logistic (gateBlk (k0_pay3 x0) (k0_pay4 x1) x3 x4 x5 x6 x7)) (logistic (gateBlk (k0_pay3 x0) (k0_pay4 x1) x8 x9 x10 x11 x12))
    (gateBlk (k0_pay3 x0) (k0_pay4 x1) x18 x19 x20 x21 x22)

/-- Row p of the new cell state block is the specification's new cell state of row p of the three input blocks. -/
theorem cellBlk_row (x0 x1 x2 : Vec Ideal S512x512 .f32) (x3 x4 : Vec Ideal S512x512 .bf16) (x5 x6 x7 : Vec Ideal S512 .f32) (x8 x9 : Vec Ideal S512x512 .bf16) (x10 x11 x12 : Vec Ideal S512 .f32) (x13 x14 : Vec Ideal S512x512 .bf16) (x15 x16 x17 : Vec Ideal S512 .f32) (x18 x19 : Vec Ideal S512x512 .bf16) (x20 x21 x22 : Vec Ideal S512 .f32) (x23 x24 : Vec Ideal S512 .f32) (p : Fin 512) :
    rowOf (R := 512) (cellBlk x0 x1 x2 x3 x4 x5 x6 x7 x8 x9 x10 x11 x12 x18 x19 x20 x21 x22) p
      = cNew (kParams x3 x4 x5 x6 x7 x8 x9 x10 x11 x12 x13 x14 x15 x16 x17 x18 x19 x20 x21 x22 x23 x24) (rowOf (R := 512) x0 p) (rowOf (R := 512) x1 p) (rowOf (R := 512) x2 p) := by
  funext j
  show cellBlk x0 x1 x2 x3 x4 x5 x6 x7 x8 x9 x10 x11 x12 x18 x19 x20 x21 x22 (ix2 p j) = _
  unfold cellBlk
  rw [cBlk_apply, logistic_apply, logistic_apply, gateBlk_apply, gateBlk_apply, gateBlk_apply]
  rfl

theorem hz2 : (![0, 0] : Fin 2 → Nat) = fun _ => 0 := funext fun a => by fin_cases a <;> rfl
theorem hz1 : (![0] : Fin 1 → Nat) = fun _ => 0 := funext fun a => by fin_cases a <;> rfl

/-- The block stored into the c-output is the layer normalisation of the new cell state block. -/
theorem out26_eq (x0 x1 x2 : Vec Ideal S512x512 .f32) (x3 x4 : Vec Ideal S512x512 .bf16) (x5 x6 x7 : Vec Ideal S512 .f32) (x8 x9 : Vec Ideal S512x512 .bf16) (x10 x11 x12 : Vec Ideal S512 .f32) (x13 x14 : Vec Ideal S512x512 .bf16) (x15 x16 x17 : Vec Ideal S512 .f32) (x18 x19 : Vec Ideal S512x512 .bf16) (x20 x21 x22 : Vec Ideal S512 .f32) (x23 x24 : Vec Ideal S512 .f32) :
    out0_26 (F := Ideal) x0 x1 x2 x3 x4 x5 x6 x7 x8 x9 x10 x11 x12 x13 x14 x15 x16 x17 x18 x19 x20 x21 x22 x23 x24
      = addRow (lnBlk (cellBlk x0 x1 x2 x3 x4 x5 x6 x7 x8 x9 x10 x11 x12 x18 x19 x20 x21 x22) x23) x24 := by
  unfold out0_26
  rw [View.canon_unit_zero hz2]
  simp only [View.ld_unit_zero (S := S512x512) hz2, View.ld_unit_zero (S := S512) hz1]
  rw [pay14_eq, pay13_eq, payC_eq, payF_eq, payI_eq, pay1_eq]
  rfl

/-- The block stored into the h-output is the o gate times the block stored into the c-output. -/
theorem out25_eq (x0 x1 x2 : Vec Ideal S512x512 .f32) (x3 x4 : Vec Ideal S512x512 .bf16) (x5 x6 x7 : Vec Ideal S512 .f32) (x8 x9 : Vec Ideal S512x512 .bf16) (x10 x11 x12 : Vec Ideal S512 .f32) (x13 x14 : Vec Ideal S512x512 .bf16) (x15 x16 x17 : Vec Ideal S512 .f32) (x18 x19 : Vec Ideal S512x512 .bf16) (x20 x21 x22 : Vec Ideal S512 .f32) (x23 x24 : Vec Ideal S512 .f32) :
    out0_25 (F := Ideal) x0 x1 x2 x3 x4 x5 x6 x7 x8 x9 x10 x11 x12 x13 x14 x15 x16 x17 x18 x19 x20 x21 x22 x23 x24
      = mulf (logistic (gateBlk (k0_pay3 x0) (k0_pay4 x1) x13 x14 x15 x16 x17))
          (addRow (lnBlk (cellBlk x0 x1 x2 x3 x4 x5 x6 x7 x8 x9 x10 x11 x12 x18 x19 x20 x21 x22) x23) x24) := by
  unfold out0_25
  rw [View.canon_unit_zero hz2]
  simp only [View.ld_unit_zero (S := S512x512) hz2, View.ld_unit_zero (S := S512) hz1]
  rw [pay14_eq, pay13_eq, payC_eq, payF_eq, payI_eq, payO_eq]
  show mulf _ (k0_pay1 _ _ _ _ _ _) = _
  rw [pay1_eq]
  rfl

/-- The block stored into the c-output, at row p and feature j. -/
theorem out26_apply (x0 x1 x2 : Vec Ideal S512x512 .f32) (x3 x4 : Vec Ideal S512x512 .bf16) (x5 x6 x7 : Vec Ideal S512 .f32) (x8 x9 : Vec Ideal S512x512 .bf16) (x10 x11 x12 : Vec Ideal S512 .f32) (x13 x14 : Vec Ideal S512x512 .bf16) (x15 x16 x17 : Vec Ideal S512 .f32) (x18 x19 : Vec Ideal S512x512 .bf16) (x20 x21 x22 : Vec Ideal S512 .f32) (x23 x24 : Vec Ideal S512 .f32) (p j : Fin 512) :
    out0_26 (F := Ideal) x0 x1 x2 x3 x4 x5 x6 x7 x8 x9 x10 x11 x12 x13 x14 x15 x16 x17 x18 x19 x20 x21 x22 x23 x24 (ix2 p j)
      = cOut (kParams x3 x4 x5 x6 x7 x8 x9 x10 x11 x12 x13 x14 x15 x16 x17 x18 x19 x20 x21 x22 x23 x24) (rowOf (R := 512) x0 p) (rowOf (R := 512) x1 p) (rowOf (R := 512) x2 p) j := by
  rw [out26_eq, addRow_apply, lnBlk_apply, cellBlk_row x0 x1 x2 x3 x4 x5 x6 x7 x8 x9 x10 x11 x12 x13 x14 x15 x16 x17 x18 x19 x20 x21 x22 x23 x24 p]
  rfl

/-- The block stored into the h-output, at row p and feature j. -/
theorem out25_apply (x0 x1 x2 : Vec Ideal S512x512 .f32) (x3 x4 : Vec Ideal S512x512 .bf16) (x5 x6 x7 : Vec Ideal S512 .f32) (x8 x9 : Vec Ideal S512x512 .bf16) (x10 x11 x12 : Vec Ideal S512 .f32) (x13 x14 : Vec Ideal S512x512 .bf16) (x15 x16 x17 : Vec Ideal S512 .f32) (x18 x19 : Vec Ideal S512x512 .bf16) (x20 x21 x22 : Vec Ideal S512 .f32) (x23 x24 : Vec Ideal S512 .f32) (p j : Fin 512) :
    out0_25 (F := Ideal) x0 x1 x2 x3 x4 x5 x6 x7 x8 x9 x10 x11 x12 x13 x14 x15 x16 x17 x18 x19 x20 x21 x22 x23 x24 (ix2 p j)
      = hOut (kParams x3 x4 x5 x6 x7 x8 x9 x10 x11 x12 x13 x14 x15 x16 x17 x18 x19 x20 x21 x22 x23 x24) (rowOf (R := 512) x0 p) (rowOf (R := 512) x1 p) (rowOf (R := 512) x2 p) j := by
  rw [out25_eq, mulf_apply, logistic_apply, gateBlk_apply, addRow_apply, lnBlk_apply, cellBlk_row x0 x1 x2 x3 x4 x5 x6 x7 x8 x9 x10 x11 x12 x13 x14 x15 x16 x17 x18 x19 x20 x21 x22 x23 x24 p]
  rfl

end Cert.KernelIdeal.KPay

end
-- ==== Proof.KBlocks.lean ====
/-
  From the kernel's blocks to its two result arrays, and the kernel's run.

  The grid has 128 points; point t stages rows 512·t … 512·t + 511 of the three batch inputs x, h, c (all 512 features)
  and the whole of every parameter array, and writes back the same rows of the two outputs.  A gate's weight matrix
  [512, 1024] reaches the body as two [512, 512] arrays the host computes before the call: its first and its last 512
  columns, each transposed (so the contraction index comes first) and narrowed to bf16 — on the extended reals the
  narrowing is the identity.  So the parameters the body reads off its blocks are the cell's parameters read off the
  argument arrays, the same at every point; a row of a stored block is the cell on that row of the input blocks, which
  is a row of the arguments; and since row r of an output lies in the block of point r / 512, the blocks written back
  cover each output, which therefore ends holding the cell's output on the whole batch.
-/
import proofs.«138021_j69595650064874_1_alg».proof.Proof.Gen.KernelIdeal.Value
import proofs.«138021_j69595650064874_1_alg».proof.Proof.Spec
import proofs.«138021_j69595650064874_1_alg».proof.Proof.KPay
import Idealize.ShloMosaic.Lib.Pipeline.Value
import Idealize.ShloMosaic.Lib.ValueIdx
import Idealize.ShloMosaic.Lib.ValueLayout
import Idealize.ShloMosaic.Lib.Tactic

noncomputable section

namespace Cert.KernelIdeal.KBlocks

open Idealize.ShloMosaic Idealize.ShloMosaic.TcCoe Idealize.ShloMosaic.ValueIdx Idealize.SL.Sem
open Cert.KernelIdeal Cert.KernelIdeal.Gen Cert.LstmSpec
open Idealize.ShloMosaic.Pipeline (Dat)

variable (m : (ℓ : Loc nD τ sig) → Buf (Elt Ideal) ℓ)
/-! ## The printed index maps over the grid

Point t of the 128 takes block (t, 0) of the three batch inputs and of the two outputs: rows 512·t … 512·t + 511, all
512 features. Every parameter window takes block 0 on every axis at every point: the whole array. -/

theorem idx_batch : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_25.index t (0 : Fin 2) = t.val ∧ win0_25.index t (1 : Fin 2) = 0
    ∧ win0_26.index t (0 : Fin 2) = t.val ∧ win0_26.index t (1 : Fin 2) = 0 :=
  (by decide +kernel : ∀ t : Fin grid0.N, _)

theorem idx_weight : ∀ t : Fin cfg0.N,
    win0_3.index t (0 : Fin 2) = 0 ∧ win0_3.index t (1 : Fin 2) = 0
    ∧ win0_4.index t (0 : Fin 2) = 0 ∧ win0_4.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_18.index t (0 : Fin 2) = 0 ∧ win0_18.index t (1 : Fin 2) = 0
    ∧ win0_19.index t (0 : Fin 2) = 0 ∧ win0_19.index t (1 : Fin 2) = 0 :=
  (by decide +kernel : ∀ t : Fin grid0.N, _)

theorem idx_vec : ∀ t : Fin cfg0.N,
    win0_5.index t (0 : Fin 1) = 0
    ∧ win0_6.index t (0 : Fin 1) = 0
    ∧ win0_7.index t (0 : Fin 1) = 0
    ∧ win0_10.index t (0 : Fin 1) = 0
    ∧ win0_11.index t (0 : Fin 1) = 0
    ∧ win0_12.index t (0 : Fin 1) = 0
    ∧ win0_15.index t (0 : Fin 1) = 0
    ∧ win0_16.index t (0 : Fin 1) = 0
    ∧ win0_17.index t (0 : Fin 1) = 0
    ∧ win0_20.index t (0 : Fin 1) = 0
    ∧ win0_21.index t (0 : Fin 1) = 0
    ∧ win0_22.index t (0 : Fin 1) = 0
    ∧ win0_23.index t (0 : Fin 1) = 0
    ∧ win0_24.index t (0 : Fin 1) = 0 :=
  (by decide +kernel : ∀ t : Fin grid0.N, _)

/-! ## The batch blocks: rows of the argument arrays -/

/-- Entry (p, j) of point t's block of input 0 is entry (512·t + p, j) of the argument. -/
theorem blk0_apply (c : Dev nD) (t : Fin cfg0.N) (p j : Fin 512) (r : Fin 65536) (hr : r.val = 512 * t.val + p.val) :
    (iblk m c 0 t : Vec Ideal S512x512 .f32) (ix2 p j) = ((m ((c : Thread nD τ).loc main_arg0)) : S65536x512.Idx → EReal) (ix2 r j) := by
  obtain ⟨e0, e1, -, -, -, -, -, -, -, -⟩ := idx_batch t
  unfold iblk
  rw [View.read_apply]
  show V m c main_arg0 _ = _
  rw [V_main_arg0]
  congr 1
  funext a
  apply Fin.ext
  match a with
  | ⟨0, _⟩ => show win0_0.index t (0 : Fin 2) * 512 + 1 * p.val = r.val; rw [e0, hr]; omega
  | ⟨1, _⟩ => show win0_0.index t (1 : Fin 2) * 512 + 1 * j.val = j.val; rw [e1]; omega

/-- Row p of point t's block of input 0 is row 512·t + p of the argument. -/
theorem row0 (c : Dev nD) (t : Fin cfg0.N) (p : Fin 512) (r : Fin 65536) (hr : r.val = 512 * t.val + p.val) :
    rowOf (R := 512) (iblk m c 0 t) p = rowOf (R := 65536) (m ((c : Thread nD τ).loc main_arg0)) r :=
  funext fun k => blk0_apply m c t p k r hr

/-- Entry (p, j) of point t's block of input 1 is entry (512·t + p, j) of the argument. -/
theorem blk1_apply (c : Dev nD) (t : Fin cfg0.N) (p j : Fin 512) (r : Fin 65536) (hr : r.val = 512 * t.val + p.val) :
    (iblk m c 1 t : Vec Ideal S512x512 .f32) (ix2 p j) = ((m ((c : Thread nD τ).loc main_arg1)) : S65536x512.Idx → EReal) (ix2 r j) := by
  obtain ⟨-, -, e0, e1, -, -, -, -, -, -⟩ := idx_batch t
  unfold iblk
  rw [View.read_apply]
  show V m c main_arg1 _ = _
  rw [V_main_arg1]
  congr 1
  funext a
  apply Fin.ext
  match a with
  | ⟨0, _⟩ => show win0_1.index t (0 : Fin 2) * 512 + 1 * p.val = r.val; rw [e0, hr]; omega
  | ⟨1, _⟩ => show win0_1.index t (1 : Fin 2) * 512 + 1 * j.val = j.val; rw [e1]; omega

/-- Row p of point t's block of input 1 is row 512·t + p of the argument. -/
theorem row1 (c : Dev nD) (t : Fin cfg0.N) (p : Fin 512) (r : Fin 65536) (hr : r.val = 512 * t.val + p.val) :
    rowOf (R := 512) (iblk m c 1 t) p = rowOf (R := 65536) (m ((c : Thread nD τ).loc main_arg1)) r :=
  funext fun k => blk1_apply m c t p k r hr

/-- Entry (p, j) of point t's block of input 2 is entry (512·t + p, j) of the argument. -/
theorem blk2_apply (c : Dev nD) (t : Fin cfg0.N) (p j : Fin 512) (r : Fin 65536) (hr : r.val = 512 * t.val + p.val) :
    (iblk m c 2 t : Vec Ideal S512x512 .f32) (ix2 p j) = ((m ((c : Thread nD τ).loc main_arg2)) : S65536x512.Idx → EReal) (ix2 r j) := by
  obtain ⟨-, -, -, -, e0, e1, -, -, -, -⟩ := idx_batch t
  unfold iblk
  rw [View.read_apply]
  show V m c main_arg2 _ = _
  rw [V_main_arg2]
  congr 1
  funext a
  apply Fin.ext
  match a with
  | ⟨0, _⟩ => show win0_2.index t (0 : Fin 2) * 512 + 1 * p.val = r.val; rw [e0, hr]; omega
  | ⟨1, _⟩ => show win0_2.index t (1 : Fin 2) * 512 + 1 * j.val = j.val; rw [e1]; omega

/-- Row p of point t's block of input 2 is row 512·t + p of the argument. -/
theorem row2 (c : Dev nD) (t : Fin cfg0.N) (p : Fin 512) (r : Fin 65536) (hr : r.val = 512 * t.val + p.val) :
    rowOf (R := 512) (iblk m c 2 t) p = rowOf (R := 65536) (m ((c : Thread nD τ).loc main_arg2)) r :=
  funext fun k => blk2_apply m c t p k r hr

/-! ## The vector parameter blocks: the whole argument -/

theorem blk5_eq (c : Dev nD) (t : Fin cfg0.N) :
    (iblk m c 5 t : Vec Ideal S512 .f32) = ((m ((c : Thread nD τ).loc main_arg4)) : S512.Idx → EReal) := by
  obtain ⟨e, -, -, -, -, -, -, -, -, -, -, -, -, -⟩ := idx_vec t
  funext y
  unfold iblk
  rw [View.read_apply]
  show V m c main_arg4 _ = _
  rw [V_main_arg4]
  congr 1
  funext a
  apply Fin.ext
  match a with
  | ⟨0, _⟩ => show win0_5.index t (0 : Fin 1) * 512 + 1 * (y 0).val = (y 0).val; rw [e]; omega

theorem blk6_eq (c : Dev nD) (t : Fin cfg0.N) :
    (iblk m c 6 t : Vec Ideal S512 .f32) = ((m ((c : Thread nD τ).loc main_arg11)) : S512.Idx → EReal) := by
  obtain ⟨-, e, -, -, -, -, -, -, -, -, -, -, -, -⟩ := idx_vec t
  funext y
  unfold iblk
  rw [View.read_apply]
  show V m c main_arg11 _ = _
  rw [V_main_arg11]
  congr 1
  funext a
  apply Fin.ext
  match a with
  | ⟨0, _⟩ => show win0_6.index t (0 : Fin 1) * 512 + 1 * (y 0).val = (y 0).val; rw [e]; omega

theorem blk7_eq (c : Dev nD) (t : Fin cfg0.N) :
    (iblk m c 7 t : Vec Ideal S512 .f32) = ((m ((c : Thread nD τ).loc main_arg12)) : S512.Idx → EReal) := by
  obtain ⟨-, -, e, -, -, -, -, -, -, -, -, -, -, -⟩ := idx_vec t
  funext y
  unfold iblk
  rw [View.read_apply]
  show V m c main_arg12 _ = _
  rw [V_main_arg12]
  congr 1
  funext a
  apply Fin.ext
  match a with
  | ⟨0, _⟩ => show win0_7.index t (0 : Fin 1) * 512 + 1 * (y 0).val = (y 0).val; rw [e]; omega

theorem blk10_eq (c : Dev nD) (t : Fin cfg0.N) :
    (iblk m c 10 t : Vec Ideal S512 .f32) = ((m ((c : Thread nD τ).loc main_arg6)) : S512.Idx → EReal) := by
  obtain ⟨-, -, -, e, -, -, -, -, -, -, -, -, -, -⟩ := idx_vec t
  funext y
  unfold iblk
  rw [View.read_apply]
  show V m c main_arg6 _ = _
  rw [V_main_arg6]
  congr 1
  funext a
  apply Fin.ext
  match a with
  | ⟨0, _⟩ => show win0_10.index t (0 : Fin 1) * 512 + 1 * (y 0).val = (y 0).val; rw [e]; omega

theorem blk11_eq (c : Dev nD) (t : Fin cfg0.N) :
    (iblk m c 11 t : Vec Ideal S512 .f32) = ((m ((c : Thread nD τ).loc main_arg13)) : S512.Idx → EReal) := by
  obtain ⟨-, -, -, -, e, -, -, -, -, -, -, -, -, -⟩ := idx_vec t
  funext y
  unfold iblk
  rw [View.read_apply]
  show V m c main_arg13 _ = _
  rw [V_main_arg13]
  congr 1
  funext a
  apply Fin.ext
  match a with
  | ⟨0, _⟩ => show win0_11.index t (0 : Fin 1) * 512 + 1 * (y 0).val = (y 0).val; rw [e]; omega

theorem blk12_eq (c : Dev nD) (t : Fin cfg0.N) :
    (iblk m c 12 t : Vec Ideal S512 .f32) = ((m ((c : Thread nD τ).loc main_arg14)) : S512.Idx → EReal) := by
  obtain ⟨-, -, -, -, -, e, -, -, -, -, -, -, -, -⟩ := idx_vec t
  funext y
  unfold iblk
  rw [View.read_apply]
  show V m c main_arg14 _ = _
  rw [V_main_arg14]
  congr 1
  funext a
  apply Fin.ext
  match a with
  | ⟨0, _⟩ => show win0_12.index t (0 : Fin 1) * 512 + 1 * (y 0).val = (y 0).val; rw [e]; omega

theorem blk15_eq (c : Dev nD) (t : Fin cfg0.N) :
    (iblk m c 15 t : Vec Ideal S512 .f32) = ((m ((c : Thread nD τ).loc main_arg8)) : S512.Idx → EReal) := by
  obtain ⟨-, -, -, -, -, -, e, -, -, -, -, -, -, -⟩ := idx_vec t
  funext y
  unfold iblk
  rw [View.read_apply]
  show V m c main_arg8 _ = _
  rw [V_main_arg8]
  congr 1
  funext a
  apply Fin.ext
  match a with
  | ⟨0, _⟩ => show win0_15.index t (0 : Fin 1) * 512 + 1 * (y 0).val = (y 0).val; rw [e]; omega

theorem blk16_eq (c : Dev nD) (t : Fin cfg0.N) :
    (iblk m c 16 t : Vec Ideal S512 .f32) = ((m ((c : Thread nD τ).loc main_arg15)) : S512.Idx → EReal) := by
  obtain ⟨-, -, -, -, -, -, -, e, -, -, -, -, -, -⟩ := idx_vec t
  funext y
  unfold iblk
  rw [View.read_apply]
  show V m c main_arg15 _ = _
  rw [V_main_arg15]
  congr 1
  funext a
  apply Fin.ext
  match a with
  | ⟨0, _⟩ => show win0_16.index t (0 : Fin 1) * 512 + 1 * (y 0).val = (y 0).val; rw [e]; omega

theorem blk17_eq (c : Dev nD) (t : Fin cfg0.N) :
    (iblk m c 17 t : Vec Ideal S512 .f32) = ((m ((c : Thread nD τ).loc main_arg16)) : S512.Idx → EReal) := by
  obtain ⟨-, -, -, -, -, -, -, -, e, -, -, -, -, -⟩ := idx_vec t
  funext y
  unfold iblk
  rw [View.read_apply]
  show V m c main_arg16 _ = _
  rw [V_main_arg16]
  congr 1
  funext a
  apply Fin.ext
  match a with
  | ⟨0, _⟩ => show win0_17.index t (0 : Fin 1) * 512 + 1 * (y 0).val = (y 0).val; rw [e]; omega

theorem blk20_eq (c : Dev nD) (t : Fin cfg0.N) :
    (iblk m c 20 t : Vec Ideal S512 .f32) = ((m ((c : Thread nD τ).loc main_arg10)) : S512.Idx → EReal) := by
  obtain ⟨-, -, -, -, -, -, -, -, -, e, -, -, -, -⟩ := idx_vec t
  funext y
  unfold iblk
  rw [View.read_apply]
  show V m c main_arg10 _ = _
  rw [V_main_arg10]
  congr 1
  funext a
  apply Fin.ext
  match a with
  | ⟨0, _⟩ => show win0_20.index t (0 : Fin 1) * 512 + 1 * (y 0).val = (y 0).val; rw [e]; omega

theorem blk21_eq (c : Dev nD) (t : Fin cfg0.N) :
    (iblk m c 21 t : Vec Ideal S512 .f32) = ((m ((c : Thread nD τ).loc main_arg17)) : S512.Idx → EReal) := by
  obtain ⟨-, -, -, -, -, -, -, -, -, -, e, -, -, -⟩ := idx_vec t
  funext y
  unfold iblk
  rw [View.read_apply]
  show V m c main_arg17 _ = _
  rw [V_main_arg17]
  congr 1
  funext a
  apply Fin.ext
  match a with
  | ⟨0, _⟩ => show win0_21.index t (0 : Fin 1) * 512 + 1 * (y 0).val = (y 0).val; rw [e]; omega

theorem blk22_eq (c : Dev nD) (t : Fin cfg0.N) :
    (iblk m c 22 t : Vec Ideal S512 .f32) = ((m ((c : Thread nD τ).loc main_arg18)) : S512.Idx → EReal) := by
  obtain ⟨-, -, -, -, -, -, -, -, -, -, -, e, -, -⟩ := idx_vec t
  funext y
  unfold iblk
  rw [View.read_apply]
  show V m c main_arg18 _ = _
  rw [V_main_arg18]
  congr 1
  funext a
  apply Fin.ext
  match a with
  | ⟨0, _⟩ => show win0_22.index t (0 : Fin 1) * 512 + 1 * (y 0).val = (y 0).val; rw [e]; omega

theorem blk23_eq (c : Dev nD) (t : Fin cfg0.N) :
    (iblk m c 23 t : Vec Ideal S512 .f32) = ((m ((c : Thread nD τ).loc main_arg19)) : S512.Idx → EReal) := by
  obtain ⟨-, -, -, -, -, -, -, -, -, -, -, -, e, -⟩ := idx_vec t
  funext y
  unfold iblk
  rw [View.read_apply]
  show V m c main_arg19 _ = _
  rw [V_main_arg19]
  congr 1
  funext a
  apply Fin.ext
  match a with
  | ⟨0, _⟩ => show win0_23.index t (0 : Fin 1) * 512 + 1 * (y 0).val = (y 0).val; rw [e]; omega

theorem blk24_eq (c : Dev nD) (t : Fin cfg0.N) :
    (iblk m c 24 t : Vec Ideal S512 .f32) = ((m ((c : Thread nD τ).loc main_arg20)) : S512.Idx → EReal) := by
  obtain ⟨-, -, -, -, -, -, -, -, -, -, -, -, -, e⟩ := idx_vec t
  funext y
  unfold iblk
  rw [View.read_apply]
  show V m c main_arg20 _ = _
  rw [V_main_arg20]
  congr 1
  funext a
  apply Fin.ext
  match a with
  | ⟨0, _⟩ => show win0_24.index t (0 : Fin 1) * 512 + 1 * (y 0).val = (y 0).val; rw [e]; omega

/-! ## The weight blocks: halves of a gate's weight matrix, transposed on the host

Each gate's [512, 1024] weight matrix (output feature first) is cut on the host into its first and last 512 columns, each
half transposed (contraction index first) and narrowed to bf16, which on the extended reals changes nothing. -/

/-- The first half of a weight matrix, transposed, at (k, j): output feature j's weight on input feature k. -/
theorem wT_lo (W : S512x1024.Idx → EReal) (k j : Fin 512) :
    (truncf .bf16 (transpose S512x512 [1, 0] (extractStridedSlice S512x512 ![0, 0] W slices_S512x1024_S512x512_0_0) transposes_S512x512_S512x512_1_0) bitsLt_bf16_f32 : FVec Ideal S512x512 .bf16) (ix2 k j)
      = W (ix2 j (lo k)) := by
  rw [truncf_apply, transpose_ix2_apply, slice2_axis1_apply 0 W _ j k (lo k) (by simp)]

/-- The second half, transposed, at (k, j): output feature j's weight on input feature 512 + k. -/
theorem wT_hi (W : S512x1024.Idx → EReal) (k j : Fin 512) :
    (truncf .bf16 (transpose S512x512 [1, 0] (extractStridedSlice S512x512 ![0, 512] W slices_S512x1024_S512x512_0_512) transposes_S512x512_S512x512_1_0) bitsLt_bf16_f32 : FVec Ideal S512x512 .bf16) (ix2 k j)
      = W (ix2 j (hi k)) := by
  rw [truncf_apply, transpose_ix2_apply, slice2_axis1_apply 512 W _ j k (hi k) rfl]

/-- What the region finds in the array window 3 stages: the first half of the weight matrix, transposed. -/
theorem V_main_v3 (c : Dev nD) : (V m c main_v3 : S512x512.Idx → EReal)
    = (truncf .bf16 (transpose S512x512 [1, 0] (extractStridedSlice S512x512 ![0, 0] ((m ((c : Thread nD τ).loc main_arg3)) : S512x1024.Idx → EReal) slices_S512x1024_S512x512_0_0) transposes_S512x512_S512x512_1_0) bitsLt_bf16_f32 : FVec Ideal S512x512 .bf16) := by
  dsimp only [Gen.V, Gen.hostOps0]; after_results

theorem blk3_apply (c : Dev nD) (t : Fin cfg0.N) (k j : Fin 512) :
    (iblk m c 3 t : Vec Ideal S512x512 .bf16) (ix2 k j) = ((m ((c : Thread nD τ).loc main_arg3)) : S512x1024.Idx → EReal) (ix2 j (lo k)) := by
  obtain ⟨e0, e1, -, -, -, -, -, -, -, -, -, -, -, -, -, -⟩ := idx_weight t
  unfold iblk
  rw [View.read_apply]
  have hemb : ((cfg0.win 3).blk t).view.emb (ix2 k j) = (ix2 k j : S512x512.Idx) := by
    funext a
    apply Fin.ext
    match a with
    | ⟨0, _⟩ => show win0_3.index t (0 : Fin 2) * 512 + 1 * k.val = k.val; rw [e0]; omega
    | ⟨1, _⟩ => show win0_3.index t (1 : Fin 2) * 512 + 1 * j.val = j.val; rw [e1]; omega
  show V m c main_v3 (((cfg0.win 3).blk t).view.emb (ix2 k j)) = _
  rw [hemb]
  exact (congrFun (V_main_v3 m c) (ix2 k j)).trans (wT_lo _ k j)

/-- What the region finds in the array window 4 stages: the second half of the weight matrix, transposed. -/
theorem V_main_v5 (c : Dev nD) : (V m c main_v5 : S512x512.Idx → EReal)
    = (truncf .bf16 (transpose S512x512 [1, 0] (extractStridedSlice S512x512 ![0, 512] ((m ((c : Thread nD τ).loc main_arg3)) : S512x1024.Idx → EReal) slices_S512x1024_S512x512_0_512) transposes_S512x512_S512x512_1_0) bitsLt_bf16_f32 : FVec Ideal S512x512 .bf16) := by
  dsimp only [Gen.V, Gen.hostOps0]; after_results

theorem blk4_apply (c : Dev nD) (t : Fin cfg0.N) (k j : Fin 512) :
    (iblk m c 4 t : Vec Ideal S512x512 .bf16) (ix2 k j) = ((m ((c : Thread nD τ).loc main_arg3)) : S512x1024.Idx → EReal) (ix2 j (hi k)) := by
  obtain ⟨-, -, e0, e1, -, -, -, -, -, -, -, -, -, -, -, -⟩ := idx_weight t
  unfold iblk
  rw [View.read_apply]
  have hemb : ((cfg0.win 4).blk t).view.emb (ix2 k j) = (ix2 k j : S512x512.Idx) := by
    funext a
    apply Fin.ext
    match a with
    | ⟨0, _⟩ => show win0_4.index t (0 : Fin 2) * 512 + 1 * k.val = k.val; rw [e0]; omega
    | ⟨1, _⟩ => show win0_4.index t (1 : Fin 2) * 512 + 1 * j.val = j.val; rw [e1]; omega
  show V m c main_v5 (((cfg0.win 4).blk t).view.emb (ix2 k j)) = _
  rw [hemb]
  exact (congrFun (V_main_v5 m c) (ix2 k j)).trans (wT_hi _ k j)

/-- What the region finds in the array window 8 stages: the first half of the weight matrix, transposed. -/
theorem V_main_v9 (c : Dev nD) : (V m c main_v9 : S512x512.Idx → EReal)
    = (truncf .bf16 (transpose S512x512 [1, 0] (extractStridedSlice S512x512 ![0, 0] ((m ((c : Thread nD τ).loc main_arg5)) : S512x1024.Idx → EReal) slices_S512x1024_S512x512_0_0) transposes_S512x512_S512x512_1_0) bitsLt_bf16_f32 : FVec Ideal S512x512 .bf16) := by
  dsimp only [Gen.V, Gen.hostOps0]; after_results

theorem blk8_apply (c : Dev nD) (t : Fin cfg0.N) (k j : Fin 512) :
    (iblk m c 8 t : Vec Ideal S512x512 .bf16) (ix2 k j) = ((m ((c : Thread nD τ).loc main_arg5)) : S512x1024.Idx → EReal) (ix2 j (lo k)) := by
  obtain ⟨-, -, -, -, e0, e1, -, -, -, -, -, -, -, -, -, -⟩ := idx_weight t
  unfold iblk
  rw [View.read_apply]
  have hemb : ((cfg0.win 8).blk t).view.emb (ix2 k j) = (ix2 k j : S512x512.Idx) := by
    funext a
    apply Fin.ext
    match a with
    | ⟨0, _⟩ => show win0_8.index t (0 : Fin 2) * 512 + 1 * k.val = k.val; rw [e0]; omega
    | ⟨1, _⟩ => show win0_8.index t (1 : Fin 2) * 512 + 1 * j.val = j.val; rw [e1]; omega
  show V m c main_v9 (((cfg0.win 8).blk t).view.emb (ix2 k j)) = _
  rw [hemb]
  exact (congrFun (V_main_v9 m c) (ix2 k j)).trans (wT_lo _ k j)

/-- What the region finds in the array window 9 stages: the second half of the weight matrix, transposed. -/
theorem V_main_v11 (c : Dev nD) : (V m c main_v11 : S512x512.Idx → EReal)
    = (truncf .bf16 (transpose S512x512 [1, 0] (extractStridedSlice S512x512 ![0, 512] ((m ((c : Thread nD τ).loc main_arg5)) : S512x1024.Idx → EReal) slices_S512x1024_S512x512_0_512) transposes_S512x512_S512x512_1_0) bitsLt_bf16_f32 : FVec Ideal S512x512 .bf16) := by
  dsimp only [Gen.V, Gen.hostOps0]; after_results

theorem blk9_apply (c : Dev nD) (t : Fin cfg0.N) (k j : Fin 512) :
    (iblk m c 9 t : Vec Ideal S512x512 .bf16) (ix2 k j) = ((m ((c : Thread nD τ).loc main_arg5)) : S512x1024.Idx → EReal) (ix2 j (hi k)) := by
  obtain ⟨-, -, -, -, -, -, e0, e1, -, -, -, -, -, -, -, -⟩ := idx_weight t
  unfold iblk
  rw [View.read_apply]
  have hemb : ((cfg0.win 9).blk t).view.emb (ix2 k j) = (ix2 k j : S512x512.Idx) := by
    funext a
    apply Fin.ext
    match a with
    | ⟨0, _⟩ => show win0_9.index t (0 : Fin 2) * 512 + 1 * k.val = k.val; rw [e0]; omega
    | ⟨1, _⟩ => show win0_9.index t (1 : Fin 2) * 512 + 1 * j.val = j.val; rw [e1]; omega
  show V m c main_v11 (((cfg0.win 9).blk t).view.emb (ix2 k j)) = _
  rw [hemb]
  exact (congrFun (V_main_v11 m c) (ix2 k j)).trans (wT_hi _ k j)

/-- What the region finds in the array window 13 stages: the first half of the weight matrix, transposed. -/
theorem V_main_v15 (c : Dev nD) : (V m c main_v15 : S512x512.Idx → EReal)
    = (truncf .bf16 (transpose S512x512 [1, 0] (extractStridedSlice S512x512 ![0, 0] ((m ((c : Thread nD τ).loc main_arg7)) : S512x1024.Idx → EReal) slices_S512x1024_S512x512_0_0) transposes_S512x512_S512x512_1_0) bitsLt_bf16_f32 : FVec Ideal S512x512 .bf16) := by
  dsimp only [Gen.V, Gen.hostOps0]; after_results

theorem blk13_apply (c : Dev nD) (t : Fin cfg0.N) (k j : Fin 512) :
    (iblk m c 13 t : Vec Ideal S512x512 .bf16) (ix2 k j) = ((m ((c : Thread nD τ).loc main_arg7)) : S512x1024.Idx → EReal) (ix2 j (lo k)) := by
  obtain ⟨-, -, -, -, -, -, -, -, e0, e1, -, -, -, -, -, -⟩ := idx_weight t
  unfold iblk
  rw [View.read_apply]
  have hemb : ((cfg0.win 13).blk t).view.emb (ix2 k j) = (ix2 k j : S512x512.Idx) := by
    funext a
    apply Fin.ext
    match a with
    | ⟨0, _⟩ => show win0_13.index t (0 : Fin 2) * 512 + 1 * k.val = k.val; rw [e0]; omega
    | ⟨1, _⟩ => show win0_13.index t (1 : Fin 2) * 512 + 1 * j.val = j.val; rw [e1]; omega
  show V m c main_v15 (((cfg0.win 13).blk t).view.emb (ix2 k j)) = _
  rw [hemb]
  exact (congrFun (V_main_v15 m c) (ix2 k j)).trans (wT_lo _ k j)

/-- What the region finds in the array window 14 stages: the second half of the weight matrix, transposed. -/
theorem V_main_v17 (c : Dev nD) : (V m c main_v17 : S512x512.Idx → EReal)
    = (truncf .bf16 (transpose S512x512 [1, 0] (extractStridedSlice S512x512 ![0, 512] ((m ((c : Thread nD τ).loc main_arg7)) : S512x1024.Idx → EReal) slices_S512x1024_S512x512_0_512) transposes_S512x512_S512x512_1_0) bitsLt_bf16_f32 : FVec Ideal S512x512 .bf16) := by
  dsimp only [Gen.V, Gen.hostOps0]; after_results

theorem blk14_apply (c : Dev nD) (t : Fin cfg0.N) (k j : Fin 512) :
    (iblk m c 14 t : Vec Ideal S512x512 .bf16) (ix2 k j) = ((m ((c : Thread nD τ).loc main_arg7)) : S512x1024.Idx → EReal) (ix2 j (hi k)) := by
  obtain ⟨-, -, -, -, -, -, -, -, -, -, e0, e1, -, -, -, -⟩ := idx_weight t
  unfold iblk
  rw [View.read_apply]
  have hemb : ((cfg0.win 14).blk t).view.emb (ix2 k j) = (ix2 k j : S512x512.Idx) := by
    funext a
    apply Fin.ext
    match a with
    | ⟨0, _⟩ => show win0_14.index t (0 : Fin 2) * 512 + 1 * k.val = k.val; rw [e0]; omega
    | ⟨1, _⟩ => show win0_14.index t (1 : Fin 2) * 512 + 1 * j.val = j.val; rw [e1]; omega
  show V m c main_v17 (((cfg0.win 14).blk t).view.emb (ix2 k j)) = _
  rw [hemb]
  exact (congrFun (V_main_v17 m c) (ix2 k j)).trans (wT_hi _ k j)

/-- What the region finds in the array window 18 stages: the first half of the weight matrix, transposed. -/
theorem V_main_v21 (c : Dev nD) : (V m c main_v21 : S512x512.Idx → EReal)
    = (truncf .bf16 (transpose S512x512 [1, 0] (extractStridedSlice S512x512 ![0, 0] ((m ((c : Thread nD τ).loc main_arg9)) : S512x1024.Idx → EReal) slices_S512x1024_S512x512_0_0) transposes_S512x512_S512x512_1_0) bitsLt_bf16_f32 : FVec Ideal S512x512 .bf16) := by
  dsimp only [Gen.V, Gen.hostOps0]; after_results

theorem blk18_apply (c : Dev nD) (t : Fin cfg0.N) (k j : Fin 512) :
    (iblk m c 18 t : Vec Ideal S512x512 .bf16) (ix2 k j) = ((m ((c : Thread nD τ).loc main_arg9)) : S512x1024.Idx → EReal) (ix2 j (lo k)) := by
  obtain ⟨-, -, -, -, -, -, -, -, -, -, -, -, e0, e1, -, -⟩ := idx_weight t
  unfold iblk
  rw [View.read_apply]
  have hemb : ((cfg0.win 18).blk t).view.emb (ix2 k j) = (ix2 k j : S512x512.Idx) := by
    funext a
    apply Fin.ext
    match a with
    | ⟨0, _⟩ => show win0_18.index t (0 : Fin 2) * 512 + 1 * k.val = k.val; rw [e0]; omega
    | ⟨1, _⟩ => show win0_18.index t (1 : Fin 2) * 512 + 1 * j.val = j.val; rw [e1]; omega
  show V m c main_v21 (((cfg0.win 18).blk t).view.emb (ix2 k j)) = _
  rw [hemb]
  exact (congrFun (V_main_v21 m c) (ix2 k j)).trans (wT_lo _ k j)

/-- What the region finds in the array window 19 stages: the second half of the weight matrix, transposed. -/
theorem V_main_v23 (c : Dev nD) : (V m c main_v23 : S512x512.Idx → EReal)
    = (truncf .bf16 (transpose S512x512 [1, 0] (extractStridedSlice S512x512 ![0, 512] ((m ((c : Thread nD τ).loc main_arg9)) : S512x1024.Idx → EReal) slices_S512x1024_S512x512_0_512) transposes_S512x512_S512x512_1_0) bitsLt_bf16_f32 : FVec Ideal S512x512 .bf16) := by
  dsimp only [Gen.V, Gen.hostOps0]; after_results

theorem blk19_apply (c : Dev nD) (t : Fin cfg0.N) (k j : Fin 512) :
    (iblk m c 19 t : Vec Ideal S512x512 .bf16) (ix2 k j) = ((m ((c : Thread nD τ).loc main_arg9)) : S512x1024.Idx → EReal) (ix2 j (hi k)) := by
  obtain ⟨-, -, -, -, -, -, -, -, -, -, -, -, -, -, e0, e1⟩ := idx_weight t
  unfold iblk
  rw [View.read_apply]
  have hemb : ((cfg0.win 19).blk t).view.emb (ix2 k j) = (ix2 k j : S512x512.Idx) := by
    funext a
    apply Fin.ext
    match a with
    | ⟨0, _⟩ => show win0_19.index t (0 : Fin 2) * 512 + 1 * k.val = k.val; rw [e0]; omega
    | ⟨1, _⟩ => show win0_19.index t (1 : Fin 2) * 512 + 1 * j.val = j.val; rw [e1]; omega
  show V m c main_v23 (((cfg0.win 19).blk t).view.emb (ix2 k j)) = _
  rw [hemb]
  exact (congrFun (V_main_v23 m c) (ix2 k j)).trans (wT_hi _ k j)

/-! ## The parameters -/

/-- A gate read off its two transposed weight halves is the gate read off the weight matrix as the cell is given it. -/
theorem gate_eq (Wx Wh : (⟨2, ![512, 512]⟩ : Shape).Idx → EReal) (b g β : (⟨1, ![512]⟩ : Shape).Idx → EReal)
    (W : (⟨2, ![512, 1024]⟩ : Shape).Idx → EReal) (b' g' β' : (⟨1, ![512]⟩ : Shape).Idx → EReal)
    (hx : ∀ k j : Fin 512, Wx (ix2 k j) = W (ix2 j (lo k))) (hh : ∀ k j : Fin 512, Wh (ix2 k j) = W (ix2 j (hi k)))
    (hb : b = b') (hg : g = g') (hβ : β = β') : gateOfT Wx Wh b g β = gateOf W b' g' β' := by
  subst hb hg hβ
  unfold gateOfT gateOf
  rw [Gate.mk.injEq]
  exact ⟨funext fun k => funext fun j => hx k j, funext fun k => funext fun j => hh k j, rfl, rfl, rfl⟩

/-- The cell's parameters read off the launch memory's parameter arrays. -/
def P (c : Dev nD) : Params :=
  paramsOf (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))

/-- At every point the body's parameter blocks give the cell's parameters. -/
theorem kParams_eq (c : Dev nD) (t : Fin cfg0.N) :
    KPay.kParams (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) = P m c := by
  unfold KPay.kParams P paramsOf
  rw [Params.mk.injEq]
  refine ⟨gate_eq _ _ _ _ _ _ _ _ _ (blk3_apply m c t) (blk4_apply m c t) (blk5_eq m c t) (blk6_eq m c t) (blk7_eq m c t),
    gate_eq _ _ _ _ _ _ _ _ _ (blk8_apply m c t) (blk9_apply m c t) (blk10_eq m c t) (blk11_eq m c t) (blk12_eq m c t),
    gate_eq _ _ _ _ _ _ _ _ _ (blk13_apply m c t) (blk14_apply m c t) (blk15_eq m c t) (blk16_eq m c t) (blk17_eq m c t),
    gate_eq _ _ _ _ _ _ _ _ _ (blk18_apply m c t) (blk19_apply m c t) (blk20_eq m c t) (blk21_eq m c t) (blk22_eq m c t),
    funext fun j => congrFun (blk23_eq m c t) (ix1 j), funext fun j => congrFun (blk24_eq m c t) (ix1 j)⟩

/-! ## What a point writes back -/

/-- Entry (p, j) of point t's block of an array shaped like the h output is its entry (512·t + p, j). -/
theorem read25_apply (G : S65536x512.Idx → EReal) (t : Fin cfg0.N) (p j : Fin 512) (r : Fin 65536) (hr : r.val = 512 * t.val + p.val) :
    (((cfg0.win 25).blk t).view.read (Elt Ideal) G : Vec Ideal S512x512 .f32) (ix2 p j) = G (ix2 r j) := by
  obtain ⟨-, -, -, -, -, -, e0, e1, -, -⟩ := idx_batch t
  rw [View.read_apply]
  refine congrArg G ?_
  funext a
  apply Fin.ext
  match a with
  | ⟨0, _⟩ => show win0_25.index t (0 : Fin 2) * 512 + 1 * p.val = r.val; rw [e0, hr]; omega
  | ⟨1, _⟩ => show win0_25.index t (1 : Fin 2) * 512 + 1 * j.val = j.val; rw [e1]; omega

/-- Point t writes back rows 512·t … 512·t + 511 of the cell's h output: each row of the stored block is the cell on
    that row of the three input blocks, which are those rows of the arguments. -/
theorem flushed25_eq (c : Dev nD) (t : Fin cfg0.N) :
    (dats m 0 c).flushed 25 t = ((cfg0.win 25).blk t).view.read (Elt Ideal) (specH (R := 65536) (P m c) (m ((c : Thread nD τ).loc main_arg0)) (m ((c : Thread nD τ).loc main_arg1)) (m ((c : Thread nD τ).loc main_arg2))) := by
  refine (Value.flushed25 m c t).trans ?_
  show (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) : Vec Ideal S512x512 .f32)
    = (((cfg0.win 25).blk t).view.read (Elt Ideal) (specH (R := 65536) (P m c) (m ((c : Thread nD τ).loc main_arg0)) (m ((c : Thread nD τ).loc main_arg1)) (m ((c : Thread nD τ).loc main_arg2))) : Vec Ideal S512x512 .f32)
  funext y
  obtain ⟨p, j, rfl⟩ : ∃ (p j : Fin 512), y = ix2 p j := ⟨y 0, y 1, eq_ix2 y⟩
  have ht : t.val < 128 := Nat.lt_of_lt_of_eq t.isLt (show cfg0.N = 128 from N_0)
  have hr : 512 * t.val + p.val < 65536 := by have := p.isLt; omega
  rw [read25_apply _ t p j ⟨512 * t.val + p.val, hr⟩ rfl, specH_ix2]
  refine (KPay.out25_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p j).trans ?_
  rw [kParams_eq m c t, row0 m c t p ⟨512 * t.val + p.val, hr⟩ rfl, row1 m c t p ⟨512 * t.val + p.val, hr⟩ rfl,
    row2 m c t p ⟨512 * t.val + p.val, hr⟩ rfl]

/-- An index of the h output is in point t's block iff each coordinate is in the block's range on its axis. -/
theorem mem_blk25 (t : Fin cfg0.N) (i : S65536x512.Idx) :
    i ∈ ((cfg0.win 25).blk t).view.set ↔ ∀ a : Fin 2, win0_25.index t a * S512x512.size a ≤ (i a).val ∧ (i a).val < win0_25.index t a * S512x512.size a + S512x512.size a := by
  show i ∈ ((View.whole main_v24_0).slice (win0_25.rect t)).set ↔ _
  rw [View.set_slice_whole, Rect.mem_set_unit]
  exact Iff.rfl

/-- Row r of the h output is covered by point r / 512. -/
theorem cover25 (i : S65536x512.Idx) :
    ∃ t : Fin cfg0.N, (cfg0.win 25).flush t = true ∧ i ∈ ((cfg0.win 25).blk t).view.set := by
  have hi0 : (i 0).val < 65536 := (i 0).isLt
  have hi1 : (i 1).val < 512 := (i 1).isLt
  obtain ⟨t, ht⟩ : ∃ t : Fin cfg0.N, t.val = (i 0).val / 512 :=
    ⟨⟨(i 0).val / 512, by rw [show cfg0.N = 128 from N_0]; omega⟩, rfl⟩
  obtain ⟨-, -, -, -, -, -, e0, e1, -, -⟩ := idx_batch t
  refine ⟨t, flush0_25 t, ?_⟩
  rw [mem_blk25]
  intro a
  match a with
  | ⟨0, _⟩ => show win0_25.index t (0 : Fin 2) * 512 ≤ (i 0).val ∧ (i 0).val < win0_25.index t (0 : Fin 2) * 512 + 512; rw [e0, ht]; omega
  | ⟨1, _⟩ => show win0_25.index t (1 : Fin 2) * 512 ≤ (i 1).val ∧ (i 1).val < win0_25.index t (1 : Fin 2) * 512 + 512; rw [e1]; omega

/-- The h output after the run is the cell on the whole batch. -/
theorem final25 (c : Dev nD) :
    (dats m 0 c).arrAt 25 cfg0.N = specH (R := 65536) (P m c) (m ((c : Thread nD τ).loc main_arg0)) (m ((c : Thread nD τ).loc main_arg1)) (m ((c : Thread nD τ).loc main_arg2)) :=
  (dats m 0 c).arrAt_eq_of_cover 25 (specH (R := 65536) (P m c) (m ((c : Thread nD τ).loc main_arg0)) (m ((c : Thread nD τ).loc main_arg1)) (m ((c : Thread nD τ).loc main_arg2))) (fun t _ => flushed25_eq m c t) cover25

/-- Entry (p, j) of point t's block of an array shaped like the c output is its entry (512·t + p, j). -/
theorem read26_apply (G : S65536x512.Idx → EReal) (t : Fin cfg0.N) (p j : Fin 512) (r : Fin 65536) (hr : r.val = 512 * t.val + p.val) :
    (((cfg0.win 26).blk t).view.read (Elt Ideal) G : Vec Ideal S512x512 .f32) (ix2 p j) = G (ix2 r j) := by
  obtain ⟨-, -, -, -, -, -, -, -, e0, e1⟩ := idx_batch t
  rw [View.read_apply]
  refine congrArg G ?_
  funext a
  apply Fin.ext
  match a with
  | ⟨0, _⟩ => show win0_26.index t (0 : Fin 2) * 512 + 1 * p.val = r.val; rw [e0, hr]; omega
  | ⟨1, _⟩ => show win0_26.index t (1 : Fin 2) * 512 + 1 * j.val = j.val; rw [e1]; omega

/-- Point t writes back rows 512·t … 512·t + 511 of the cell's c output: each row of the stored block is the cell on
    that row of the three input blocks, which are those rows of the arguments. -/
theorem flushed26_eq (c : Dev nD) (t : Fin cfg0.N) :
    (dats m 0 c).flushed 26 t = ((cfg0.win 26).blk t).view.read (Elt Ideal) (specC (R := 65536) (P m c) (m ((c : Thread nD τ).loc main_arg0)) (m ((c : Thread nD τ).loc main_arg1)) (m ((c : Thread nD τ).loc main_arg2))) := by
  refine (Value.flushed26 m c t).trans ?_
  show (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) : Vec Ideal S512x512 .f32)
    = (((cfg0.win 26).blk t).view.read (Elt Ideal) (specC (R := 65536) (P m c) (m ((c : Thread nD τ).loc main_arg0)) (m ((c : Thread nD τ).loc main_arg1)) (m ((c : Thread nD τ).loc main_arg2))) : Vec Ideal S512x512 .f32)
  funext y
  obtain ⟨p, j, rfl⟩ : ∃ (p j : Fin 512), y = ix2 p j := ⟨y 0, y 1, eq_ix2 y⟩
  have ht : t.val < 128 := Nat.lt_of_lt_of_eq t.isLt (show cfg0.N = 128 from N_0)
  have hr : 512 * t.val + p.val < 65536 := by have := p.isLt; omega
  rw [read26_apply _ t p j ⟨512 * t.val + p.val, hr⟩ rfl, specC_ix2]
  refine (KPay.out26_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p j).trans ?_
  rw [kParams_eq m c t, row0 m c t p ⟨512 * t.val + p.val, hr⟩ rfl, row1 m c t p ⟨512 * t.val + p.val, hr⟩ rfl,
    row2 m c t p ⟨512 * t.val + p.val, hr⟩ rfl]

/-- An index of the c output is in point t's block iff each coordinate is in the block's range on its axis. -/
theorem mem_blk26 (t : Fin cfg0.N) (i : S65536x512.Idx) :
    i ∈ ((cfg0.win 26).blk t).view.set ↔ ∀ a : Fin 2, win0_26.index t a * S512x512.size a ≤ (i a).val ∧ (i a).val < win0_26.index t a * S512x512.size a + S512x512.size a := by
  show i ∈ ((View.whole main_v24_1).slice (win0_26.rect t)).set ↔ _
  rw [View.set_slice_whole, Rect.mem_set_unit]
  exact Iff.rfl

/-- Row r of the c output is covered by point r / 512. -/
theorem cover26 (i : S65536x512.Idx) :
    ∃ t : Fin cfg0.N, (cfg0.win 26).flush t = true ∧ i ∈ ((cfg0.win 26).blk t).view.set := by
  have hi0 : (i 0).val < 65536 := (i 0).isLt
  have hi1 : (i 1).val < 512 := (i 1).isLt
  obtain ⟨t, ht⟩ : ∃ t : Fin cfg0.N, t.val = (i 0).val / 512 :=
    ⟨⟨(i 0).val / 512, by rw [show cfg0.N = 128 from N_0]; omega⟩, rfl⟩
  obtain ⟨-, -, -, -, -, -, -, -, e0, e1⟩ := idx_batch t
  refine ⟨t, flush0_26 t, ?_⟩
  rw [mem_blk26]
  intro a
  match a with
  | ⟨0, _⟩ => show win0_26.index t (0 : Fin 2) * 512 ≤ (i 0).val ∧ (i 0).val < win0_26.index t (0 : Fin 2) * 512 + 512; rw [e0, ht]; omega
  | ⟨1, _⟩ => show win0_26.index t (1 : Fin 2) * 512 ≤ (i 1).val ∧ (i 1).val < win0_26.index t (1 : Fin 2) * 512 + 512; rw [e1]; omega

/-- The c output after the run is the cell on the whole batch. -/
theorem final26 (c : Dev nD) :
    (dats m 0 c).arrAt 26 cfg0.N = specC (R := 65536) (P m c) (m ((c : Thread nD τ).loc main_arg0)) (m ((c : Thread nD τ).loc main_arg1)) (m ((c : Thread nD τ).loc main_arg2)) :=
  (dats m 0 c).arrAt_eq_of_cover 26 (specC (R := 65536) (P m c) (m ((c : Thread nD τ).loc main_arg0)) (m ((c : Thread nD τ).loc main_arg1)) (m ((c : Thread nD τ).loc main_arg2))) (fun t _ => flushed26_eq m c t) cover26

/-! ## The run -/

/-- The kernel's run: the two result arrays end at the cell's h and c outputs on the whole batch, the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v24_0) = specH (R := 65536) (P m c) (m ((c : Thread nD τ).loc main_arg0)) (m ((c : Thread nD τ).loc main_arg1)) (m ((c : Thread nD τ).loc main_arg2))
      ∧ r.2.mem ((c : Thread nD τ).loc main_v24_1) = specC (R := 65536) (P m c) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final25 m c), (h c).2.1.trans (final26 m c), (h c).2.2⟩)
    (Value.run_blocks m ρ)

end Cert.KernelIdeal.KBlocks

end
-- ==== Proof.RefRunOps.lean ====
/-
  The reference program's host operations as literal lists, in program order, cut where its mathematics cuts: per gate
  the affine map, the row statistics, the normalisation with its activation; then the cell state, its statistics, and the
  two results. Each call of the standard-deviation function is written out as the operations of its body (and of the
  variance and selection functions it calls in turn) over that call's own buffers, which is what running the call does.
  A cut also falls wherever the printed program is cut into its three parts.
-/
import proofs.«138021_j69595650064874_1_alg».proof.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal

variable {F : FTy → Type} [FloatOps F] [Facts]
open Facts₀ Facts

/-- Operations of statements 1 … 6: the forget gate's affine map: the concatenation (x ‖ h), Wfᵀ, the product, the bias broadcast, the sum. -/
def opsAffF : List (HloOp τ sig (Elt F)) :=
  [ binary main_arg0 main_arg1 main_v0 ((fun a b => concatenate S65536x1024 1 [⟨S65536x512, a⟩, ⟨S65536x512, b⟩] concatenates_S65536x512_S65536x512_S65536x1024_d1) : (⟨S65536x512, .f32⟩ : BufTy).Contents (Elt F) → (⟨S65536x512, .f32⟩ : BufTy).Contents (Elt F) → (⟨S65536x1024, .f32⟩ : BufTy).Contents (Elt F)),
    unary main_arg3 main_v1 ((transpose S1024x512 [1, 0] · transposes_S512x1024_S1024x512_1_0) : (⟨S512x1024, .f32⟩ : BufTy).Contents (Elt F) → (⟨S1024x512, .f32⟩ : BufTy).Contents (Elt F)),
    binary main_v0 main_v1 main_v2 ((fun l r => Host.dotGeneral dot_S65536x1024_S1024x512_S65536x512_1_0_0_1_n_n none l r) : (⟨S65536x1024, .f32⟩ : BufTy).Contents (Elt F) → (⟨S1024x512, .f32⟩ : BufTy).Contents (Elt F) → (⟨S65536x512, .f32⟩ : BufTy).Contents (Elt F)),
    unary main_arg4 main_v3 (broadcastInDim S1x512 ![1] bcast_S512_S1x512_1 : (⟨S512, .f32⟩ : BufTy).Contents (Elt F) → (⟨S1x512, .f32⟩ : BufTy).Contents (Elt F)),
    unary main_v3 main_v4 (broadcastInDim S65536x512 ![0, 1] bcast_S1x512_S65536x512_0_1 : (⟨S1x512, .f32⟩ : BufTy).Contents (Elt F) → (⟨S65536x512, .f32⟩ : BufTy).Contents (Elt F)),
    binary main_v2 main_v4 main_v5 (addf : (⟨S65536x512, .f32⟩ : BufTy).Contents (Elt F) → (⟨S65536x512, .f32⟩ : BufTy).Contents (Elt F) → (⟨S65536x512, .f32⟩ : BufTy).Contents (Elt F)) ]

/-- Operations of statements 7 … 14: the forget gate's row mean and row standard deviation (the deviation's function written out: its mean, centred squares, divisor 512 − 1 with its guard, square root). -/
def opsStatF : List (HloOp τ sig (Elt F)) :=
  [ nullary main_cst (constant S_ .f32 0x00000000#32),
    binary main_v5 main_cst main_v6 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v6 main_v7 (broadcastInDim S65536x1 ![0] bcast_S65536_S65536x1_0 : (⟨S65536, .f32⟩ : BufTy).Contents (Elt F) → (⟨S65536x1, .f32⟩ : BufTy).Contents (Elt F)),
    nullary main_cst_0 (constant S_ .f32 0x44000000#32),
    unary main_cst_0 main_v8 (broadcastInDim S65536x1 ![] bcast_S_S65536x1 : (⟨S_, .f32⟩ : BufTy).Contents (Elt F) → (⟨S65536x1, .f32⟩ : BufTy).Contents (Elt F)),
    binary main_v7 main_v8 main_v9 (Host.divf : (⟨S65536x1, .f32⟩ : BufTy).Contents (Elt F) → (⟨S65536x1, .f32⟩ : BufTy).Contents (Elt F) → (⟨S65536x1, .f32⟩ : BufTy).Contents (Elt F)),
    nullary main_c (constantI S_ 32 1#32),
    TRef.nullary main_call0.call0.cst (constant S_ .f32 0x00000000#32),
    TRef.binary (.of main_v5 : TRef sig ⟨S65536x512, .f32⟩) main_call0.call0.cst main_call0.call0.v0 (fun x v => Host.reduceAdd x v reducesTo_S65536x512_S65536_d1 h_S_),
    TRef.unary main_call0.call0.v0 main_call0.call0.v1 (broadcastInDim S65536x1 ![0] bcast_S65536_S65536x1_0),
    TRef.nullary main_call0.call0.cst_0 (constant S_ .f32 0x44000000#32),
    TRef.unary main_call0.call0.cst_0 main_call0.call0.v2 (broadcastInDim S65536x1 ![] bcast_S_S65536x1),
    TRef.binary main_call0.call0.v1 main_call0.call0.v2 main_call0.call0.v3 Host.divf,
    TRef.unary main_call0.call0.v3 main_call0.call0.v4 (broadcastInDim S65536x512 ![0, 1] bcast_S65536x1_S65536x512_0_1),
    TRef.binary (.of main_v5 : TRef sig ⟨S65536x512, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x44000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S65536x512_S65536_d1 h_S_),
    TRef.unary main_call0.call0.v9 main_call0.call0.v10 (broadcastInDim S65536x1 ![0] bcast_S65536_S65536x1_0),
    TRef.unary main_call0.call0.v8 main_call0.call0.v11 (broadcastInDim S65536x1 ![] bcast_S_S65536x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S65536x1 ![] bcast_S_S65536x1),
    TRef.ternary main_call0.call0.v13 main_call0.call0.v12 main_call0.call0.call0.v1 main_call0.call0.call0.v2 (fun p a b => select (broadcastInDim S65536x1 ![] bcast_S_S65536x1 p) a b),
    TRef.unary main_call0.call0.call0.v2 main_call0.v1 Host.sqrt ]

/-- Operations of statements 15 … 35: the forget gate's normalisation γ·(v − μ)/(σ + ε) + β and the logistic 1/(1 + exp(−z)). -/
def opsNormF : List (HloOp τ sig (Elt F)) :=
  [ unary main_v9 main_v11 (broadcastInDim S65536x512 ![0, 1] bcast_S65536x1_S65536x512_0_1 : (⟨S65536x1, .f32⟩ : BufTy).Contents (Elt F) → (⟨S65536x512, .f32⟩ : BufTy).Contents (Elt F)),
    binary main_v5 main_v11 main_v12 (subf : (⟨S65536x512, .f32⟩ : BufTy).Contents (Elt F) → (⟨S65536x512, .f32⟩ : BufTy).Contents (Elt F) → (⟨S65536x512, .f32⟩ : BufTy).Contents (Elt F)),
    unary main_arg11 main_v13 (broadcastInDim S1x512 ![1] bcast_S512_S1x512_1 : (⟨S512, .f32⟩ : BufTy).Contents (Elt F) → (⟨S1x512, .f32⟩ : BufTy).Contents (Elt F)),
    unary main_v13 main_v14 (broadcastInDim S65536x512 ![0, 1] bcast_S1x512_S65536x512_0_1 : (⟨S1x512, .f32⟩ : BufTy).Contents (Elt F) → (⟨S65536x512, .f32⟩ : BufTy).Contents (Elt F)),
    binary main_v14 main_v12 main_v15 (mulf : (⟨S65536x512, .f32⟩ : BufTy).Contents (Elt F) → (⟨S65536x512, .f32⟩ : BufTy).Contents (Elt F) → (⟨S65536x512, .f32⟩ : BufTy).Contents (Elt F)),
    nullary main_cst_1 (constant S_ .f32 0x3727C5AC#32),
    unary main_cst_1 main_v16 (broadcastInDim S65536x1 ![] bcast_S_S65536x1 : (⟨S_, .f32⟩ : BufTy).Contents (Elt F) → (⟨S65536x1, .f32⟩ : BufTy).Contents (Elt F)),
    binary main_v10 main_v16 main_v17 (addf : (⟨S65536x1, .f32⟩ : BufTy).Contents (Elt F) → (⟨S65536x1, .f32⟩ : BufTy).Contents (Elt F) → (⟨S65536x1, .f32⟩ : BufTy).Contents (Elt F)),
    unary main_v17 main_v18 (broadcastInDim S65536x512 ![0, 1] bcast_S65536x1_S65536x512_0_1 : (⟨S65536x1, .f32⟩ : BufTy).Contents (Elt F) → (⟨S65536x512, .f32⟩ : BufTy).Contents (Elt F)),
    binary main_v15 main_v18 main_v19 (Host.divf : (⟨S65536x512, .f32⟩ : BufTy).Contents (Elt F) → (⟨S65536x512, .f32⟩ : BufTy).Contents (Elt F) → (⟨S65536x512, .f32⟩ : BufTy).Contents (Elt F)),
    unary main_arg12 main_v20 (broadcastInDim S1x512 ![1] bcast_S512_S1x512_1 : (⟨S512, .f32⟩ : BufTy).Contents (Elt F) → (⟨S1x512, .f32⟩ : BufTy).Contents (Elt F)),
    unary main_v20 main_v21 (broadcastInDim S65536x512 ![0, 1] bcast_S1x512_S65536x512_0_1 : (⟨S1x512, .f32⟩ : BufTy).Contents (Elt F) → (⟨S65536x512, .f32⟩ : BufTy).Contents (Elt F)),
    binary main_v19 main_v21 main_v22 (addf : (⟨S65536x512, .f32⟩ : BufTy).Contents (Elt F) → (⟨S65536x512, .f32⟩ : BufTy).Contents (Elt F) → (⟨S65536x512, .f32⟩ : BufTy).Contents (Elt F)),
    unary main_v22 main_v23 (Host.negf : (⟨S65536x512, .f32⟩ : BufTy).Contents (Elt F) → (⟨S65536x512, .f32⟩ : BufTy).Contents (Elt F)),
    unary main_v23 main_v24 (Host.exp : (⟨S65536x512, .f32⟩ : BufTy).Contents (Elt F) → (⟨S65536x512, .f32⟩ : BufTy).Contents (Elt F)),
    nullary main_cst_2 (constant S_ .f32 0x3F800000#32),
    unary main_cst_2 main_v25 (broadcastInDim S65536x512 ![] bcast_S_S65536x512 : (⟨S_, .f32⟩ : BufTy).Contents (Elt F) → (⟨S65536x512, .f32⟩ : BufTy).Contents (Elt F)),
    binary main_v25 main_v24 main_v26 (addf : (⟨S65536x512, .f32⟩ : BufTy).Contents (Elt F) → (⟨S65536x512, .f32⟩ : BufTy).Contents (Elt F) → (⟨S65536x512, .f32⟩ : BufTy).Contents (Elt F)),
    nullary main_cst_3 (constant S_ .f32 0x3F800000#32),
    unary main_cst_3 main_v27 (broadcastInDim S65536x512 ![] bcast_S_S65536x512 : (⟨S_, .f32⟩ : BufTy).Contents (Elt F) → (⟨S65536x512, .f32⟩ : BufTy).Contents (Elt F)),
    binary main_v27 main_v26 main_v28 (Host.divf : (⟨S65536x512, .f32⟩ : BufTy).Contents (Elt F) → (⟨S65536x512, .f32⟩ : BufTy).Contents (Elt F) → (⟨S65536x512, .f32⟩ : BufTy).Contents (Elt F)) ]

/-- Operations of statements 36 … 40: the input gate's affine map. -/
def opsAffI : List (HloOp τ sig (Elt F)) :=
  [ unary main_arg5 main_v29 ((transpose S1024x512 [1, 0] · transposes_S512x1024_S1024x512_1_0) : (⟨S512x1024, .f32⟩ : BufTy).Contents (Elt F) → (⟨S1024x512, .f32⟩ : BufTy).Contents (Elt F)),
    binary main_v0 main_v29 main_v30 ((fun l r => Host.dotGeneral dot_S65536x1024_S1024x512_S65536x512_1_0_0_1_n_n none l r) : (⟨S65536x1024, .f32⟩ : BufTy).Contents (Elt F) → (⟨S1024x512, .f32⟩ : BufTy).Contents (Elt F) → (⟨S65536x512, .f32⟩ : BufTy).Contents (Elt F)),
    unary main_arg6 main_v31 (broadcastInDim S1x512 ![1] bcast_S512_S1x512_1 : (⟨S512, .f32⟩ : BufTy).Contents (Elt F) → (⟨S1x512, .f32⟩ : BufTy).Contents (Elt F)),
    unary main_v31 main_v32 (broadcastInDim S65536x512 ![0, 1] bcast_S1x512_S65536x512_0_1 : (⟨S1x512, .f32⟩ : BufTy).Contents (Elt F) → (⟨S65536x512, .f32⟩ : BufTy).Contents (Elt F)),
    binary main_v30 main_v32 main_v33 (addf : (⟨S65536x512, .f32⟩ : BufTy).Contents (Elt F) → (⟨S65536x512, .f32⟩ : BufTy).Contents (Elt F) → (⟨S65536x512, .f32⟩ : BufTy).Contents (Elt F)) ]

/-- Operations of statements 41 … 48: the input gate's row mean and row standard deviation. -/
def opsStatI : List (HloOp τ sig (Elt F)) :=
  [ nullary main_cst_4 (constant S_ .f32 0x00000000#32),
    binary main_v33 main_cst_4 main_v34 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v34 main_v35 (broadcastInDim S65536x1 ![0] bcast_S65536_S65536x1_0 : (⟨S65536, .f32⟩ : BufTy).Contents (Elt F) → (⟨S65536x1, .f32⟩ : BufTy).Contents (Elt F)),
    nullary main_cst_5 (constant S_ .f32 0x44000000#32),
    unary main_cst_5 main_v36 (broadcastInDim S65536x1 ![] bcast_S_S65536x1 : (⟨S_, .f32⟩ : BufTy).Contents (Elt F) → (⟨S65536x1, .f32⟩ : BufTy).Contents (Elt F)),
    binary main_v35 main_v36 main_v37 (Host.divf : (⟨S65536x1, .f32⟩ : BufTy).Contents (Elt F) → (⟨S65536x1, .f32⟩ : BufTy).Contents (Elt F) → (⟨S65536x1, .f32⟩ : BufTy).Contents (Elt F)),
    nullary main_c_6 (constantI S_ 32 1#32),
    TRef.nullary main_call1.call0.cst (constant S_ .f32 0x00000000#32),
    TRef.binary (.of main_v33 : TRef sig ⟨S65536x512, .f32⟩) main_call1.call0.cst main_call1.call0.v0 (fun x v => Host.reduceAdd x v reducesTo_S65536x512_S65536_d1 h_S_),
    TRef.unary main_call1.call0.v0 main_call1.call0.v1 (broadcastInDim S65536x1 ![0] bcast_S65536_S65536x1_0),
    TRef.nullary main_call1.call0.cst_0 (constant S_ .f32 0x44000000#32),
    TRef.unary main_call1.call0.cst_0 main_call1.call0.v2 (broadcastInDim S65536x1 ![] bcast_S_S65536x1),
    TRef.binary main_call1.call0.v1 main_call1.call0.v2 main_call1.call0.v3 Host.divf,
    TRef.unary main_call1.call0.v3 main_call1.call0.v4 (broadcastInDim S65536x512 ![0, 1] bcast_S65536x1_S65536x512_0_1),
    TRef.binary (.of main_v33 : TRef sig ⟨S65536x512, .f32⟩) main_call1.call0.v4 main_call1.call0.v5 subf,
    TRef.binary main_call1.call0.v5 main_call1.call0.v5 main_call1.call0.v6 mulf,
    TRef.unary (.of main_c_6 : TRef sig ⟨S_, .i32⟩) main_call1.call0.v7 (sitofp .f32),
    TRef.nullary main_call1.call0.cst_1 (constant S_ .f32 0x44000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S65536x512_S65536_d1 h_S_),
    TRef.unary main_call1.call0.v9 main_call1.call0.v10 (broadcastInDim S65536x1 ![0] bcast_S65536_S65536x1_0),
    TRef.unary main_call1.call0.v8 main_call1.call0.v11 (broadcastInDim S65536x1 ![] bcast_S_S65536x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S65536x1 ![] bcast_S_S65536x1),
    TRef.ternary main_call1.call0.v13 main_call1.call0.v12 main_call1.call0.call0.v1 main_call1.call0.call0.v2 (fun p a b => select (broadcastInDim S65536x1 ![] bcast_S_S65536x1 p) a b),
    TRef.unary main_call1.call0.call0.v2 main_call1.v1 Host.sqrt ]

/-- Operations of statements 49 … 60: the input gate's normalisation up to the quotient, and β broadcast. -/
def opsNormI0 : List (HloOp τ sig (Elt F)) :=
  [ unary main_v37 main_v39 (broadcastInDim S65536x512 ![0, 1] bcast_S65536x1_S65536x512_0_1 : (⟨S65536x1, .f32⟩ : BufTy).Contents (Elt F) → (⟨S65536x512, .f32⟩ : BufTy).Contents (Elt F)),
    binary main_v33 main_v39 main_v40 (subf : (⟨S65536x512, .f32⟩ : BufTy).Contents (Elt F) → (⟨S65536x512, .f32⟩ : BufTy).Contents (Elt F) → (⟨S65536x512, .f32⟩ : BufTy).Contents (Elt F)),
    unary main_arg13 main_v41 (broadcastInDim S1x512 ![1] bcast_S512_S1x512_1 : (⟨S512, .f32⟩ : BufTy).Contents (Elt F) → (⟨S1x512, .f32⟩ : BufTy).Contents (Elt F)),
    unary main_v41 main_v42 (broadcastInDim S65536x512 ![0, 1] bcast_S1x512_S65536x512_0_1 : (⟨S1x512, .f32⟩ : BufTy).Contents (Elt F) → (⟨S65536x512, .f32⟩ : BufTy).Contents (Elt F)),
    binary main_v42 main_v40 main_v43 (mulf : (⟨S65536x512, .f32⟩ : BufTy).Contents (Elt F) → (⟨S65536x512, .f32⟩ : BufTy).Contents (Elt F) → (⟨S65536x512, .f32⟩ : BufTy).Contents (Elt F)),
    nullary main_cst_7 (constant S_ .f32 0x3727C5AC#32),
    unary main_cst_7 main_v44 (broadcastInDim S65536x1 ![] bcast_S_S65536x1 : (⟨S_, .f32⟩ : BufTy).Contents (Elt F) → (⟨S65536x1, .f32⟩ : BufTy).Contents (Elt F)),
    binary main_v38 main_v44 main_v45 (addf : (⟨S65536x1, .f32⟩ : BufTy).Contents (Elt F) → (⟨S65536x1, .f32⟩ : BufTy).Contents (Elt F) → (⟨S65536x1, .f32⟩ : BufTy).Contents (Elt F)),
    unary main_v45 main_v46 (broadcastInDim S65536x512 ![0, 1] bcast_S65536x1_S65536x512_0_1 : (⟨S65536x1, .f32⟩ : BufTy).Contents (Elt F) → (⟨S65536x512, .f32⟩ : BufTy).Contents (Elt F)),
    binary main_v43 main_v46 main_v47 (Host.divf : (⟨S65536x512, .f32⟩ : BufTy).Contents (Elt F) → (⟨S65536x512, .f32⟩ : BufTy).Contents (Elt F) → (⟨S65536x512, .f32⟩ : BufTy).Contents (Elt F)),
    unary main_arg14 main_v48 (broadcastInDim S1x512 ![1] bcast_S512_S1x512_1 : (⟨S512, .f32⟩ : BufTy).Contents (Elt F) → (⟨S1x512, .f32⟩ : BufTy).Contents (Elt F)),
    unary main_v48 main_v49 (broadcastInDim S65536x512 ![0, 1] bcast_S1x512_S65536x512_0_1 : (⟨S1x512, .f32⟩ : BufTy).Contents (Elt F) → (⟨S65536x512, .f32⟩ : BufTy).Contents (Elt F)) ]

/-- Operations of statements 61 … 69: the input gate's normalisation finished and the logistic. -/
def opsNormI1 : List (HloOp τ sig (Elt F)) :=
  [ binary main_v47 main_v49 main_v50 (addf : (⟨S65536x512, .f32⟩ : BufTy).Contents (Elt F) → (⟨S65536x512, .f32⟩ : BufTy).Contents (Elt F) → (⟨S65536x512, .f32⟩ : BufTy).Contents (Elt F)),
    unary main_v50 main_v51 (Host.negf : (⟨S65536x512, .f32⟩ : BufTy).Contents (Elt F) → (⟨S65536x512, .f32⟩ : BufTy).Contents (Elt F)),
    unary main_v51 main_v52 (Host.exp : (⟨S65536x512, .f32⟩ : BufTy).Contents (Elt F) → (⟨S65536x512, .f32⟩ : BufTy).Contents (Elt F)),
    nullary main_cst_8 (constant S_ .f32 0x3F800000#32),
    unary main_cst_8 main_v53 (broadcastInDim S65536x512 ![] bcast_S_S65536x512 : (⟨S_, .f32⟩ : BufTy).Contents (Elt F) → (⟨S65536x512, .f32⟩ : BufTy).Contents (Elt F)),
    binary main_v53 main_v52 main_v54 (addf : (⟨S65536x512, .f32⟩ : BufTy).Contents (Elt F) → (⟨S65536x512, .f32⟩ : BufTy).Contents (Elt F) → (⟨S65536x512, .f32⟩ : BufTy).Contents (Elt F)),
    nullary main_cst_9 (constant S_ .f32 0x3F800000#32),
    unary main_cst_9 main_v55 (broadcastInDim S65536x512 ![] bcast_S_S65536x512 : (⟨S_, .f32⟩ : BufTy).Contents (Elt F) → (⟨S65536x512, .f32⟩ : BufTy).Contents (Elt F)),
    binary main_v55 main_v54 main_v56 (Host.divf : (⟨S65536x512, .f32⟩ : BufTy).Contents (Elt F) → (⟨S65536x512, .f32⟩ : BufTy).Contents (Elt F) → (⟨S65536x512, .f32⟩ : BufTy).Contents (Elt F)) ]

/-- Operations of statements 70 … 74: the output gate's affine map. -/
def opsAffO : List (HloOp τ sig (Elt F)) :=
  [ unary main_arg7 main_v57 ((transpose S1024x512 [1, 0] · transposes_S512x1024_S1024x512_1_0) : (⟨S512x1024, .f32⟩ : BufTy).Contents (Elt F) → (⟨S1024x512, .f32⟩ : BufTy).Contents (Elt F)),
    binary main_v0 main_v57 main_v58 ((fun l r => Host.dotGeneral dot_S65536x1024_S1024x512_S65536x512_1_0_0_1_n_n none l r) : (⟨S65536x1024, .f32⟩ : BufTy).Contents (Elt F) → (⟨S1024x512, .f32⟩ : BufTy).Contents (Elt F) → (⟨S65536x512, .f32⟩ : BufTy).Contents (Elt F)),
    unary main_arg8 main_v59 (broadcastInDim S1x512 ![1] bcast_S512_S1x512_1 : (⟨S512, .f32⟩ : BufTy).Contents (Elt F) → (⟨S1x512, .f32⟩ : BufTy).Contents (Elt F)),
    unary main_v59 main_v60 (broadcastInDim S65536x512 ![0, 1] bcast_S1x512_S65536x512_0_1 : (⟨S1x512, .f32⟩ : BufTy).Contents (Elt F) → (⟨S65536x512, .f32⟩ : BufTy).Contents (Elt F)),
    binary main_v58 main_v60 main_v61 (addf : (⟨S65536x512, .f32⟩ : BufTy).Contents (Elt F) → (⟨S65536x512, .f32⟩ : BufTy).Contents (Elt F) → (⟨S65536x512, .f32⟩ : BufTy).Contents (Elt F)) ]

/-- Operations of statements 75 … 82: the output gate's row mean and row standard deviation. -/
def opsStatO : List (HloOp τ sig (Elt F)) :=
  [ nullary main_cst_10 (constant S_ .f32 0x00000000#32),
    binary main_v61 main_cst_10 main_v62 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v62 main_v63 (broadcastInDim S65536x1 ![0] bcast_S65536_S65536x1_0 : (⟨S65536, .f32⟩ : BufTy).Contents (Elt F) → (⟨S65536x1, .f32⟩ : BufTy).Contents (Elt F)),
    nullary main_cst_11 (constant S_ .f32 0x44000000#32),
    unary main_cst_11 main_v64 (broadcastInDim S65536x1 ![] bcast_S_S65536x1 : (⟨S_, .f32⟩ : BufTy).Contents (Elt F) → (⟨S65536x1, .f32⟩ : BufTy).Contents (Elt F)),
    binary main_v63 main_v64 main_v65 (Host.divf : (⟨S65536x1, .f32⟩ : BufTy).Contents (Elt F) → (⟨S65536x1, .f32⟩ : BufTy).Contents (Elt F) → (⟨S65536x1, .f32⟩ : BufTy).Contents (Elt F)),
    nullary main_c_12 (constantI S_ 32 1#32),
    TRef.nullary main_call2.call0.cst (constant S_ .f32 0x00000000#32),
    TRef.binary (.of main_v61 : TRef sig ⟨S65536x512, .f32⟩) main_call2.call0.cst main_call2.call0.v0 (fun x v => Host.reduceAdd x v reducesTo_S65536x512_S65536_d1 h_S_),
    TRef.unary main_call2.call0.v0 main_call2.call0.v1 (broadcastInDim S65536x1 ![0] bcast_S65536_S65536x1_0),
    TRef.nullary main_call2.call0.cst_0 (constant S_ .f32 0x44000000#32),
    TRef.unary main_call2.call0.cst_0 main_call2.call0.v2 (broadcastInDim S65536x1 ![] bcast_S_S65536x1),
    TRef.binary main_call2.call0.v1 main_call2.call0.v2 main_call2.call0.v3 Host.divf,
    TRef.unary main_call2.call0.v3 main_call2.call0.v4 (broadcastInDim S65536x512 ![0, 1] bcast_S65536x1_S65536x512_0_1),
    TRef.binary (.of main_v61 : TRef sig ⟨S65536x512, .f32⟩) main_call2.call0.v4 main_call2.call0.v5 subf,
    TRef.binary main_call2.call0.v5 main_call2.call0.v5 main_call2.call0.v6 mulf,
    TRef.unary (.of main_c_12 : TRef sig ⟨S_, .i32⟩) main_call2.call0.v7 (sitofp .f32),
    TRef.nullary main_call2.call0.cst_1 (constant S_ .f32 0x44000000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S65536x512_S65536_d1 h_S_),
    TRef.unary main_call2.call0.v9 main_call2.call0.v10 (broadcastInDim S65536x1 ![0] bcast_S65536_S65536x1_0),
    TRef.unary main_call2.call0.v8 main_call2.call0.v11 (broadcastInDim S65536x1 ![] bcast_S_S65536x1),
    TRef.binary main_call2.call0.v10 main_call2.call0.v11 main_call2.call0.v12 Host.divf,
    TRef.nullary main_call2.call0.cst_3 (constant S_ .f32 0x00000000#32),
    TRef.binary main_call2.call0.v8 main_call2.call0.cst_3 main_call2.call0.v13 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S65536x1 ![] bcast_S_S65536x1),
    TRef.ternary main_call2.call0.v13 main_call2.call0.v12 main_call2.call0.call0.v1 main_call2.call0.call0.v2 (fun p a b => select (broadcastInDim S65536x1 ![] bcast_S_S65536x1 p) a b),
    TRef.unary main_call2.call0.call0.v2 main_call2.v1 Host.sqrt ]

/-- Operations of statements 83 … 103: the output gate's normalisation and the logistic. -/
def opsNormO : List (HloOp τ sig (Elt F)) :=
  [ unary main_v65 main_v67 (broadcastInDim S65536x512 ![0, 1] bcast_S65536x1_S65536x512_0_1 : (⟨S65536x1, .f32⟩ : BufTy).Contents (Elt F) → (⟨S65536x512, .f32⟩ : BufTy).Contents (Elt F)),
    binary main_v61 main_v67 main_v68 (subf : (⟨S65536x512, .f32⟩ : BufTy).Contents (Elt F) → (⟨S65536x512, .f32⟩ : BufTy).Contents (Elt F) → (⟨S65536x512, .f32⟩ : BufTy).Contents (Elt F)),
    unary main_arg15 main_v69 (broadcastInDim S1x512 ![1] bcast_S512_S1x512_1 : (⟨S512, .f32⟩ : BufTy).Contents (Elt F) → (⟨S1x512, .f32⟩ : BufTy).Contents (Elt F)),
    unary main_v69 main_v70 (broadcastInDim S65536x512 ![0, 1] bcast_S1x512_S65536x512_0_1 : (⟨S1x512, .f32⟩ : BufTy).Contents (Elt F) → (⟨S65536x512, .f32⟩ : BufTy).Contents (Elt F)),
    binary main_v70 main_v68 main_v71 (mulf : (⟨S65536x512, .f32⟩ : BufTy).Contents (Elt F) → (⟨S65536x512, .f32⟩ : BufTy).Contents (Elt F) → (⟨S65536x512, .f32⟩ : BufTy).Contents (Elt F)),
    nullary main_cst_13 (constant S_ .f32 0x3727C5AC#32),
    unary main_cst_13 main_v72 (broadcastInDim S65536x1 ![] bcast_S_S65536x1 : (⟨S_, .f32⟩ : BufTy).Contents (Elt F) → (⟨S65536x1, .f32⟩ : BufTy).Contents (Elt F)),
    binary main_v66 main_v72 main_v73 (addf : (⟨S65536x1, .f32⟩ : BufTy).Contents (Elt F) → (⟨S65536x1, .f32⟩ : BufTy).Contents (Elt F) → (⟨S65536x1, .f32⟩ : BufTy).Contents (Elt F)),
    unary main_v73 main_v74 (broadcastInDim S65536x512 ![0, 1] bcast_S65536x1_S65536x512_0_1 : (⟨S65536x1, .f32⟩ : BufTy).Contents (Elt F) → (⟨S65536x512, .f32⟩ : BufTy).Contents (Elt F)),
    binary main_v71 main_v74 main_v75 (Host.divf : (⟨S65536x512, .f32⟩ : BufTy).Contents (Elt F) → (⟨S65536x512, .f32⟩ : BufTy).Contents (Elt F) → (⟨S65536x512, .f32⟩ : BufTy).Contents (Elt F)),
    unary main_arg16 main_v76 (broadcastInDim S1x512 ![1] bcast_S512_S1x512_1 : (⟨S512, .f32⟩ : BufTy).Contents (Elt F) → (⟨S1x512, .f32⟩ : BufTy).Contents (Elt F)),
    unary main_v76 main_v77 (broadcastInDim S65536x512 ![0, 1] bcast_S1x512_S65536x512_0_1 : (⟨S1x512, .f32⟩ : BufTy).Contents (Elt F) → (⟨S65536x512, .f32⟩ : BufTy).Contents (Elt F)),
    binary main_v75 main_v77 main_v78 (addf : (⟨S65536x512, .f32⟩ : BufTy).Contents (Elt F) → (⟨S65536x512, .f32⟩ : BufTy).Contents (Elt F) → (⟨S65536x512, .f32⟩ : BufTy).Contents (Elt F)),
    unary main_v78 main_v79 (Host.negf : (⟨S65536x512, .f32⟩ : BufTy).Contents (Elt F) → (⟨S65536x512, .f32⟩ : BufTy).Contents (Elt F)),
    unary main_v79 main_v80 (Host.exp : (⟨S65536x512, .f32⟩ : BufTy).Contents (Elt F) → (⟨S65536x512, .f32⟩ : BufTy).Contents (Elt F)),
    nullary main_cst_14 (constant S_ .f32 0x3F800000#32),
    unary main_cst_14 main_v81 (broadcastInDim S65536x512 ![] bcast_S_S65536x512 : (⟨S_, .f32⟩ : BufTy).Contents (Elt F) → (⟨S65536x512, .f32⟩ : BufTy).Contents (Elt F)),
    binary main_v81 main_v80 main_v82 (addf : (⟨S65536x512, .f32⟩ : BufTy).Contents (Elt F) → (⟨S65536x512, .f32⟩ : BufTy).Contents (Elt F) → (⟨S65536x512, .f32⟩ : BufTy).Contents (Elt F)),
    nullary main_cst_15 (constant S_ .f32 0x3F800000#32),
    unary main_cst_15 main_v83 (broadcastInDim S65536x512 ![] bcast_S_S65536x512 : (⟨S_, .f32⟩ : BufTy).Contents (Elt F) → (⟨S65536x512, .f32⟩ : BufTy).Contents (Elt F)),
    binary main_v83 main_v82 main_v84 (Host.divf : (⟨S65536x512, .f32⟩ : BufTy).Contents (Elt F) → (⟨S65536x512, .f32⟩ : BufTy).Contents (Elt F) → (⟨S65536x512, .f32⟩ : BufTy).Contents (Elt F)) ]

/-- Operations of statements 104 … 108: the candidate's affine map. -/
def opsAffJ : List (HloOp τ sig (Elt F)) :=
  [ unary main_arg9 main_v85 ((transpose S1024x512 [1, 0] · transposes_S512x1024_S1024x512_1_0) : (⟨S512x1024, .f32⟩ : BufTy).Contents (Elt F) → (⟨S1024x512, .f32⟩ : BufTy).Contents (Elt F)),
    binary main_v0 main_v85 main_v86 ((fun l r => Host.dotGeneral dot_S65536x1024_S1024x512_S65536x512_1_0_0_1_n_n none l r) : (⟨S65536x1024, .f32⟩ : BufTy).Contents (Elt F) → (⟨S1024x512, .f32⟩ : BufTy).Contents (Elt F) → (⟨S65536x512, .f32⟩ : BufTy).Contents (Elt F)),
    unary main_arg10 main_v87 (broadcastInDim S1x512 ![1] bcast_S512_S1x512_1 : (⟨S512, .f32⟩ : BufTy).Contents (Elt F) → (⟨S1x512, .f32⟩ : BufTy).Contents (Elt F)),
    unary main_v87 main_v88 (broadcastInDim S65536x512 ![0, 1] bcast_S1x512_S65536x512_0_1 : (⟨S1x512, .f32⟩ : BufTy).Contents (Elt F) → (⟨S65536x512, .f32⟩ : BufTy).Contents (Elt F)),
    binary main_v86 main_v88 main_v89 (addf : (⟨S65536x512, .f32⟩ : BufTy).Contents (Elt F) → (⟨S65536x512, .f32⟩ : BufTy).Contents (Elt F) → (⟨S65536x512, .f32⟩ : BufTy).Contents (Elt F)) ]

/-- Operations of statements 109 … 116: the candidate's row mean and row standard deviation. -/
def opsStatJ : List (HloOp τ sig (Elt F)) :=
  [ nullary main_cst_16 (constant S_ .f32 0x00000000#32),
    binary main_v89 main_cst_16 main_v90 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v90 main_v91 (broadcastInDim S65536x1 ![0] bcast_S65536_S65536x1_0 : (⟨S65536, .f32⟩ : BufTy).Contents (Elt F) → (⟨S65536x1, .f32⟩ : BufTy).Contents (Elt F)),
    nullary main_cst_17 (constant S_ .f32 0x44000000#32),
    unary main_cst_17 main_v92 (broadcastInDim S65536x1 ![] bcast_S_S65536x1 : (⟨S_, .f32⟩ : BufTy).Contents (Elt F) → (⟨S65536x1, .f32⟩ : BufTy).Contents (Elt F)),
    binary main_v91 main_v92 main_v93 (Host.divf : (⟨S65536x1, .f32⟩ : BufTy).Contents (Elt F) → (⟨S65536x1, .f32⟩ : BufTy).Contents (Elt F) → (⟨S65536x1, .f32⟩ : BufTy).Contents (Elt F)),
    nullary main_c_18 (constantI S_ 32 1#32),
    TRef.nullary main_call3.call0.cst (constant S_ .f32 0x00000000#32),
    TRef.binary (.of main_v89 : TRef sig ⟨S65536x512, .f32⟩) main_call3.call0.cst main_call3.call0.v0 (fun x v => Host.reduceAdd x v reducesTo_S65536x512_S65536_d1 h_S_),
    TRef.unary main_call3.call0.v0 main_call3.call0.v1 (broadcastInDim S65536x1 ![0] bcast_S65536_S65536x1_0),
    TRef.nullary main_call3.call0.cst_0 (constant S_ .f32 0x44000000#32),
    TRef.unary main_call3.call0.cst_0 main_call3.call0.v2 (broadcastInDim S65536x1 ![] bcast_S_S65536x1),
    TRef.binary main_call3.call0.v1 main_call3.call0.v2 main_call3.call0.v3 Host.divf,
    TRef.unary main_call3.call0.v3 main_call3.call0.v4 (broadcastInDim S65536x512 ![0, 1] bcast_S65536x1_S65536x512_0_1),
    TRef.binary (.of main_v89 : TRef sig ⟨S65536x512, .f32⟩) main_call3.call0.v4 main_call3.call0.v5 subf,
    TRef.binary main_call3.call0.v5 main_call3.call0.v5 main_call3.call0.v6 mulf,
    TRef.unary (.of main_c_18 : TRef sig ⟨S_, .i32⟩) main_call3.call0.v7 (sitofp .f32),
    TRef.nullary main_call3.call0.cst_1 (constant S_ .f32 0x44000000#32),
    TRef.binary main_call3.call0.cst_1 main_call3.call0.v7 main_call3.call0.v8 subf,
    TRef.nullary main_call3.call0.cst_2 (constant S_ .f32 0x00000000#32),
    TRef.binary main_call3.call0.v6 main_call3.call0.cst_2 main_call3.call0.v9 (fun x v => Host.reduceAdd x v reducesTo_S65536x512_S65536_d1 h_S_),
    TRef.unary main_call3.call0.v9 main_call3.call0.v10 (broadcastInDim S65536x1 ![0] bcast_S65536_S65536x1_0),
    TRef.unary main_call3.call0.v8 main_call3.call0.v11 (broadcastInDim S65536x1 ![] bcast_S_S65536x1),
    TRef.binary main_call3.call0.v10 main_call3.call0.v11 main_call3.call0.v12 Host.divf,
    TRef.nullary main_call3.call0.cst_3 (constant S_ .f32 0x00000000#32),
    TRef.binary main_call3.call0.v8 main_call3.call0.cst_3 main_call3.call0.v13 (cmpf .ogt),
    TRef.nullary main_call3.call0.cst_4 (constant S_ .f32 0x7FC00000#32),
    TRef.unary main_call3.call0.cst_4 main_call3.call0.call0.v0 id,
    TRef.unary main_call3.call0.call0.v0 main_call3.call0.call0.v1 (broadcastInDim S65536x1 ![] bcast_S_S65536x1),
    TRef.ternary main_call3.call0.v13 main_call3.call0.v12 main_call3.call0.call0.v1 main_call3.call0.call0.v2 (fun p a b => select (broadcastInDim S65536x1 ![] bcast_S_S65536x1 p) a b),
    TRef.unary main_call3.call0.call0.v2 main_call3.v1 Host.sqrt ]

/-- Operations of statements 117 … 120: the candidate's centring and γ broadcast. -/
def opsNormJ0 : List (HloOp τ sig (Elt F)) :=
  [ unary main_v93 main_v95 (broadcastInDim S65536x512 ![0, 1] bcast_S65536x1_S65536x512_0_1 : (⟨S65536x1, .f32⟩ : BufTy).Contents (Elt F) → (⟨S65536x512, .f32⟩ : BufTy).Contents (Elt F)),
    binary main_v89 main_v95 main_v96 (subf : (⟨S65536x512, .f32⟩ : BufTy).Contents (Elt F) → (⟨S65536x512, .f32⟩ : BufTy).Contents (Elt F) → (⟨S65536x512, .f32⟩ : BufTy).Contents (Elt F)),
    unary main_arg17 main_v97 (broadcastInDim S1x512 ![1] bcast_S512_S1x512_1 : (⟨S512, .f32⟩ : BufTy).Contents (Elt F) → (⟨S1x512, .f32⟩ : BufTy).Contents (Elt F)),
    unary main_v97 main_v98 (broadcastInDim S65536x512 ![0, 1] bcast_S1x512_S65536x512_0_1 : (⟨S1x512, .f32⟩ : BufTy).Contents (Elt F) → (⟨S65536x512, .f32⟩ : BufTy).Contents (Elt F)) ]

/-- Operations of statements 121 … 130: the candidate's normalisation finished and the hyperbolic tangent. -/
def opsNormJ1 : List (HloOp τ sig (Elt F)) :=
  [ binary main_v98 main_v96 main_v99 (mulf : (⟨S65536x512, .f32⟩ : BufTy).Contents (Elt F) → (⟨S65536x512, .f32⟩ : BufTy).Contents (Elt F) → (⟨S65536x512, .f32⟩ : BufTy).Contents (Elt F)),
    nullary main_cst_19 (constant S_ .f32 0x3727C5AC#32),
    unary main_cst_19 main_v100 (broadcastInDim S65536x1 ![] bcast_S_S65536x1 : (⟨S_, .f32⟩ : BufTy).Contents (Elt F) → (⟨S65536x1, .f32⟩ : BufTy).Contents (Elt F)),
    binary main_v94 main_v100 main_v101 (addf : (⟨S65536x1, .f32⟩ : BufTy).Contents (Elt F) → (⟨S65536x1, .f32⟩ : BufTy).Contents (Elt F) → (⟨S65536x1, .f32⟩ : BufTy).Contents (Elt F)),
    unary main_v101 main_v102 (broadcastInDim S65536x512 ![0, 1] bcast_S65536x1_S65536x512_0_1 : (⟨S65536x1, .f32⟩ : BufTy).Contents (Elt F) → (⟨S65536x512, .f32⟩ : BufTy).Contents (Elt F)),
    binary main_v99 main_v102 main_v103 (Host.divf : (⟨S65536x512, .f32⟩ : BufTy).Contents (Elt F) → (⟨S65536x512, .f32⟩ : BufTy).Contents (Elt F) → (⟨S65536x512, .f32⟩ : BufTy).Contents (Elt F)),
    unary main_arg18 main_v104 (broadcastInDim S1x512 ![1] bcast_S512_S1x512_1 : (⟨S512, .f32⟩ : BufTy).Contents (Elt F) → (⟨S1x512, .f32⟩ : BufTy).Contents (Elt F)),
    unary main_v104 main_v105 (broadcastInDim S65536x512 ![0, 1] bcast_S1x512_S65536x512_0_1 : (⟨S1x512, .f32⟩ : BufTy).Contents (Elt F) → (⟨S65536x512, .f32⟩ : BufTy).Contents (Elt F)),
    binary main_v103 main_v105 main_v106 (addf : (⟨S65536x512, .f32⟩ : BufTy).Contents (Elt F) → (⟨S65536x512, .f32⟩ : BufTy).Contents (Elt F) → (⟨S65536x512, .f32⟩ : BufTy).Contents (Elt F)),
    unary main_v106 main_v107 (Host.tanh : (⟨S65536x512, .f32⟩ : BufTy).Contents (Elt F) → (⟨S65536x512, .f32⟩ : BufTy).Contents (Elt F)) ]

/-- Operations of statements 131 … 137: the new cell state f·c + min(1 − f, i)·j. -/
def opsCell : List (HloOp τ sig (Elt F)) :=
  [ binary main_v28 main_arg2 main_v108 (mulf : (⟨S65536x512, .f32⟩ : BufTy).Contents (Elt F) → (⟨S65536x512, .f32⟩ : BufTy).Contents (Elt F) → (⟨S65536x512, .f32⟩ : BufTy).Contents (Elt F)),
    nullary main_cst_20 (constant S_ .f32 0x3F800000#32),
    unary main_cst_20 main_v109 (broadcastInDim S65536x512 ![] bcast_S_S65536x512 : (⟨S_, .f32⟩ : BufTy).Contents (Elt F) → (⟨S65536x512, .f32⟩ : BufTy).Contents (Elt F)),
    binary main_v109 main_v28 main_v110 (subf : (⟨S65536x512, .f32⟩ : BufTy).Contents (Elt F) → (⟨S65536x512, .f32⟩ : BufTy).Contents (Elt F) → (⟨S65536x512, .f32⟩ : BufTy).Contents (Elt F)),
    binary main_v110 main_v56 main_v111 (minimumf : (⟨S65536x512, .f32⟩ : BufTy).Contents (Elt F) → (⟨S65536x512, .f32⟩ : BufTy).Contents (Elt F) → (⟨S65536x512, .f32⟩ : BufTy).Contents (Elt F)),
    binary main_v111 main_v107 main_v112 (mulf : (⟨S65536x512, .f32⟩ : BufTy).Contents (Elt F) → (⟨S65536x512, .f32⟩ : BufTy).Contents (Elt F) → (⟨S65536x512, .f32⟩ : BufTy).Contents (Elt F)),
    binary main_v108 main_v112 main_v113 (addf : (⟨S65536x512, .f32⟩ : BufTy).Contents (Elt F) → (⟨S65536x512, .f32⟩ : BufTy).Contents (Elt F) → (⟨S65536x512, .f32⟩ : BufTy).Contents (Elt F)) ]

/-- Operations of statements 138 … 145: the cell state's row mean and row standard deviation. -/
def opsStatC : List (HloOp τ sig (Elt F)) :=
  [ nullary main_cst_21 (constant S_ .f32 0x00000000#32),
    binary main_v113 main_cst_21 main_v114 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v114 main_v115 (broadcastInDim S65536x1 ![0] bcast_S65536_S65536x1_0 : (⟨S65536, .f32⟩ : BufTy).Contents (Elt F) → (⟨S65536x1, .f32⟩ : BufTy).Contents (Elt F)),
    nullary main_cst_22 (constant S_ .f32 0x44000000#32),
    unary main_cst_22 main_v116 (broadcastInDim S65536x1 ![] bcast_S_S65536x1 : (⟨S_, .f32⟩ : BufTy).Contents (Elt F) → (⟨S65536x1, .f32⟩ : BufTy).Contents (Elt F)),
    binary main_v115 main_v116 main_v117 (Host.divf : (⟨S65536x1, .f32⟩ : BufTy).Contents (Elt F) → (⟨S65536x1, .f32⟩ : BufTy).Contents (Elt F) → (⟨S65536x1, .f32⟩ : BufTy).Contents (Elt F)),
    nullary main_c_23 (constantI S_ 32 1#32),
    TRef.nullary main_call4.call0.cst (constant S_ .f32 0x00000000#32),
    TRef.binary (.of main_v113 : TRef sig ⟨S65536x512, .f32⟩) main_call4.call0.cst main_call4.call0.v0 (fun x v => Host.reduceAdd x v reducesTo_S65536x512_S65536_d1 h_S_),
    TRef.unary main_call4.call0.v0 main_call4.call0.v1 (broadcastInDim S65536x1 ![0] bcast_S65536_S65536x1_0),
    TRef.nullary main_call4.call0.cst_0 (constant S_ .f32 0x44000000#32),
    TRef.unary main_call4.call0.cst_0 main_call4.call0.v2 (broadcastInDim S65536x1 ![] bcast_S_S65536x1),
    TRef.binary main_call4.call0.v1 main_call4.call0.v2 main_call4.call0.v3 Host.divf,
    TRef.unary main_call4.call0.v3 main_call4.call0.v4 (broadcastInDim S65536x512 ![0, 1] bcast_S65536x1_S65536x512_0_1),
    TRef.binary (.of main_v113 : TRef sig ⟨S65536x512, .f32⟩) main_call4.call0.v4 main_call4.call0.v5 subf,
    TRef.binary main_call4.call0.v5 main_call4.call0.v5 main_call4.call0.v6 mulf,
    TRef.unary (.of main_c_23 : TRef sig ⟨S_, .i32⟩) main_call4.call0.v7 (sitofp .f32),
    TRef.nullary main_call4.call0.cst_1 (constant S_ .f32 0x44000000#32),
    TRef.binary main_call4.call0.cst_1 main_call4.call0.v7 main_call4.call0.v8 subf,
    TRef.nullary main_call4.call0.cst_2 (constant S_ .f32 0x00000000#32),
    TRef.binary main_call4.call0.v6 main_call4.call0.cst_2 main_call4.call0.v9 (fun x v => Host.reduceAdd x v reducesTo_S65536x512_S65536_d1 h_S_),
    TRef.unary main_call4.call0.v9 main_call4.call0.v10 (broadcastInDim S65536x1 ![0] bcast_S65536_S65536x1_0),
    TRef.unary main_call4.call0.v8 main_call4.call0.v11 (broadcastInDim S65536x1 ![] bcast_S_S65536x1),
    TRef.binary main_call4.call0.v10 main_call4.call0.v11 main_call4.call0.v12 Host.divf,
    TRef.nullary main_call4.call0.cst_3 (constant S_ .f32 0x00000000#32),
    TRef.binary main_call4.call0.v8 main_call4.call0.cst_3 main_call4.call0.v13 (cmpf .ogt),
    TRef.nullary main_call4.call0.cst_4 (constant S_ .f32 0x7FC00000#32),
    TRef.unary main_call4.call0.cst_4 main_call4.call0.call0.v0 id,
    TRef.unary main_call4.call0.call0.v0 main_call4.call0.call0.v1 (broadcastInDim S65536x1 ![] bcast_S_S65536x1),
    TRef.ternary main_call4.call0.v13 main_call4.call0.v12 main_call4.call0.call0.v1 main_call4.call0.call0.v2 (fun p a b => select (broadcastInDim S65536x1 ![] bcast_S_S65536x1 p) a b),
    TRef.unary main_call4.call0.call0.v2 main_call4.v1 Host.sqrt ]

/-- Operations of statements 146 … 159: the cell state's normalisation (the second result) and h = o·c (the first). -/
def opsOut : List (HloOp τ sig (Elt F)) :=
  [ unary main_v117 main_v119 (broadcastInDim S65536x512 ![0, 1] bcast_S65536x1_S65536x512_0_1 : (⟨S65536x1, .f32⟩ : BufTy).Contents (Elt F) → (⟨S65536x512, .f32⟩ : BufTy).Contents (Elt F)),
    binary main_v113 main_v119 main_v120 (subf : (⟨S65536x512, .f32⟩ : BufTy).Contents (Elt F) → (⟨S65536x512, .f32⟩ : BufTy).Contents (Elt F) → (⟨S65536x512, .f32⟩ : BufTy).Contents (Elt F)),
    unary main_arg19 main_v121 (broadcastInDim S1x512 ![1] bcast_S512_S1x512_1 : (⟨S512, .f32⟩ : BufTy).Contents (Elt F) → (⟨S1x512, .f32⟩ : BufTy).Contents (Elt F)),
    unary main_v121 main_v122 (broadcastInDim S65536x512 ![0, 1] bcast_S1x512_S65536x512_0_1 : (⟨S1x512, .f32⟩ : BufTy).Contents (Elt F) → (⟨S65536x512, .f32⟩ : BufTy).Contents (Elt F)),
    binary main_v122 main_v120 main_v123 (mulf : (⟨S65536x512, .f32⟩ : BufTy).Contents (Elt F) → (⟨S65536x512, .f32⟩ : BufTy).Contents (Elt F) → (⟨S65536x512, .f32⟩ : BufTy).Contents (Elt F)),
    nullary main_cst_24 (constant S_ .f32 0x3727C5AC#32),
    unary main_cst_24 main_v124 (broadcastInDim S65536x1 ![] bcast_S_S65536x1 : (⟨S_, .f32⟩ : BufTy).Contents (Elt F) → (⟨S65536x1, .f32⟩ : BufTy).Contents (Elt F)),
    binary main_v118 main_v124 main_v125 (addf : (⟨S65536x1, .f32⟩ : BufTy).Contents (Elt F) → (⟨S65536x1, .f32⟩ : BufTy).Contents (Elt F) → (⟨S65536x1, .f32⟩ : BufTy).Contents (Elt F)),
    unary main_v125 main_v126 (broadcastInDim S65536x512 ![0, 1] bcast_S65536x1_S65536x512_0_1 : (⟨S65536x1, .f32⟩ : BufTy).Contents (Elt F) → (⟨S65536x512, .f32⟩ : BufTy).Contents (Elt F)),
    binary main_v123 main_v126 main_v127 (Host.divf : (⟨S65536x512, .f32⟩ : BufTy).Contents (Elt F) → (⟨S65536x512, .f32⟩ : BufTy).Contents (Elt F) → (⟨S65536x512, .f32⟩ : BufTy).Contents (Elt F)),
    unary main_arg20 main_v128 (broadcastInDim S1x512 ![1] bcast_S512_S1x512_1 : (⟨S512, .f32⟩ : BufTy).Contents (Elt F) → (⟨S1x512, .f32⟩ : BufTy).Contents (Elt F)),
    unary main_v128 main_v129 (broadcastInDim S65536x512 ![0, 1] bcast_S1x512_S65536x512_0_1 : (⟨S1x512, .f32⟩ : BufTy).Contents (Elt F) → (⟨S65536x512, .f32⟩ : BufTy).Contents (Elt F)),
    binary main_v127 main_v129 main_v130 (addf : (⟨S65536x512, .f32⟩ : BufTy).Contents (Elt F) → (⟨S65536x512, .f32⟩ : BufTy).Contents (Elt F) → (⟨S65536x512, .f32⟩ : BufTy).Contents (Elt F)),
    binary main_v84 main_v130 main_v131 (mulf : (⟨S65536x512, .f32⟩ : BufTy).Contents (Elt F) → (⟨S65536x512, .f32⟩ : BufTy).Contents (Elt F) → (⟨S65536x512, .f32⟩ : BufTy).Contents (Elt F)) ]

end Cert.ReferenceIdeal.RefRun

end
-- ==== Proof.RefRunLemmas.lean ====
/-
  Three facts about lists of operations that the run of the reference uses for every list: the fold over a concatenation
  is the second list folded over the first list's result; an operation whose one written buffer lies in a given list of
  buffers writes inside that list; a predicate true throughout two lists is true throughout their concatenation.
-/
import proofs.«138021_j69595650064874_1_alg».proof.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal

variable {F : FTy → Type} [FloatOps F] [Facts]
open Facts₀ Facts

/-- The fold over a concatenation: the second list folded over the first list's result. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- An operation that writes the one buffer `y`, a member of the list `W`, writes inside `W`. -/
theorem writes_sub_of_mem {Val : EltTy → Type} {op : HloOp τ sig Val} {W : List (Ref sig .tc)} (y : Ref sig .tc)
    (h : op.writes = {Proc.devRef .tc y}) (hy : y ∈ W) : op.writes ⊆ (W.map (Proc.devRef (τ := τ) .tc)).toFinset := by
  rw [h, Finset.singleton_subset_iff, List.mem_toFinset]
  exact List.mem_map_of_mem hy

/-- Two lists each satisfying a predicate everywhere: so does their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- What the run asks of an operation: it touches tensor-core buffers only, and determines every buffer it writes. -/
abbrev Ok (op : HloOp τ sig (Elt F)) : Prop := op.bufs ⊆ tcRefs τ sig ∧ op.fresh = ∅

end Cert.ReferenceIdeal.RefRun

end
-- ==== Proof.RefRunTables.lean ====
/-
  Per list of operations: the buffers the operations write, in order; that each operation's one written buffer is in that
  list; and that each operation touches tensor-core buffers only and determines what it writes.
-/
import proofs.«138021_j69595650064874_1_alg».proof.Proof.RefRunOps
import proofs.«138021_j69595650064874_1_alg».proof.Proof.RefRunLemmas

noncomputable section

namespace Cert.ReferenceIdeal.RefRun

open Idealize.ShloMosaic Idealize.ShloMosaic.TcCoe Idealize.SL.Sem Idealize.ShloMosaic.StableHlo Cert.ReferenceIdeal

variable {F : FTy → Type} [FloatOps F] [Facts]
open Facts₀ Facts

/-- The buffers the operations of `opsAffF` write, in order. -/
abbrev opsAffF_W : List (Ref sig .tc) :=
  [main_v0, main_v1, main_v2, main_v3, main_v4, main_v5]
theorem opsAffF_writes : (opsAffF : List (HloOp τ sig (Elt F))).Forall fun op =>
    op.writes ⊆ (opsAffF_W.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide),
   writes_sub_of_mem main_v5 rfl (by decide)⟩
theorem opsAffF_ok : (opsAffF : List (HloOp τ sig (Elt F))).Forall Ok :=
  ⟨⟨binary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

/-- The buffers the operations of `opsStatF` write, in order. -/
abbrev opsStatF_W : List (Ref sig .tc) :=
  [main_cst, main_v6, main_v7, main_cst_0, main_v8, main_v9, main_c, main_call0.call0.cst.ref, main_call0.call0.v0.ref, main_call0.call0.v1.ref, main_call0.call0.cst_0.ref, main_call0.call0.v2.ref, main_call0.call0.v3.ref, main_call0.call0.v4.ref, main_call0.call0.v5.ref, main_call0.call0.v6.ref, main_call0.call0.v7.ref, main_call0.call0.cst_1.ref, main_call0.call0.v8.ref, main_call0.call0.cst_2.ref, main_call0.call0.v9.ref, main_call0.call0.v10.ref, main_call0.call0.v11.ref, main_call0.call0.v12.ref, main_call0.call0.cst_3.ref, main_call0.call0.v13.ref, main_call0.call0.cst_4.ref, main_call0.call0.call0.v0.ref, main_call0.call0.call0.v1.ref, main_call0.call0.call0.v2.ref, main_call0.v1.ref]
theorem opsStatF_writes : (opsStatF : List (HloOp τ sig (Elt F))).Forall fun op =>
    op.writes ⊆ (opsStatF_W.map (Proc.devRef (τ := τ) .tc)).toFinset :=
  ⟨writes_sub_of_mem main_cst rfl (by decide),
   writes_sub_of_mem main_v6 rfl (by decide),
   writes_sub_of_mem main_v7 rfl (by decide),
   writes_sub_of_mem main_cst_0 rfl (by decide),
   writes_sub_of_mem main_v8 rfl (by decide),
   writes_sub_of_mem main_v9 rfl (by decide),
   writes_sub_of_mem main_c rfl (by decide),
   writes_sub_of_mem main_call0.call0.cst.ref rfl (by decide),
   writes_sub_of_mem main_call0.call0.v0.ref rfl (by decide),
   writes_sub_of_mem main_call0.call0.v1.ref rfl (by decide),
   writes_sub_of_mem main_call0.call0.cst_0.ref rfl (by decide),
   writes_sub_of_mem main_call0.call0.v2.ref rfl (by decide),
   writes_sub_of_mem main_call0.call0.v3.ref rfl (by decide),
   writes_sub_of_mem main_call0.call0.v4.ref rfl (by decide),
   writes_sub_of_mem main_call0.call0.v5.ref rfl (by decide),
   writes_sub_of_mem main_call0.call0.v6.ref rfl (by decide),
   writes_sub_of_mem main_call0.call0.v7.ref rfl (by decide),
   writes_sub_of_mem main_call0.call0.cst_1.ref rfl (by decide),
   writes_sub_of_mem main_call0.call0.v8.ref rfl (by decide),
   writes_sub_of_mem main_call0.call0.cst_2.ref rfl (by decide),
   writes_sub_of_mem main_call0.call0.v9.ref rfl (by decide),
   writes_sub_of_mem main_call0.call0.v10.ref rfl (by decide),
   writes_sub_of_mem main_call0.call0.v11.ref rfl (by decide),
   writes_sub_of_mem main_call0.call0.v12.ref rfl (by decide),
   writes_sub_of_mem main_call0.call0.cst_3.ref rfl (by decide),
   writes_sub_of_mem main_call0.call0.v13.ref rfl (by decide),
   writes_sub_of_mem main_call0.call0.cst_4.ref rfl (by decide),
   writes_sub_of_mem main_call0.call0.call0.v0.ref rfl (by decide),
   writes_sub_of_mem main_call0.call0.call0.v1.ref rfl (by decide),
   writes_sub_of_mem main_call0.call0.call0.v2.ref rfl (by decide),
   writes_sub_of_mem main_call0.v1.ref rfl (by decide)⟩
theorem opsStatF_ok : (opsStatF : List (HloOp τ sig (Elt F))).Forall Ok :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩, ⟨unary_bufs_sub .., rfl⟩⟩

/-- The buffers the operations of `opsNormF` write, in order. -/
abbrev opsNormF_W : List (Ref sig .tc) :=
  [main_v11, main_v12, main_v13, main_v14, main_v15, main_cst_1, main_v16, main_v17, main_v18, main_v19, main_v20, main_v21, main_v22, main_v23, main_v24, main_cst_2, main_v25, main_v26, main_cst_3, main_v27, main_v28]
theorem opsNormF_writes : (opsNormF : List (HloOp τ sig (Elt F))).Forall fun op =>
    op.writes ⊆ (opsNormF_W.map (Proc.devRef (τ := τ) .tc)).toFinset :=
  ⟨writes_sub_of_mem main_v11 rfl (by decide),
   writes_sub_of_mem main_v12 rfl (by decide),
   writes_sub_of_mem main_v13 rfl (by decide),
   writes_sub_of_mem main_v14 rfl (by decide),
   writes_sub_of_mem main_v15 rfl (by decide),
   writes_sub_of_mem main_cst_1 rfl (by decide),
   writes_sub_of_mem main_v16 rfl (by decide),
   writes_sub_of_mem main_v17 rfl (by decide),
   writes_sub_of_mem main_v18 rfl (by decide),
   writes_sub_of_mem main_v19 rfl (by decide),
   writes_sub_of_mem main_v20 rfl (by decide),
   writes_sub_of_mem main_v21 rfl (by decide),
   writes_sub_of_mem main_v22 rfl (by decide),
   writes_sub_of_mem main_v23 rfl (by decide),
   writes_sub_of_mem main_v24 rfl (by decide),
   writes_sub_of_mem main_cst_2 rfl (by decide),
   writes_sub_of_mem main_v25 rfl (by decide),
   writes_sub_of_mem main_v26 rfl (by decide),
   writes_sub_of_mem main_cst_3 rfl (by decide),
   writes_sub_of_mem main_v27 rfl (by decide),
   writes_sub_of_mem main_v28 rfl (by decide)⟩
theorem opsNormF_ok : (opsNormF : List (HloOp τ sig (Elt F))).Forall Ok :=
  ⟨⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

/-- The buffers the operations of `opsAffI` write, in order. -/
abbrev opsAffI_W : List (Ref sig .tc) :=
  [main_v29, main_v30, main_v31, main_v32, main_v33]
theorem opsAffI_writes : (opsAffI : List (HloOp τ sig (Elt F))).Forall fun op =>
    op.writes ⊆ (opsAffI_W.map (Proc.devRef (τ := τ) .tc)).toFinset :=
  ⟨writes_sub_of_mem main_v29 rfl (by decide),
   writes_sub_of_mem main_v30 rfl (by decide),
   writes_sub_of_mem main_v31 rfl (by decide),
   writes_sub_of_mem main_v32 rfl (by decide),
   writes_sub_of_mem main_v33 rfl (by decide)⟩
theorem opsAffI_ok : (opsAffI : List (HloOp τ sig (Elt F))).Forall Ok :=
  ⟨⟨unary_bufs_sub .., rfl⟩, ⟨binary_bufs_sub .., rfl⟩, ⟨unary_bufs_sub .., rfl⟩, ⟨unary_bufs_sub .., rfl⟩, ⟨binary_bufs_sub .., rfl⟩⟩

/-- The buffers the operations of `opsStatI` write, in order. -/
abbrev opsStatI_W : List (Ref sig .tc) :=
  [main_cst_4, main_v34, main_v35, main_cst_5, main_v36, main_v37, main_c_6, main_call1.call0.cst.ref, main_call1.call0.v0.ref, main_call1.call0.v1.ref, main_call1.call0.cst_0.ref, main_call1.call0.v2.ref, main_call1.call0.v3.ref, main_call1.call0.v4.ref, main_call1.call0.v5.ref, main_call1.call0.v6.ref, main_call1.call0.v7.ref, main_call1.call0.cst_1.ref, main_call1.call0.v8.ref, main_call1.call0.cst_2.ref, main_call1.call0.v9.ref, main_call1.call0.v10.ref, main_call1.call0.v11.ref, main_call1.call0.v12.ref, main_call1.call0.cst_3.ref, main_call1.call0.v13.ref, main_call1.call0.cst_4.ref, main_call1.call0.call0.v0.ref, main_call1.call0.call0.v1.ref, main_call1.call0.call0.v2.ref, main_call1.v1.ref]
theorem opsStatI_writes : (opsStatI : List (HloOp τ sig (Elt F))).Forall fun op =>
    op.writes ⊆ (opsStatI_W.map (Proc.devRef (τ := τ) .tc)).toFinset :=
  ⟨writes_sub_of_mem main_cst_4 rfl (by decide),
   writes_sub_of_mem main_v34 rfl (by decide),
   writes_sub_of_mem main_v35 rfl (by decide),
   writes_sub_of_mem main_cst_5 rfl (by decide),
   writes_sub_of_mem main_v36 rfl (by decide),
   writes_sub_of_mem main_v37 rfl (by decide),
   writes_sub_of_mem main_c_6 rfl (by decide),
   writes_sub_of_mem main_call1.call0.cst.ref rfl (by decide),
   writes_sub_of_mem main_call1.call0.v0.ref rfl (by decide),
   writes_sub_of_mem main_call1.call0.v1.ref rfl (by decide),
   writes_sub_of_mem main_call1.call0.cst_0.ref rfl (by decide),
   writes_sub_of_mem main_call1.call0.v2.ref rfl (by decide),
   writes_sub_of_mem main_call1.call0.v3.ref rfl (by decide),
   writes_sub_of_mem main_call1.call0.v4.ref rfl (by decide),
   writes_sub_of_mem main_call1.call0.v5.ref rfl (by decide),
   writes_sub_of_mem main_call1.call0.v6.ref rfl (by decide),
   writes_sub_of_mem main_call1.call0.v7.ref rfl (by decide),
   writes_sub_of_mem main_call1.call0.cst_1.ref rfl (by decide),
   writes_sub_of_mem main_call1.call0.v8.ref rfl (by decide),
   writes_sub_of_mem main_call1.call0.cst_2.ref rfl (by decide),
   writes_sub_of_mem main_call1.call0.v9.ref rfl (by decide),
   writes_sub_of_mem main_call1.call0.v10.ref rfl (by decide),
   writes_sub_of_mem main_call1.call0.v11.ref rfl (by decide),
   writes_sub_of_mem main_call1.call0.v12.ref rfl (by decide),
   writes_sub_of_mem main_call1.call0.cst_3.ref rfl (by decide),
   writes_sub_of_mem main_call1.call0.v13.ref rfl (by decide),
   writes_sub_of_mem main_call1.call0.cst_4.ref rfl (by decide),
   writes_sub_of_mem main_call1.call0.call0.v0.ref rfl (by decide),
   writes_sub_of_mem main_call1.call0.call0.v1.ref rfl (by decide),
   writes_sub_of_mem main_call1.call0.call0.v2.ref rfl (by decide),
   writes_sub_of_mem main_call1.v1.ref rfl (by decide)⟩
theorem opsStatI_ok : (opsStatI : List (HloOp τ sig (Elt F))).Forall Ok :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩, ⟨unary_bufs_sub .., rfl⟩⟩

/-- The buffers the operations of `opsNormI0` write, in order. -/
abbrev opsNormI0_W : List (Ref sig .tc) :=
  [main_v39, main_v40, main_v41, main_v42, main_v43, main_cst_7, main_v44, main_v45, main_v46, main_v47, main_v48, main_v49]
theorem opsNormI0_writes : (opsNormI0 : List (HloOp τ sig (Elt F))).Forall fun op =>
    op.writes ⊆ (opsNormI0_W.map (Proc.devRef (τ := τ) .tc)).toFinset :=
  ⟨writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_cst_7 rfl (by decide),
   writes_sub_of_mem main_v44 rfl (by decide),
   writes_sub_of_mem main_v45 rfl (by decide),
   writes_sub_of_mem main_v46 rfl (by decide),
   writes_sub_of_mem main_v47 rfl (by decide),
   writes_sub_of_mem main_v48 rfl (by decide),
   writes_sub_of_mem main_v49 rfl (by decide)⟩
theorem opsNormI0_ok : (opsNormI0 : List (HloOp τ sig (Elt F))).Forall Ok :=
  ⟨⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨unary_bufs_sub .., rfl⟩, ⟨unary_bufs_sub .., rfl⟩⟩

/-- The buffers the operations of `opsNormI1` write, in order. -/
abbrev opsNormI1_W : List (Ref sig .tc) :=
  [main_v50, main_v51, main_v52, main_cst_8, main_v53, main_v54, main_cst_9, main_v55, main_v56]
theorem opsNormI1_writes : (opsNormI1 : List (HloOp τ sig (Elt F))).Forall fun op =>
    op.writes ⊆ (opsNormI1_W.map (Proc.devRef (τ := τ) .tc)).toFinset :=
  ⟨writes_sub_of_mem main_v50 rfl (by decide),
   writes_sub_of_mem main_v51 rfl (by decide),
   writes_sub_of_mem main_v52 rfl (by decide),
   writes_sub_of_mem main_cst_8 rfl (by decide),
   writes_sub_of_mem main_v53 rfl (by decide),
   writes_sub_of_mem main_v54 rfl (by decide),
   writes_sub_of_mem main_cst_9 rfl (by decide),
   writes_sub_of_mem main_v55 rfl (by decide),
   writes_sub_of_mem main_v56 rfl (by decide)⟩
theorem opsNormI1_ok : (opsNormI1 : List (HloOp τ sig (Elt F))).Forall Ok :=
  ⟨⟨binary_bufs_sub .., rfl⟩, ⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

/-- The buffers the operations of `opsAffO` write, in order. -/
abbrev opsAffO_W : List (Ref sig .tc) :=
  [main_v57, main_v58, main_v59, main_v60, main_v61]
theorem opsAffO_writes : (opsAffO : List (HloOp τ sig (Elt F))).Forall fun op =>
    op.writes ⊆ (opsAffO_W.map (Proc.devRef (τ := τ) .tc)).toFinset :=
  ⟨writes_sub_of_mem main_v57 rfl (by decide),
   writes_sub_of_mem main_v58 rfl (by decide),
   writes_sub_of_mem main_v59 rfl (by decide),
   writes_sub_of_mem main_v60 rfl (by decide),
   writes_sub_of_mem main_v61 rfl (by decide)⟩
theorem opsAffO_ok : (opsAffO : List (HloOp τ sig (Elt F))).Forall Ok :=
  ⟨⟨unary_bufs_sub .., rfl⟩, ⟨binary_bufs_sub .., rfl⟩, ⟨unary_bufs_sub .., rfl⟩, ⟨unary_bufs_sub .., rfl⟩, ⟨binary_bufs_sub .., rfl⟩⟩

/-- The buffers the operations of `opsStatO` write, in order. -/
abbrev opsStatO_W : List (Ref sig .tc) :=
  [main_cst_10, main_v62, main_v63, main_cst_11, main_v64, main_v65, main_c_12, main_call2.call0.cst.ref, main_call2.call0.v0.ref, main_call2.call0.v1.ref, main_call2.call0.cst_0.ref, main_call2.call0.v2.ref, main_call2.call0.v3.ref, main_call2.call0.v4.ref, main_call2.call0.v5.ref, main_call2.call0.v6.ref, main_call2.call0.v7.ref, main_call2.call0.cst_1.ref, main_call2.call0.v8.ref, main_call2.call0.cst_2.ref, main_call2.call0.v9.ref, main_call2.call0.v10.ref, main_call2.call0.v11.ref, main_call2.call0.v12.ref, main_call2.call0.cst_3.ref, main_call2.call0.v13.ref, main_call2.call0.cst_4.ref, main_call2.call0.call0.v0.ref, main_call2.call0.call0.v1.ref, main_call2.call0.call0.v2.ref, main_call2.v1.ref]
theorem opsStatO_writes : (opsStatO : List (HloOp τ sig (Elt F))).Forall fun op =>
    op.writes ⊆ (opsStatO_W.map (Proc.devRef (τ := τ) .tc)).toFinset :=
  ⟨writes_sub_of_mem main_cst_10 rfl (by decide),
   writes_sub_of_mem main_v62 rfl (by decide),
   writes_sub_of_mem main_v63 rfl (by decide),
   writes_sub_of_mem main_cst_11 rfl (by decide),
   writes_sub_of_mem main_v64 rfl (by decide),
   writes_sub_of_mem main_v65 rfl (by decide),
   writes_sub_of_mem main_c_12 rfl (by decide),
   writes_sub_of_mem main_call2.call0.cst.ref rfl (by decide),
   writes_sub_of_mem main_call2.call0.v0.ref rfl (by decide),
   writes_sub_of_mem main_call2.call0.v1.ref rfl (by decide),
   writes_sub_of_mem main_call2.call0.cst_0.ref rfl (by decide),
   writes_sub_of_mem main_call2.call0.v2.ref rfl (by decide),
   writes_sub_of_mem main_call2.call0.v3.ref rfl (by decide),
   writes_sub_of_mem main_call2.call0.v4.ref rfl (by decide),
   writes_sub_of_mem main_call2.call0.v5.ref rfl (by decide),
   writes_sub_of_mem main_call2.call0.v6.ref rfl (by decide),
   writes_sub_of_mem main_call2.call0.v7.ref rfl (by decide),
   writes_sub_of_mem main_call2.call0.cst_1.ref rfl (by decide),
   writes_sub_of_mem main_call2.call0.v8.ref rfl (by decide),
   writes_sub_of_mem main_call2.call0.cst_2.ref rfl (by decide),
   writes_sub_of_mem main_call2.call0.v9.ref rfl (by decide),
   writes_sub_of_mem main_call2.call0.v10.ref rfl (by decide),
   writes_sub_of_mem main_call2.call0.v11.ref rfl (by decide),
   writes_sub_of_mem main_call2.call0.v12.ref rfl (by decide),
   writes_sub_of_mem main_call2.call0.cst_3.ref rfl (by decide),
   writes_sub_of_mem main_call2.call0.v13.ref rfl (by decide),
   writes_sub_of_mem main_call2.call0.cst_4.ref rfl (by decide),
   writes_sub_of_mem main_call2.call0.call0.v0.ref rfl (by decide),
   writes_sub_of_mem main_call2.call0.call0.v1.ref rfl (by decide),
   writes_sub_of_mem main_call2.call0.call0.v2.ref rfl (by decide),
   writes_sub_of_mem main_call2.v1.ref rfl (by decide)⟩
theorem opsStatO_ok : (opsStatO : List (HloOp τ sig (Elt F))).Forall Ok :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩, ⟨unary_bufs_sub .., rfl⟩⟩

/-- The buffers the operations of `opsNormO` write, in order. -/
abbrev opsNormO_W : List (Ref sig .tc) :=
  [main_v67, main_v68, main_v69, main_v70, main_v71, main_cst_13, main_v72, main_v73, main_v74, main_v75, main_v76, main_v77, main_v78, main_v79, main_v80, main_cst_14, main_v81, main_v82, main_cst_15, main_v83, main_v84]
theorem opsNormO_writes : (opsNormO : List (HloOp τ sig (Elt F))).Forall fun op =>
    op.writes ⊆ (opsNormO_W.map (Proc.devRef (τ := τ) .tc)).toFinset :=
  ⟨writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_cst_13 rfl (by decide),
   writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_v77 rfl (by decide),
   writes_sub_of_mem main_v78 rfl (by decide),
   writes_sub_of_mem main_v79 rfl (by decide),
   writes_sub_of_mem main_v80 rfl (by decide),
   writes_sub_of_mem main_cst_14 rfl (by decide),
   writes_sub_of_mem main_v81 rfl (by decide),
   writes_sub_of_mem main_v82 rfl (by decide),
   writes_sub_of_mem main_cst_15 rfl (by decide),
   writes_sub_of_mem main_v83 rfl (by decide),
   writes_sub_of_mem main_v84 rfl (by decide)⟩
theorem opsNormO_ok : (opsNormO : List (HloOp τ sig (Elt F))).Forall Ok :=
  ⟨⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

/-- The buffers the operations of `opsAffJ` write, in order. -/
abbrev opsAffJ_W : List (Ref sig .tc) :=
  [main_v85, main_v86, main_v87, main_v88, main_v89]
theorem opsAffJ_writes : (opsAffJ : List (HloOp τ sig (Elt F))).Forall fun op =>
    op.writes ⊆ (opsAffJ_W.map (Proc.devRef (τ := τ) .tc)).toFinset :=
  ⟨writes_sub_of_mem main_v85 rfl (by decide),
   writes_sub_of_mem main_v86 rfl (by decide),
   writes_sub_of_mem main_v87 rfl (by decide),
   writes_sub_of_mem main_v88 rfl (by decide),
   writes_sub_of_mem main_v89 rfl (by decide)⟩
theorem opsAffJ_ok : (opsAffJ : List (HloOp τ sig (Elt F))).Forall Ok :=
  ⟨⟨unary_bufs_sub .., rfl⟩, ⟨binary_bufs_sub .., rfl⟩, ⟨unary_bufs_sub .., rfl⟩, ⟨unary_bufs_sub .., rfl⟩, ⟨binary_bufs_sub .., rfl⟩⟩

/-- The buffers the operations of `opsStatJ` write, in order. -/
abbrev opsStatJ_W : List (Ref sig .tc) :=
  [main_cst_16, main_v90, main_v91, main_cst_17, main_v92, main_v93, main_c_18, main_call3.call0.cst.ref, main_call3.call0.v0.ref, main_call3.call0.v1.ref, main_call3.call0.cst_0.ref, main_call3.call0.v2.ref, main_call3.call0.v3.ref, main_call3.call0.v4.ref, main_call3.call0.v5.ref, main_call3.call0.v6.ref, main_call3.call0.v7.ref, main_call3.call0.cst_1.ref, main_call3.call0.v8.ref, main_call3.call0.cst_2.ref, main_call3.call0.v9.ref, main_call3.call0.v10.ref, main_call3.call0.v11.ref, main_call3.call0.v12.ref, main_call3.call0.cst_3.ref, main_call3.call0.v13.ref, main_call3.call0.cst_4.ref, main_call3.call0.call0.v0.ref, main_call3.call0.call0.v1.ref, main_call3.call0.call0.v2.ref, main_call3.v1.ref]
theorem opsStatJ_writes : (opsStatJ : List (HloOp τ sig (Elt F))).Forall fun op =>
    op.writes ⊆ (opsStatJ_W.map (Proc.devRef (τ := τ) .tc)).toFinset :=
  ⟨writes_sub_of_mem main_cst_16 rfl (by decide),
   writes_sub_of_mem main_v90 rfl (by decide),
   writes_sub_of_mem main_v91 rfl (by decide),
   writes_sub_of_mem main_cst_17 rfl (by decide),
   writes_sub_of_mem main_v92 rfl (by decide),
   writes_sub_of_mem main_v93 rfl (by decide),
   writes_sub_of_mem main_c_18 rfl (by decide),
   writes_sub_of_mem main_call3.call0.cst.ref rfl (by decide),
   writes_sub_of_mem main_call3.call0.v0.ref rfl (by decide),
   writes_sub_of_mem main_call3.call0.v1.ref rfl (by decide),
   writes_sub_of_mem main_call3.call0.cst_0.ref rfl (by decide),
   writes_sub_of_mem main_call3.call0.v2.ref rfl (by decide),
   writes_sub_of_mem main_call3.call0.v3.ref rfl (by decide),
   writes_sub_of_mem main_call3.call0.v4.ref rfl (by decide),
   writes_sub_of_mem main_call3.call0.v5.ref rfl (by decide),
   writes_sub_of_mem main_call3.call0.v6.ref rfl (by decide),
   writes_sub_of_mem main_call3.call0.v7.ref rfl (by decide),
   writes_sub_of_mem main_call3.call0.cst_1.ref rfl (by decide),
   writes_sub_of_mem main_call3.call0.v8.ref rfl (by decide),
   writes_sub_of_mem main_call3.call0.cst_2.ref rfl (by decide),
   writes_sub_of_mem main_call3.call0.v9.ref rfl (by decide),
   writes_sub_of_mem main_call3.call0.v10.ref rfl (by decide),
   writes_sub_of_mem main_call3.call0.v11.ref rfl (by decide),
   writes_sub_of_mem main_call3.call0.v12.ref rfl (by decide),
   writes_sub_of_mem main_call3.call0.cst_3.ref rfl (by decide),
   writes_sub_of_mem main_call3.call0.v13.ref rfl (by decide),
   writes_sub_of_mem main_call3.call0.cst_4.ref rfl (by decide),
   writes_sub_of_mem main_call3.call0.call0.v0.ref rfl (by decide),
   writes_sub_of_mem main_call3.call0.call0.v1.ref rfl (by decide),
   writes_sub_of_mem main_call3.call0.call0.v2.ref rfl (by decide),
   writes_sub_of_mem main_call3.v1.ref rfl (by decide)⟩
theorem opsStatJ_ok : (opsStatJ : List (HloOp τ sig (Elt F))).Forall Ok :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩, ⟨unary_bufs_sub .., rfl⟩⟩

/-- The buffers the operations of `opsNormJ0` write, in order. -/
abbrev opsNormJ0_W : List (Ref sig .tc) :=
  [main_v95, main_v96, main_v97, main_v98]
theorem opsNormJ0_writes : (opsNormJ0 : List (HloOp τ sig (Elt F))).Forall fun op =>
    op.writes ⊆ (opsNormJ0_W.map (Proc.devRef (τ := τ) .tc)).toFinset :=
  ⟨writes_sub_of_mem main_v95 rfl (by decide),
   writes_sub_of_mem main_v96 rfl (by decide),
   writes_sub_of_mem main_v97 rfl (by decide),
   writes_sub_of_mem main_v98 rfl (by decide)⟩
theorem opsNormJ0_ok : (opsNormJ0 : List (HloOp τ sig (Elt F))).Forall Ok :=
  ⟨⟨unary_bufs_sub .., rfl⟩, ⟨binary_bufs_sub .., rfl⟩, ⟨unary_bufs_sub .., rfl⟩, ⟨unary_bufs_sub .., rfl⟩⟩

/-- The buffers the operations of `opsNormJ1` write, in order. -/
abbrev opsNormJ1_W : List (Ref sig .tc) :=
  [main_v99, main_cst_19, main_v100, main_v101, main_v102, main_v103, main_v104, main_v105, main_v106, main_v107]
theorem opsNormJ1_writes : (opsNormJ1 : List (HloOp τ sig (Elt F))).Forall fun op =>
    op.writes ⊆ (opsNormJ1_W.map (Proc.devRef (τ := τ) .tc)).toFinset :=
  ⟨writes_sub_of_mem main_v99 rfl (by decide),
   writes_sub_of_mem main_cst_19 rfl (by decide),
   writes_sub_of_mem main_v100 rfl (by decide),
   writes_sub_of_mem main_v101 rfl (by decide),
   writes_sub_of_mem main_v102 rfl (by decide),
   writes_sub_of_mem main_v103 rfl (by decide),
   writes_sub_of_mem main_v104 rfl (by decide),
   writes_sub_of_mem main_v105 rfl (by decide),
   writes_sub_of_mem main_v106 rfl (by decide),
   writes_sub_of_mem main_v107 rfl (by decide)⟩
theorem opsNormJ1_ok : (opsNormJ1 : List (HloOp τ sig (Elt F))).Forall Ok :=
  ⟨⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩⟩

/-- The buffers the operations of `opsCell` write, in order. -/
abbrev opsCell_W : List (Ref sig .tc) :=
  [main_v108, main_cst_20, main_v109, main_v110, main_v111, main_v112, main_v113]
theorem opsCell_writes : (opsCell : List (HloOp τ sig (Elt F))).Forall fun op =>
    op.writes ⊆ (opsCell_W.map (Proc.devRef (τ := τ) .tc)).toFinset :=
  ⟨writes_sub_of_mem main_v108 rfl (by decide),
   writes_sub_of_mem main_cst_20 rfl (by decide),
   writes_sub_of_mem main_v109 rfl (by decide),
   writes_sub_of_mem main_v110 rfl (by decide),
   writes_sub_of_mem main_v111 rfl (by decide),
   writes_sub_of_mem main_v112 rfl (by decide),
   writes_sub_of_mem main_v113 rfl (by decide)⟩
theorem opsCell_ok : (opsCell : List (HloOp τ sig (Elt F))).Forall Ok :=
  ⟨⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩⟩

/-- The buffers the operations of `opsStatC` write, in order. -/
abbrev opsStatC_W : List (Ref sig .tc) :=
  [main_cst_21, main_v114, main_v115, main_cst_22, main_v116, main_v117, main_c_23, main_call4.call0.cst.ref, main_call4.call0.v0.ref, main_call4.call0.v1.ref, main_call4.call0.cst_0.ref, main_call4.call0.v2.ref, main_call4.call0.v3.ref, main_call4.call0.v4.ref, main_call4.call0.v5.ref, main_call4.call0.v6.ref, main_call4.call0.v7.ref, main_call4.call0.cst_1.ref, main_call4.call0.v8.ref, main_call4.call0.cst_2.ref, main_call4.call0.v9.ref, main_call4.call0.v10.ref, main_call4.call0.v11.ref, main_call4.call0.v12.ref, main_call4.call0.cst_3.ref, main_call4.call0.v13.ref, main_call4.call0.cst_4.ref, main_call4.call0.call0.v0.ref, main_call4.call0.call0.v1.ref, main_call4.call0.call0.v2.ref, main_call4.v1.ref]
theorem opsStatC_writes : (opsStatC : List (HloOp τ sig (Elt F))).Forall fun op =>
    op.writes ⊆ (opsStatC_W.map (Proc.devRef (τ := τ) .tc)).toFinset :=
  ⟨writes_sub_of_mem main_cst_21 rfl (by decide),
   writes_sub_of_mem main_v114 rfl (by decide),
   writes_sub_of_mem main_v115 rfl (by decide),
   writes_sub_of_mem main_cst_22 rfl (by decide),
   writes_sub_of_mem main_v116 rfl (by decide),
   writes_sub_of_mem main_v117 rfl (by decide),
   writes_sub_of_mem main_c_23 rfl (by decide),
   writes_sub_of_mem main_call4.call0.cst.ref rfl (by decide),
   writes_sub_of_mem main_call4.call0.v0.ref rfl (by decide),
   writes_sub_of_mem main_call4.call0.v1.ref rfl (by decide),
   writes_sub_of_mem main_call4.call0.cst_0.ref rfl (by decide),
   writes_sub_of_mem main_call4.call0.v2.ref rfl (by decide),
   writes_sub_of_mem main_call4.call0.v3.ref rfl (by decide),
   writes_sub_of_mem main_call4.call0.v4.ref rfl (by decide),
   writes_sub_of_mem main_call4.call0.v5.ref rfl (by decide),
   writes_sub_of_mem main_call4.call0.v6.ref rfl (by decide),
   writes_sub_of_mem main_call4.call0.v7.ref rfl (by decide),
   writes_sub_of_mem main_call4.call0.cst_1.ref rfl (by decide),
   writes_sub_of_mem main_call4.call0.v8.ref rfl (by decide),
   writes_sub_of_mem main_call4.call0.cst_2.ref rfl (by decide),
   writes_sub_of_mem main_call4.call0.v9.ref rfl (by decide),
   writes_sub_of_mem main_call4.call0.v10.ref rfl (by decide),
   writes_sub_of_mem main_call4.call0.v11.ref rfl (by decide),
   writes_sub_of_mem main_call4.call0.v12.ref rfl (by decide),
   writes_sub_of_mem main_call4.call0.cst_3.ref rfl (by decide),
   writes_sub_of_mem main_call4.call0.v13.ref rfl (by decide),
   writes_sub_of_mem main_call4.call0.cst_4.ref rfl (by decide),
   writes_sub_of_mem main_call4.call0.call0.v0.ref rfl (by decide),
   writes_sub_of_mem main_call4.call0.call0.v1.ref rfl (by decide),
   writes_sub_of_mem main_call4.call0.call0.v2.ref rfl (by decide),
   writes_sub_of_mem main_call4.v1.ref rfl (by decide)⟩
theorem opsStatC_ok : (opsStatC : List (HloOp τ sig (Elt F))).Forall Ok :=
  ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩, ⟨unary_bufs_sub .., rfl⟩⟩

/-- The buffers the operations of `opsOut` write, in order. -/
abbrev opsOut_W : List (Ref sig .tc) :=
  [main_v119, main_v120, main_v121, main_v122, main_v123, main_cst_24, main_v124, main_v125, main_v126, main_v127, main_v128, main_v129, main_v130, main_v131]
theorem opsOut_writes : (opsOut : List (HloOp τ sig (Elt F))).Forall fun op =>
    op.writes ⊆ (opsOut_W.map (Proc.devRef (τ := τ) .tc)).toFinset :=
  ⟨writes_sub_of_mem main_v119 rfl (by decide),
   writes_sub_of_mem main_v120 rfl (by decide),
   writes_sub_of_mem main_v121 rfl (by decide),
   writes_sub_of_mem main_v122 rfl (by decide),
   writes_sub_of_mem main_v123 rfl (by decide),
   writes_sub_of_mem main_cst_24 rfl (by decide),
   writes_sub_of_mem main_v124 rfl (by decide),
   writes_sub_of_mem main_v125 rfl (by decide),
   writes_sub_of_mem main_v126 rfl (by decide),
   writes_sub_of_mem main_v127 rfl (by decide),
   writes_sub_of_mem main_v128 rfl (by decide),
   writes_sub_of_mem main_v129 rfl (by decide),
   writes_sub_of_mem main_v130 rfl (by decide),
   writes_sub_of_mem main_v131 rfl (by decide)⟩
theorem opsOut_ok : (opsOut : List (HloOp τ sig (Elt F))).Forall Ok :=
  ⟨⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩⟩

end Cert.ReferenceIdeal.RefRun

end
-- ==== Proof.RefRunMain.lean ====
/-
  The reference program is the straight line of its host operations, and its run: each of the program's three parts is
  the sequence of its operations (a call of the standard-deviation function unfolds to the operations of its body), so the
  whole program is the sequence of all of them; every operation touches tensor-core buffers only and determines what it
  writes; hence every weakly fair execution terminates with each buffer at the operations' fold over the launch contents.
-/
import proofs.«138021_j69595650064874_1_alg».proof.Proof.RefRunTables

noncomputable section

namespace Cert.ReferenceIdeal.RefRun

open Idealize.ShloMosaic Idealize.ShloMosaic.TcCoe Idealize.SL.Sem Idealize.ShloMosaic.StableHlo Cert.ReferenceIdeal

variable {F : FTy → Type} [FloatOps F] [Facts]
open Facts₀ Facts

/-- The operations of the program's first part (statements 1 … 60). -/
abbrev opsPart0 : List (HloOp τ sig (Elt F)) :=
  opsAffF ++ (opsStatF ++ (opsNormF ++ (opsAffI ++ (opsStatI ++ opsNormI0))))
/-- The operations of the program's second part (statements 61 … 120). -/
abbrev opsPart1 : List (HloOp τ sig (Elt F)) :=
  opsNormI1 ++ (opsAffO ++ (opsStatO ++ (opsNormO ++ (opsAffJ ++ (opsStatJ ++ opsNormJ0)))))
/-- The operations of the program's third part (statements 121 … 160). -/
abbrev opsPart2 : List (HloOp τ sig (Elt F)) :=
  opsNormJ1 ++ (opsCell ++ (opsStatC ++ opsOut))
/-- All the program's operations, in order. -/
abbrev ops : List (HloOp τ sig (Elt F)) := opsPart0 ++ (opsPart1 ++ opsPart2)

/-- Each part of the program is the sequence of its operations: the calls unfold to their bodies' operations, and both
    sides are then one chain of steps. -/
theorem part0_eq (c : Dev nD) : main_part0 (F := F) c = seq opsPart0 := rfl
theorem part1_eq (c : Dev nD) : main_part1 (F := F) c = seq opsPart1 := rfl
theorem part2_eq (c : Dev nD) : main_part2 (F := F) c = seq opsPart2 := rfl

/-- The program is the sequence of its operations: its three parts run in order, and a concatenation runs as its
    pieces in order. -/
theorem main_eq (c : Dev nD) : main (F := F) c = seq ops := by
  have h0 := seq_append (nD := nD) (Λ := Pipeline.Sig Λ₀ (Fin 0) fun p => (pcfgs (F := F) p).Adm)
    (opsPart0 (F := F)) (opsPart1 ++ opsPart2)
  have h1 := seq_append (nD := nD) (Λ := Pipeline.Sig Λ₀ (Fin 0) fun p => (pcfgs (F := F) p).Adm)
    (opsPart1 (F := F)) opsPart2
  show (main_part0 c >>= fun _ => main_part1 c >>= fun _ => main_part2 c) = _
  rw [part0_eq, part1_eq, part2_eq]
  exact (h0.trans (congrArg (fun k => seq opsPart0 >>= fun _ => k) h1)).symm

/-- Every operation of the program touches tensor-core buffers only and determines what it writes: list by list. -/
theorem ops_ok : (ops : List (HloOp τ sig (Elt F))).Forall Ok :=
  forall_append
    (forall_append opsAffF_ok (forall_append opsStatF_ok (forall_append opsNormF_ok
      (forall_append opsAffI_ok (forall_append opsStatI_ok opsNormI0_ok)))))
    (forall_append
      (forall_append opsNormI1_ok (forall_append opsAffO_ok (forall_append opsStatO_ok (forall_append opsNormO_ok
        (forall_append opsAffJ_ok (forall_append opsStatJ_ok opsNormJ0_ok))))))
      (forall_append opsNormJ1_ok (forall_append opsCell_ok (forall_append opsStatC_ok opsOut_ok))))

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of the program terminates, and every tensor-core
    buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq
    (fun _ => List.forall_iff_forall_mem.mpr fun op h => (List.forall_iff_forall_mem.mp ops_ok op h).1) m ρ
    (fun _ op h => (List.forall_iff_forall_mem.mp ops_ok op h).2)

end Cert.ReferenceIdeal.RefRun

end
-- ==== Proof.RefTerm.lean ====
/-
  The reference's result as ONE term of its argument arrays: the host operations of the reference's program composed,
  grouped as the reference's own source groups them — the concatenation, a gate's affine map, the row mean, the row
  standard deviation (jnp.std with one degree of freedom removed, including its guard "the divisor is positive, else
  NaN"), the layer normalisation, the logistic spelled as 1 / (1 + exp(−z)) — and the cell's two results.
  Every operation is the printed program's, on whole [65536, ·] arrays.
-/
import proofs.«138021_j69595650064874_1_alg».proof.ReferenceIdeal

noncomputable section

namespace Cert.ReferenceIdeal.RefTerm

open Idealize.ShloMosaic Cert.ReferenceIdeal

variable {F : FTy → Type} [FloatOps F] [Facts]
open Facts₀ Facts

/-- The concatenated batch (x ‖ h). -/
def comb (x h : FVec F S65536x512 .f32) : FVec F S65536x1024 .f32 :=
  concatenate S65536x1024 1 [⟨S65536x512, x⟩, ⟨S65536x512, h⟩] concatenates_S65536x512_S65536x512_S65536x1024_d1

/-- A vector of 512 features broadcast over the batch rows. -/
def bcRow (b : FVec F S512 .f32) : FVec F S65536x512 .f32 :=
  broadcastInDim S65536x512 ![0, 1] bcast_S1x512_S65536x512_0_1 (broadcastInDim S1x512 ![1] bcast_S512_S1x512_1 b)

/-- One value per batch row broadcast over the 512 features. -/
def bcCol (v : FVec F S65536x1 .f32) : FVec F S65536x512 .f32 :=
  broadcastInDim S65536x512 ![0, 1] bcast_S65536x1_S65536x512_0_1 v

/-- A scalar as a column of 65536. -/
def bcS1 (s : FVec F S_ .f32) : FVec F S65536x1 .f32 := broadcastInDim S65536x1 ![] bcast_S_S65536x1 s

/-- A scalar as a full [65536, 512] array. -/
def bcS (s : FVec F S_ .f32) : FVec F S65536x512 .f32 := broadcastInDim S65536x512 ![] bcast_S_S65536x512 s

/-- The sum of each row, kept as a column. -/
def rowSum (v : FVec F S65536x512 .f32) : FVec F S65536x1 .f32 :=
  broadcastInDim S65536x1 ![0] bcast_S65536_S65536x1_0
    (Host.reduceAdd v (constant S_ .f32 0x00000000#32) reducesTo_S65536x512_S65536_d1 h_S_)

/-- A gate's affine map: (x ‖ h) · Wᵀ + b. -/
def aff (xh : FVec F S65536x1024 .f32) (W : FVec F S512x1024 .f32) (b : FVec F S512 .f32) : FVec F S65536x512 .f32 :=
  addf (Host.dotGeneral dot_S65536x1024_S1024x512_S65536x512_1_0_0_1_n_n none xh
          (transpose S1024x512 [1, 0] W transposes_S512x1024_S1024x512_1_0))
       (bcRow b)

/-- The row means as a column. -/
def meanCol (v : FVec F S65536x512 .f32) : FVec F S65536x1 .f32 :=
  Host.divf (rowSum v) (bcS1 (constant S_ .f32 0x44000000#32))

/-- The divisor of the variance: 512 minus the one degree of freedom. -/
def dof : FVec F S_ .f32 := subf (constant S_ .f32 0x44000000#32) (sitofp .f32 (constantI S_ 32 1#32))

/-- The row standard deviations as a column (jnp.std, ddof = 1). -/
def stdCol (v : FVec F S65536x512 .f32) : FVec F S65536x1 .f32 :=
  Host.sqrt
    (select (broadcastInDim S65536x1 ![] bcast_S_S65536x1 (cmpf .ogt (dof (F := F)) (constant S_ .f32 0x00000000#32)))
      (Host.divf (rowSum (mulf (subf v (bcCol (meanCol v))) (subf v (bcCol (meanCol v))))) (bcS1 dof))
      (bcS1 (id (constant S_ .f32 0x7FC00000#32))))

/-- Layer normalisation of every row. -/
def ln (v : FVec F S65536x512 .f32) (g β : FVec F S512 .f32) : FVec F S65536x512 .f32 :=
  addf (Host.divf (mulf (bcRow g) (subf v (bcCol (meanCol v))))
                  (bcCol (addf (stdCol v) (bcS1 (constant S_ .f32 0x3727C5AC#32)))))
       (bcRow β)

/-- The logistic as the reference spells it: 1 / (1 + exp(−z)). -/
def sigm (z : FVec F S65536x512 .f32) : FVec F S65536x512 .f32 :=
  Host.divf (bcS (constant S_ .f32 0x3F800000#32)) (addf (bcS (constant S_ .f32 0x3F800000#32)) (Host.exp (Host.negf z)))

/-- The new cell state before its normalisation. -/
def cNew (x h c : FVec F S65536x512 .f32) (Wf : FVec F S512x1024 .f32) (bf : FVec F S512 .f32) (Wi : FVec F S512x1024 .f32) (bi : FVec F S512 .f32)
    (Wj : FVec F S512x1024 .f32) (bj : FVec F S512 .f32) (gf βf gi βi gj βj : FVec F S512 .f32) : FVec F S65536x512 .f32 :=
  addf (mulf (sigm (ln (aff (comb x h) Wf bf) gf βf)) c)
       (mulf (minimumf (subf (bcS (constant S_ .f32 0x3F800000#32)) (sigm (ln (aff (comb x h) Wf bf) gf βf))) (sigm (ln (aff (comb x h) Wi bi) gi βi)))
             (Host.tanh (ln (aff (comb x h) Wj bj) gj βj)))

/-- The reference's second result: c. -/
def outC (x h c : FVec F S65536x512 .f32) (Wf : FVec F S512x1024 .f32) (bf : FVec F S512 .f32) (Wi : FVec F S512x1024 .f32) (bi : FVec F S512 .f32)
    (Wo : FVec F S512x1024 .f32) (bo : FVec F S512 .f32) (Wj : FVec F S512x1024 .f32) (bj : FVec F S512 .f32)
    (gf βf gi βi go βo gj βj gc βc : FVec F S512 .f32) : FVec F S65536x512 .f32 :=
  ln (cNew x h c Wf bf Wi bi Wj bj gf βf gi βi gj βj) gc βc

/-- The reference's first result: h = o · c. -/
def outH (x h c : FVec F S65536x512 .f32) (Wf : FVec F S512x1024 .f32) (bf : FVec F S512 .f32) (Wi : FVec F S512x1024 .f32) (bi : FVec F S512 .f32)
    (Wo : FVec F S512x1024 .f32) (bo : FVec F S512 .f32) (Wj : FVec F S512x1024 .f32) (bj : FVec F S512 .f32)
    (gf βf gi βi go βo gj βj gc βc : FVec F S512 .f32) : FVec F S65536x512 .f32 :=
  mulf (sigm (ln (aff (comb x h) Wo bo) go βo)) (outC x h c Wf bf Wi bi Wo bo Wj bj gf βf gi βi go βo gj βj gc βc)

end Cert.ReferenceIdeal.RefTerm

end
-- ==== Proof.RefRunBase.lean ====
/-
  The layer normalisation stated from a row mean and a row standard deviation held as columns, which is how the program
  holds them when it normalises (earlier operations computed them into buffers of their own): the quotient
  γ·(v − μ)/(σ + ε), and the quotient plus β; at the rows' own mean and deviation that is the reference's normalisation.
-/
import proofs.«138021_j69595650064874_1_alg».proof.Proof.RefRunTables
import proofs.«138021_j69595650064874_1_alg».proof.Proof.RefTerm

noncomputable section

namespace Cert.ReferenceIdeal.RefRun

open Idealize.ShloMosaic Idealize.ShloMosaic.TcCoe Idealize.SL.Sem Idealize.ShloMosaic.StableHlo Cert.ReferenceIdeal
open Cert.ReferenceIdeal.RefTerm

variable {F : FTy → Type} [FloatOps F] [Facts]
open Facts₀ Facts

/-- ε, the constant added to the standard deviation. -/
abbrev eps : FVec F S_ .f32 := constant S_ .f32 0x3727C5AC#32

/-- γ·(v − μ)/(σ + ε), from the row means μ and row standard deviations σ as columns. -/
def normQuot (v : FVec F S65536x512 .f32) (μ σ : FVec F S65536x1 .f32) (g : FVec F S512 .f32) : FVec F S65536x512 .f32 :=
  Host.divf (mulf (bcRow g) (subf v (bcCol μ))) (bcCol (addf σ (bcS1 eps)))

/-- γ·(v − μ)/(σ + ε) + β. -/
def normWith (v : FVec F S65536x512 .f32) (μ σ : FVec F S65536x1 .f32) (g β : FVec F S512 .f32) : FVec F S65536x512 .f32 :=
  addf (normQuot v μ σ g) (bcRow β)

/-- The layer normalisation is that, at the rows' own mean and standard deviation. -/
theorem ln_eq (v : FVec F S65536x512 .f32) (g β : FVec F S512 .f32) :
    ln v g β = normWith v (meanCol v) (stdCol v) g β := rfl

end Cert.ReferenceIdeal.RefRun

end
-- ==== Proof.RefRunF.lean ====
/-
  The forget gate's operations read back.
  Each statement is about the fold of one list of operations over ANY contents V of the buffers: the list's result
  buffers as terms of what V holds in the buffers the list reads, and every buffer the list does not write unchanged.
-/
import proofs.«138021_j69595650064874_1_alg».proof.Proof.RefRunBase

noncomputable section

namespace Cert.ReferenceIdeal.RefRun

open Idealize.ShloMosaic Idealize.ShloMosaic.TcCoe Idealize.SL.Sem Idealize.ShloMosaic.StableHlo Cert.ReferenceIdeal
open Cert.ReferenceIdeal.RefTerm

variable {F : FTy → Type} [FloatOps F] [Facts]
open Facts₀ Facts

/-- A buffer the operations of `opsAffF` do not write keeps its contents. -/
theorem opsAffF_keep (V : Valuation τ sig (Elt F)) (r : Ref sig .tc) (h : r ∉ opsAffF_W) :
    after opsAffF V (no_index (Proc.devRef .tc r)) = V (Proc.devRef .tc r) :=
  after_of_writes_sub opsAffF V opsAffF_writes h

/-- The concatenation (x ‖ h). -/
theorem affF_comb (V : Valuation τ sig (Elt F)) :
    after opsAffF V (no_index (Proc.devRef .tc main_v0)) = comb (V (Proc.devRef .tc main_arg0)) (V (Proc.devRef .tc main_arg1)) := by
  simp only [opsAffF]
  after_results_simp
  rfl

/-- The forget gate's affine map (x ‖ h)·Wfᵀ + bf. -/
theorem affF_val (V : Valuation τ sig (Elt F)) :
    after opsAffF V (no_index (Proc.devRef .tc main_v5)) = aff (comb (V (Proc.devRef .tc main_arg0)) (V (Proc.devRef .tc main_arg1))) (V (Proc.devRef .tc main_arg3)) (V (Proc.devRef .tc main_arg4)) := by
  simp only [opsAffF]
  after_results_simp
  rfl

/-- A buffer the operations of `opsStatF` do not write keeps its contents. -/
theorem opsStatF_keep (V : Valuation τ sig (Elt F)) (r : Ref sig .tc) (h : r ∉ opsStatF_W) :
    after opsStatF V (no_index (Proc.devRef .tc r)) = V (Proc.devRef .tc r) :=
  after_of_writes_sub opsStatF V opsStatF_writes h

/-- The row means of the forget gate's affine map: the row sums over 512. -/
theorem statF_mean (V : Valuation τ sig (Elt F)) :
    after opsStatF V (no_index (Proc.devRef .tc main_v9)) = meanCol (V (Proc.devRef .tc main_v5)) := by
  simp only [opsStatF]
  after_results_simp
  rfl

set_option maxHeartbeats 1000000 in
/-- The row standard deviations of the forget gate's affine map: the deviation's function run on it (its own mean, the centred squares'
    row sums over 512 − 1 under the guard that this divisor is positive, the square root). -/
theorem statF_std (V : Valuation τ sig (Elt F)) :
    after opsStatF V (no_index (Proc.devRef .tc main_v10)) = stdCol (V (Proc.devRef .tc main_v5)) := by
  simp only [opsStatF]
  after_results_simp
  rfl

/-- A buffer the operations of `opsNormF` do not write keeps its contents. -/
theorem opsNormF_keep (V : Valuation τ sig (Elt F)) (r : Ref sig .tc) (h : r ∉ opsNormF_W) :
    after opsNormF V (no_index (Proc.devRef .tc r)) = V (Proc.devRef .tc r) :=
  after_of_writes_sub opsNormF V opsNormF_writes h

set_option maxHeartbeats 1000000 in
/-- The forget gate: the logistic of the normalised affine map, from the buffers of the map, its row means and deviations. -/
theorem normF_val (V : Valuation τ sig (Elt F)) :
    after opsNormF V (no_index (Proc.devRef .tc main_v28)) = sigm (normWith (V (Proc.devRef .tc main_v5)) (V (Proc.devRef .tc main_v9)) (V (Proc.devRef .tc main_v10)) (V (Proc.devRef .tc main_arg11)) (V (Proc.devRef .tc main_arg12))) := by
  simp only [opsNormF]
  after_results_simp
  rfl

end Cert.ReferenceIdeal.RefRun

end
-- ==== Proof.RefRunI.lean ====
/-
  The input gate's operations read back; its normalisation in two steps, as the program's text divides it.
  Each statement is about the fold of one list of operations over ANY contents V of the buffers: the list's result
  buffers as terms of what V holds in the buffers the list reads, and every buffer the list does not write unchanged.
-/
import proofs.«138021_j69595650064874_1_alg».proof.Proof.RefRunBase

noncomputable section

namespace Cert.ReferenceIdeal.RefRun

open Idealize.ShloMosaic Idealize.ShloMosaic.TcCoe Idealize.SL.Sem Idealize.ShloMosaic.StableHlo Cert.ReferenceIdeal
open Cert.ReferenceIdeal.RefTerm

variable {F : FTy → Type} [FloatOps F] [Facts]
open Facts₀ Facts

/-- A buffer the operations of `opsAffI` do not write keeps its contents. -/
theorem opsAffI_keep (V : Valuation τ sig (Elt F)) (r : Ref sig .tc) (h : r ∉ opsAffI_W) :
    after opsAffI V (no_index (Proc.devRef .tc r)) = V (Proc.devRef .tc r) :=
  after_of_writes_sub opsAffI V opsAffI_writes h

/-- The input gate's affine map, from the concatenation's buffer. -/
theorem affI_val (V : Valuation τ sig (Elt F)) :
    after opsAffI V (no_index (Proc.devRef .tc main_v33)) = aff (V (Proc.devRef .tc main_v0)) (V (Proc.devRef .tc main_arg5)) (V (Proc.devRef .tc main_arg6)) := by
  simp only [opsAffI]
  after_results_simp
  rfl

/-- A buffer the operations of `opsStatI` do not write keeps its contents. -/
theorem opsStatI_keep (V : Valuation τ sig (Elt F)) (r : Ref sig .tc) (h : r ∉ opsStatI_W) :
    after opsStatI V (no_index (Proc.devRef .tc r)) = V (Proc.devRef .tc r) :=
  after_of_writes_sub opsStatI V opsStatI_writes h

/-- The row means of the input gate's affine map: the row sums over 512. -/
theorem statI_mean (V : Valuation τ sig (Elt F)) :
    after opsStatI V (no_index (Proc.devRef .tc main_v37)) = meanCol (V (Proc.devRef .tc main_v33)) := by
  simp only [opsStatI]
  after_results_simp
  rfl

set_option maxHeartbeats 1000000 in
/-- The row standard deviations of the input gate's affine map: the deviation's function run on it (its own mean, the centred squares'
    row sums over 512 − 1 under the guard that this divisor is positive, the square root). -/
theorem statI_std (V : Valuation τ sig (Elt F)) :
    after opsStatI V (no_index (Proc.devRef .tc main_v38)) = stdCol (V (Proc.devRef .tc main_v33)) := by
  simp only [opsStatI]
  after_results_simp
  rfl

/-- A buffer the operations of `opsNormI0` do not write keeps its contents. -/
theorem opsNormI0_keep (V : Valuation τ sig (Elt F)) (r : Ref sig .tc) (h : r ∉ opsNormI0_W) :
    after opsNormI0 V (no_index (Proc.devRef .tc r)) = V (Proc.devRef .tc r) :=
  after_of_writes_sub opsNormI0 V opsNormI0_writes h

/-- γ·(v − μ)/(σ + ε) of the input gate. -/
theorem normI0_quot (V : Valuation τ sig (Elt F)) :
    after opsNormI0 V (no_index (Proc.devRef .tc main_v47)) = normQuot (V (Proc.devRef .tc main_v33)) (V (Proc.devRef .tc main_v37)) (V (Proc.devRef .tc main_v38)) (V (Proc.devRef .tc main_arg13)) := by
  simp only [opsNormI0]
  after_results_simp
  rfl

/-- β of the input gate over the rows. -/
theorem normI0_beta (V : Valuation τ sig (Elt F)) :
    after opsNormI0 V (no_index (Proc.devRef .tc main_v49)) = bcRow (V (Proc.devRef .tc main_arg14)) := by
  simp only [opsNormI0]
  after_results_simp
  rfl

/-- A buffer the operations of `opsNormI1` do not write keeps its contents. -/
theorem opsNormI1_keep (V : Valuation τ sig (Elt F)) (r : Ref sig .tc) (h : r ∉ opsNormI1_W) :
    after opsNormI1 V (no_index (Proc.devRef .tc r)) = V (Proc.devRef .tc r) :=
  after_of_writes_sub opsNormI1 V opsNormI1_writes h

/-- The input gate: the logistic of the quotient plus β. -/
theorem normI1_val (V : Valuation τ sig (Elt F)) :
    after opsNormI1 V (no_index (Proc.devRef .tc main_v56)) = sigm (addf (V (Proc.devRef .tc main_v47)) (V (Proc.devRef .tc main_v49))) := by
  simp only [opsNormI1]
  after_results_simp
  rfl

end Cert.ReferenceIdeal.RefRun

end
-- ==== Proof.RefRunO.lean ====
/-
  The output gate's operations read back.
  Each statement is about the fold of one list of operations over ANY contents V of the buffers: the list's result
  buffers as terms of what V holds in the buffers the list reads, and every buffer the list does not write unchanged.
-/
import proofs.«138021_j69595650064874_1_alg».proof.Proof.RefRunBase

noncomputable section

namespace Cert.ReferenceIdeal.RefRun

open Idealize.ShloMosaic Idealize.ShloMosaic.TcCoe Idealize.SL.Sem Idealize.ShloMosaic.StableHlo Cert.ReferenceIdeal
open Cert.ReferenceIdeal.RefTerm

variable {F : FTy → Type} [FloatOps F] [Facts]
open Facts₀ Facts

/-- A buffer the operations of `opsAffO` do not write keeps its contents. -/
theorem opsAffO_keep (V : Valuation τ sig (Elt F)) (r : Ref sig .tc) (h : r ∉ opsAffO_W) :
    after opsAffO V (no_index (Proc.devRef .tc r)) = V (Proc.devRef .tc r) :=
  after_of_writes_sub opsAffO V opsAffO_writes h

/-- The output gate's affine map, from the concatenation's buffer. -/
theorem affO_val (V : Valuation τ sig (Elt F)) :
    after opsAffO V (no_index (Proc.devRef .tc main_v61)) = aff (V (Proc.devRef .tc main_v0)) (V (Proc.devRef .tc main_arg7)) (V (Proc.devRef .tc main_arg8)) := by
  simp only [opsAffO]
  after_results_simp
  rfl

/-- A buffer the operations of `opsStatO` do not write keeps its contents. -/
theorem opsStatO_keep (V : Valuation τ sig (Elt F)) (r : Ref sig .tc) (h : r ∉ opsStatO_W) :
    after opsStatO V (no_index (Proc.devRef .tc r)) = V (Proc.devRef .tc r) :=
  after_of_writes_sub opsStatO V opsStatO_writes h

/-- The row means of the output gate's affine map: the row sums over 512. -/
theorem statO_mean (V : Valuation τ sig (Elt F)) :
    after opsStatO V (no_index (Proc.devRef .tc main_v65)) = meanCol (V (Proc.devRef .tc main_v61)) := by
  simp only [opsStatO]
  after_results_simp
  rfl

set_option maxHeartbeats 1000000 in
/-- The row standard deviations of the output gate's affine map: the deviation's function run on it (its own mean, the centred squares'
    row sums over 512 − 1 under the guard that this divisor is positive, the square root). -/
theorem statO_std (V : Valuation τ sig (Elt F)) :
    after opsStatO V (no_index (Proc.devRef .tc main_v66)) = stdCol (V (Proc.devRef .tc main_v61)) := by
  simp only [opsStatO]
  after_results_simp
  rfl

/-- A buffer the operations of `opsNormO` do not write keeps its contents. -/
theorem opsNormO_keep (V : Valuation τ sig (Elt F)) (r : Ref sig .tc) (h : r ∉ opsNormO_W) :
    after opsNormO V (no_index (Proc.devRef .tc r)) = V (Proc.devRef .tc r) :=
  after_of_writes_sub opsNormO V opsNormO_writes h

set_option maxHeartbeats 1000000 in
/-- The output gate: the logistic of the normalised affine map. -/
theorem normO_val (V : Valuation τ sig (Elt F)) :
    after opsNormO V (no_index (Proc.devRef .tc main_v84)) = sigm (normWith (V (Proc.devRef .tc main_v61)) (V (Proc.devRef .tc main_v65)) (V (Proc.devRef .tc main_v66)) (V (Proc.devRef .tc main_arg15)) (V (Proc.devRef .tc main_arg16))) := by
  simp only [opsNormO]
  after_results_simp
  rfl

end Cert.ReferenceIdeal.RefRun

end
-- ==== Proof.RefRunJ.lean ====
/-
  The candidate's operations read back; its normalisation in two steps, as the program's text divides it.
  Each statement is about the fold of one list of operations over ANY contents V of the buffers: the list's result
  buffers as terms of what V holds in the buffers the list reads, and every buffer the list does not write unchanged.
-/
import proofs.«138021_j69595650064874_1_alg».proof.Proof.RefRunBase

noncomputable section

namespace Cert.ReferenceIdeal.RefRun

open Idealize.ShloMosaic Idealize.ShloMosaic.TcCoe Idealize.SL.Sem Idealize.ShloMosaic.StableHlo Cert.ReferenceIdeal
open Cert.ReferenceIdeal.RefTerm

variable {F : FTy → Type} [FloatOps F] [Facts]
open Facts₀ Facts

/-- A buffer the operations of `opsAffJ` do not write keeps its contents. -/
theorem opsAffJ_keep (V : Valuation τ sig (Elt F)) (r : Ref sig .tc) (h : r ∉ opsAffJ_W) :
    after opsAffJ V (no_index (Proc.devRef .tc r)) = V (Proc.devRef .tc r) :=
  after_of_writes_sub opsAffJ V opsAffJ_writes h

/-- The candidate's affine map, from the concatenation's buffer. -/
theorem affJ_val (V : Valuation τ sig (Elt F)) :
    after opsAffJ V (no_index (Proc.devRef .tc main_v89)) = aff (V (Proc.devRef .tc main_v0)) (V (Proc.devRef .tc main_arg9)) (V (Proc.devRef .tc main_arg10)) := by
  simp only [opsAffJ]
  after_results_simp
  rfl

/-- A buffer the operations of `opsStatJ` do not write keeps its contents. -/
theorem opsStatJ_keep (V : Valuation τ sig (Elt F)) (r : Ref sig .tc) (h : r ∉ opsStatJ_W) :
    after opsStatJ V (no_index (Proc.devRef .tc r)) = V (Proc.devRef .tc r) :=
  after_of_writes_sub opsStatJ V opsStatJ_writes h

/-- The row means of the candidate's affine map: the row sums over 512. -/
theorem statJ_mean (V : Valuation τ sig (Elt F)) :
    after opsStatJ V (no_index (Proc.devRef .tc main_v93)) = meanCol (V (Proc.devRef .tc main_v89)) := by
  simp only [opsStatJ]
  after_results_simp
  rfl

set_option maxHeartbeats 1000000 in
/-- The row standard deviations of the candidate's affine map: the deviation's function run on it (its own mean, the centred squares'
    row sums over 512 − 1 under the guard that this divisor is positive, the square root). -/
theorem statJ_std (V : Valuation τ sig (Elt F)) :
    after opsStatJ V (no_index (Proc.devRef .tc main_v94)) = stdCol (V (Proc.devRef .tc main_v89)) := by
  simp only [opsStatJ]
  after_results_simp
  rfl

/-- A buffer the operations of `opsNormJ0` do not write keeps its contents. -/
theorem opsNormJ0_keep (V : Valuation τ sig (Elt F)) (r : Ref sig .tc) (h : r ∉ opsNormJ0_W) :
    after opsNormJ0 V (no_index (Proc.devRef .tc r)) = V (Proc.devRef .tc r) :=
  after_of_writes_sub opsNormJ0 V opsNormJ0_writes h

/-- The candidate's affine map minus its row means. -/
theorem normJ0_centred (V : Valuation τ sig (Elt F)) :
    after opsNormJ0 V (no_index (Proc.devRef .tc main_v96)) = subf (V (Proc.devRef .tc main_v89)) (bcCol (V (Proc.devRef .tc main_v93))) := by
  simp only [opsNormJ0]
  after_results_simp
  rfl

/-- γ of the candidate over the rows. -/
theorem normJ0_gamma (V : Valuation τ sig (Elt F)) :
    after opsNormJ0 V (no_index (Proc.devRef .tc main_v98)) = bcRow (V (Proc.devRef .tc main_arg17)) := by
  simp only [opsNormJ0]
  after_results_simp
  rfl

/-- A buffer the operations of `opsNormJ1` do not write keeps its contents. -/
theorem opsNormJ1_keep (V : Valuation τ sig (Elt F)) (r : Ref sig .tc) (h : r ∉ opsNormJ1_W) :
    after opsNormJ1 V (no_index (Proc.devRef .tc r)) = V (Proc.devRef .tc r) :=
  after_of_writes_sub opsNormJ1 V opsNormJ1_writes h

/-- The candidate: the hyperbolic tangent of γ·(centred)/(σ + ε) + β. -/
theorem normJ1_val (V : Valuation τ sig (Elt F)) :
    after opsNormJ1 V (no_index (Proc.devRef .tc main_v107)) = Host.tanh (addf (Host.divf (mulf (V (Proc.devRef .tc main_v98)) (V (Proc.devRef .tc main_v96))) (bcCol (addf (V (Proc.devRef .tc main_v94)) (bcS1 eps)))) (bcRow (V (Proc.devRef .tc main_arg18)))) := by
  simp only [opsNormJ1]
  after_results_simp
  rfl

end Cert.ReferenceIdeal.RefRun

end
-- ==== Proof.RefRunC.lean ====
/-
  The cell's operations read back: the new cell state, its row statistics, its normalisation (the second result) and the
  product with the output gate (the first).
  Each statement is about the fold of one list of operations over ANY contents V of the buffers: the list's result
  buffers as terms of what V holds in the buffers the list reads, and every buffer the list does not write unchanged.
-/
import proofs.«138021_j69595650064874_1_alg».proof.Proof.RefRunBase

noncomputable section

namespace Cert.ReferenceIdeal.RefRun

open Idealize.ShloMosaic Idealize.ShloMosaic.TcCoe Idealize.SL.Sem Idealize.ShloMosaic.StableHlo Cert.ReferenceIdeal
open Cert.ReferenceIdeal.RefTerm

variable {F : FTy → Type} [FloatOps F] [Facts]
open Facts₀ Facts

/-- A buffer the operations of `opsCell` do not write keeps its contents. -/
theorem opsCell_keep (V : Valuation τ sig (Elt F)) (r : Ref sig .tc) (h : r ∉ opsCell_W) :
    after opsCell V (no_index (Proc.devRef .tc r)) = V (Proc.devRef .tc r) :=
  after_of_writes_sub opsCell V opsCell_writes h

/-- f·c + min(1 − f, i)·j, from the buffers of the three gates' values. -/
theorem cell_val (V : Valuation τ sig (Elt F)) :
    after opsCell V (no_index (Proc.devRef .tc main_v113)) = addf (mulf (V (Proc.devRef .tc main_v28)) (V (Proc.devRef .tc main_arg2))) (mulf (minimumf (subf (bcS (constant S_ .f32 0x3F800000#32)) (V (Proc.devRef .tc main_v28))) (V (Proc.devRef .tc main_v56))) (V (Proc.devRef .tc main_v107))) := by
  simp only [opsCell]
  after_results_simp
  rfl

/-- A buffer the operations of `opsStatC` do not write keeps its contents. -/
theorem opsStatC_keep (V : Valuation τ sig (Elt F)) (r : Ref sig .tc) (h : r ∉ opsStatC_W) :
    after opsStatC V (no_index (Proc.devRef .tc r)) = V (Proc.devRef .tc r) :=
  after_of_writes_sub opsStatC V opsStatC_writes h

/-- The row means of the new cell state: the row sums over 512. -/
theorem statC_mean (V : Valuation τ sig (Elt F)) :
    after opsStatC V (no_index (Proc.devRef .tc main_v117)) = meanCol (V (Proc.devRef .tc main_v113)) := by
  simp only [opsStatC]
  after_results_simp
  rfl

set_option maxHeartbeats 1000000 in
/-- The row standard deviations of the new cell state: the deviation's function run on it (its own mean, the centred squares'
    row sums over 512 − 1 under the guard that this divisor is positive, the square root). -/
theorem statC_std (V : Valuation τ sig (Elt F)) :
    after opsStatC V (no_index (Proc.devRef .tc main_v118)) = stdCol (V (Proc.devRef .tc main_v113)) := by
  simp only [opsStatC]
  after_results_simp
  rfl

/-- A buffer the operations of `opsOut` do not write keeps its contents. -/
theorem opsOut_keep (V : Valuation τ sig (Elt F)) (r : Ref sig .tc) (h : r ∉ opsOut_W) :
    after opsOut V (no_index (Proc.devRef .tc r)) = V (Proc.devRef .tc r) :=
  after_of_writes_sub opsOut V opsOut_writes h

/-- The second result: the normalised cell state. -/
theorem out_c (V : Valuation τ sig (Elt F)) :
    after opsOut V (no_index (Proc.devRef .tc main_v130)) = (normWith (V (Proc.devRef .tc main_v113)) (V (Proc.devRef .tc main_v117)) (V (Proc.devRef .tc main_v118)) (V (Proc.devRef .tc main_arg19)) (V (Proc.devRef .tc main_arg20))) := by
  simp only [opsOut]
  after_results_simp
  rfl

/-- The first result: the output gate times the normalised cell state. -/
theorem out_h (V : Valuation τ sig (Elt F)) :
    after opsOut V (no_index (Proc.devRef .tc main_v131)) = mulf (V (Proc.devRef .tc main_v84)) (normWith (V (Proc.devRef .tc main_v113)) (V (Proc.devRef .tc main_v117)) (V (Proc.devRef .tc main_v118)) (V (Proc.devRef .tc main_arg19)) (V (Proc.devRef .tc main_arg20))) := by
  simp only [opsOut]
  after_results_simp
  rfl

end Cert.ReferenceIdeal.RefRun

end
-- ==== Proof.RefRun.lean ====
/-
  The reference program's run read back: every weakly fair execution terminates with the two result buffers at the
  reference's term of the argument arrays and every argument array unchanged. The fold of all the operations is the
  lists' folds composed (a concatenation folds list after list); each list's result buffers are terms of the buffers it
  reads, every other buffer passing through unchanged, so the two result buffers are read back list by list, from the
  last to the first, down to the argument buffers, which no operation writes; what is read is the reference's term:
  the layer normalisation being γ·(v − μ)/(σ + ε) + β at the rows' own mean and deviation.
-/
import proofs.«138021_j69595650064874_1_alg».proof.Proof.RefRunMain
import proofs.«138021_j69595650064874_1_alg».proof.Proof.RefRunF
import proofs.«138021_j69595650064874_1_alg».proof.Proof.RefRunI
import proofs.«138021_j69595650064874_1_alg».proof.Proof.RefRunO
import proofs.«138021_j69595650064874_1_alg».proof.Proof.RefRunJ
import proofs.«138021_j69595650064874_1_alg».proof.Proof.RefRunC
import Idealize.ShloMosaic.PureOps.Ideal

noncomputable section

namespace Cert.ReferenceIdeal.RefRun

open Idealize.ShloMosaic Idealize.ShloMosaic.TcCoe Idealize.SL.Sem Idealize.ShloMosaic.StableHlo Cert.ReferenceIdeal
open Cert.ReferenceIdeal.RefTerm

section
variable {F : FTy → Type} [FloatOps F] [Facts]
open Facts₀ Facts

/-- A buffer none of the lists writes keeps its contents through the whole program. -/
theorem ops_keep (V : Valuation τ sig (Elt F)) (r : Ref sig .tc)
    (h : r ∉ opsAffF_W ∧ r ∉ opsStatF_W ∧ r ∉ opsNormF_W ∧ r ∉ opsAffI_W ∧ r ∉ opsStatI_W
        ∧ r ∉ opsNormI0_W ∧ r ∉ opsNormI1_W ∧ r ∉ opsAffO_W ∧ r ∉ opsStatO_W
        ∧ r ∉ opsNormO_W ∧ r ∉ opsAffJ_W ∧ r ∉ opsStatJ_W ∧ r ∉ opsNormJ0_W
        ∧ r ∉ opsNormJ1_W ∧ r ∉ opsCell_W ∧ r ∉ opsStatC_W ∧ r ∉ opsOut_W) :
    after ops V (Proc.devRef .tc r) = V (Proc.devRef .tc r) := by
  obtain ⟨h0, h1, h2, h3, h4, h5, h6, h7, h8, h9, h10, h11, h12, h13, h14, h15, h16⟩ := h
  simp only [ops, opsPart0, opsPart1, opsPart2, after_append]
  rw [opsOut_keep _ r h16, opsStatC_keep _ r h15, opsCell_keep _ r h14, opsNormJ1_keep _ r h13,
    opsNormJ0_keep _ r h12, opsStatJ_keep _ r h11, opsAffJ_keep _ r h10, opsNormO_keep _ r h9,
    opsStatO_keep _ r h8, opsAffO_keep _ r h7, opsNormI1_keep _ r h6, opsNormI0_keep _ r h5,
    opsStatI_keep _ r h4, opsAffI_keep _ r h3, opsNormF_keep _ r h2, opsStatF_keep _ r h1,
    opsAffF_keep _ r h0]

set_option maxHeartbeats 2000000 in
/-- The second result's buffer after the whole program: the reference's c. -/
theorem outC_eq (V : Valuation τ sig (Elt F)) :
    after ops V (Proc.devRef .tc main_v130)
      = outC (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
          (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  simp only [ops, opsPart0, opsPart1, opsPart2, after_append]
  simp (disch := decide) only [out_c, statC_mean, statC_std, cell_val,
    normJ1_val, normJ0_centred, normJ0_gamma, statJ_mean, statJ_std, affJ_val,
    normO_val, statO_mean, statO_std, affO_val,
    normI1_val, normI0_quot, normI0_beta, statI_mean, statI_std, affI_val,
    normF_val, statF_mean, statF_std, affF_val, affF_comb,
    opsOut_keep, opsStatC_keep, opsCell_keep, opsNormJ1_keep, opsNormJ0_keep, opsStatJ_keep, opsAffJ_keep,
    opsNormO_keep, opsStatO_keep, opsAffO_keep, opsNormI1_keep, opsNormI0_keep, opsStatI_keep, opsAffI_keep,
    opsNormF_keep, opsStatF_keep, opsAffF_keep]
  simp only [outC, cNew, ln_eq]
  rfl

set_option maxHeartbeats 2000000 in
/-- The first result's buffer after the whole program: the reference's h. -/
theorem outH_eq (V : Valuation τ sig (Elt F)) :
    after ops V (Proc.devRef .tc main_v131)
      = outH (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
          (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  simp only [ops, opsPart0, opsPart1, opsPart2, after_append]
  simp (disch := decide) only [out_h, statC_mean, statC_std, cell_val,
    normJ1_val, normJ0_centred, normJ0_gamma, statJ_mean, statJ_std, affJ_val,
    normO_val, statO_mean, statO_std, affO_val,
    normI1_val, normI0_quot, normI0_beta, statI_mean, statI_std, affI_val,
    normF_val, statF_mean, statF_std, affF_val, affF_comb,
    opsOut_keep, opsStatC_keep, opsCell_keep, opsNormJ1_keep, opsNormJ0_keep, opsStatJ_keep, opsAffJ_keep,
    opsNormO_keep, opsStatO_keep, opsAffO_keep, opsNormI1_keep, opsNormI0_keep, opsStatI_keep, opsAffI_keep,
    opsNormF_keep, opsStatF_keep, opsAffF_keep]
  simp only [outH, outC, cNew, ln_eq]
  rfl

end

variable [Facts]

/-- At the ideal values, from any memory with zero counters: every weakly fair execution of the reference program
    terminates with the first result at the reference's h, the second at its c, and every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v131) = RefTerm.outH (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v130) = RefTerm.outC (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c main_v131).trans (outH_eq _), (h c main_v130).trans (outC_eq _),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide)),
      (h c main_arg16).trans (ops_keep _ main_arg16 (by decide)),
      (h c main_arg17).trans (ops_keep _ main_arg17 (by decide)),
      (h c main_arg18).trans (ops_keep _ main_arg18 (by decide)),
      (h c main_arg19).trans (ops_keep _ main_arg19 (by decide)),
      (h c main_arg20).trans (ops_keep _ main_arg20 (by decide))⟩)
    (run_after m ρ)

end Cert.ReferenceIdeal.RefRun

end
-- ==== Proof.RefValue.lean ====
/-
  The reference's term (RefTerm.lean), read index by index at the ideal values, is the cell of Spec.lean on every row:
  row r of each gate's affine map is the affine map of row r of x and of h (the contraction over the 1024 concatenated
  features split at 512: the first half meets x and the left half of the weights, the second h and the right half), the
  column of row means and of row standard deviations are the row's mean and standard deviation (the variance's divisor
  512 − 1 is the word 511, and it is positive, so the guard of jnp.std selects the quotient), the layer normalisation,
  the logistic 1/(1 + exp(−z)) and the rest are pointwise.
-/
import proofs.«138021_j69595650064874_1_alg».proof.Proof.RefTerm
import proofs.«138021_j69595650064874_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.RefTerm Cert.LstmSpec

variable [Facts]
open Facts₀ Facts

/-! ## The words -/

theorem w512 : Ideal.ofBits .f32 0x44000000#32 = ((512 : ℝ) : EReal) := by
  simp [Ideal.ofBits, Ideal.ieee, -EReal.coe_mul]; norm_num

theorem w511 : Ideal.ofBits .f32 0x43FF8000#32 = ((511 : ℝ) : EReal) := by
  simp [Ideal.ofBits, Ideal.ieee, -EReal.coe_mul]; norm_num

theorem w1 : Ideal.ofBits .f32 0x3F800000#32 = 1 := by
  simp [Ideal.ofBits, Ideal.ieee, -EReal.coe_mul]; norm_num

/-! ## Layout -/

theorem bcRow_apply (b : FVec Ideal S512 .f32) (r : Fin 65536) (j : Fin 512) :
    bcRow (F := Ideal) b (ix2 r j) = b (ix1 j) := by
  unfold bcRow
  refine (broadcastInDim_apply _ _ _ (ix2 r j) (ix2 (0 : Fin 1) j) ?_).trans ?_
  · intro a; match a with
    | ⟨0, _⟩ => rfl
    | ⟨1, _⟩ => rfl
  · refine broadcastInDim_apply _ _ _ (ix2 (0 : Fin 1) j) (ix1 j) ?_
    intro a; match a with
    | ⟨0, _⟩ => rfl

theorem bcCol_apply (v : FVec Ideal S65536x1 .f32) (r : Fin 65536) (j : Fin 512) :
    bcCol (F := Ideal) v (ix2 r j) = v (ix2 r (0 : Fin 1)) := by
  unfold bcCol
  refine broadcastInDim_apply _ _ _ (ix2 r j) (ix2 r (0 : Fin 1)) ?_
  intro a; match a with
  | ⟨0, _⟩ => rfl
  | ⟨1, _⟩ => rfl

theorem bcS1_apply (s : FVec Ideal S_ .f32) (i : S65536x1.Idx) : bcS1 (F := Ideal) s i = s ix0 :=
  broadcastInDim_scalar_apply _ s i

theorem bcS_apply (s : FVec Ideal S_ .f32) (i : S65536x512.Idx) : bcS (F := Ideal) s i = s ix0 :=
  broadcastInDim_scalar_apply _ s i

theorem rowSum_apply (v : FVec Ideal S65536x512 .f32) (r : Fin 65536) :
    rowSum (F := Ideal) v (ix2 r (0 : Fin 1)) = ∑ k : Fin 512, v (ix2 r k) := by
  unfold rowSum
  refine (broadcastInDim_apply _ _ _ (ix2 r (0 : Fin 1)) (ix1 r) ?_).trans ?_
  · intro a; match a with
    | ⟨0, _⟩ => rfl
  · rw [hostReduceAdd_apply]
    have hR : S65536x512.Reduces [1] S65536 := by decide
    refine (Ideal.hostReduceAdd_single _ hR v _ (ix1 r)).trans ?_
    rw [constant_apply, Ideal.ofBits_zero_f32, zero_add]
    refine Finset.sum_congr rfl fun k _ => congrArg v ?_
    funext a; match a with
    | ⟨0, _⟩ => rfl
    | ⟨1, _⟩ => rfl

/-! ## The concatenated batch and a gate's affine map -/

theorem comb_lo (x h : FVec Ideal S65536x512 .f32) (r : Fin 65536) (k : Fin 512) :
    comb (F := Ideal) x h (ix2 r (lo k)) = x (ix2 r k) := by
  unfold comb
  refine concatenate_pair_apply_left (1 : Fin 2) x h _ (ix2 r (lo k)) rfl (ix2 r k) ?_
  intro b; match b with
  | ⟨0, _⟩ => rfl
  | ⟨1, _⟩ => rfl

theorem comb_hi (x h : FVec Ideal S65536x512 .f32) (r : Fin 65536) (k : Fin 512) :
    comb (F := Ideal) x h (ix2 r (hi k)) = h (ix2 r k) := by
  unfold comb
  refine concatenate_pair_apply_right (1 : Fin 2) x h _ (ix2 r (hi k)) rfl rfl (ix2 r k) ?_ ?_
  · intro b hb; match b with
    | ⟨0, _⟩ => rfl
    | ⟨1, _⟩ => exact absurd rfl hb
  · show k.val + 512 = 512 + k.val
    omega

/-- The host's matrix product of a [65536, 1024] batch with a [1024, 512] matrix, at row r and column j. -/
theorem dot_apply (xh : FVec Ideal S65536x1024 .f32) (WT : FVec Ideal S1024x512 .f32) (r : Fin 65536) (j : Fin 512) :
    Host.dotGeneral (F := Ideal) dot_S65536x1024_S1024x512_S65536x512_1_0_0_1_n_n none xh WT (ix2 r j)
      = ∑ k : Fin 1024, xh (ix2 r k) * WT (ix2 k j) := by
  refine (Ideal.dotGeneral_apply _ _ _ xh WT (ix2 r j)).trans ?_
  refine (Equiv.sum_comp (contrEquiv1 dot_S65536x1024_S1024x512_S65536x512_1_0_0_1_n_n 1024 rfl rfl).symm _).symm.trans ?_
  refine Finset.sum_congr rfl fun k _ => ?_
  have hl : dot_S65536x1024_S1024x512_S65536x512_1_0_0_1_n_n.lhsIdx (ix2 r j)
      ((contrEquiv1 dot_S65536x1024_S1024x512_S65536x512_1_0_0_1_n_n 1024 rfl rfl).symm k) = ix2 r k := by
    funext a; match a with
    | ⟨0, _⟩ => rfl
    | ⟨1, _⟩ =>
      refine Fin.ext ?_
      refine (DotDims.lhsIdx_val_of_single dot_S65536x1024_S1024x512_S65536x512_1_0_0_1_n_n (cl := (1 : Fin 2)) rfl _ _).trans ?_
      exact contrEquiv1_symm_val _ 1024 rfl rfl k
  have hr : dot_S65536x1024_S1024x512_S65536x512_1_0_0_1_n_n.rhsIdx (ix2 r j)
      ((contrEquiv1 dot_S65536x1024_S1024x512_S65536x512_1_0_0_1_n_n 1024 rfl rfl).symm k) = ix2 k j := by
    funext a; match a with
    | ⟨0, _⟩ =>
      refine Fin.ext ?_
      refine (DotDims.rhsIdx_val_of_single dot_S65536x1024_S1024x512_S65536x512_1_0_0_1_n_n (cr := (0 : Fin 2)) rfl _ _).trans ?_
      exact contrEquiv1_symm_val _ 1024 rfl rfl k
    | ⟨1, _⟩ => rfl
  rw [hl, hr]

/-- Row r of a gate's affine map of the concatenated batch is the affine map of row r of x and of h. -/
theorem aff_row (x h : FVec Ideal S65536x512 .f32) (W : FVec Ideal S512x1024 .f32) (b : FVec Ideal S512 .f32) (r : Fin 65536) :
    rowOf (R := 65536) (aff (F := Ideal) (comb x h) W b) r
      = affRow (rowOf (R := 65536) x r) (rowOf (R := 65536) h r) (fun k j => W (ix2 j (lo k))) (fun k j => W (ix2 j (hi k))) (fun j => b (ix1 j)) := by
  funext j
  show aff (F := Ideal) (comb x h) W b (ix2 r j) = _
  unfold aff
  rw [addf_apply, dot_apply, bcRow_apply, sum_split]
  unfold affRow rowOf
  congr 2
  · refine Finset.sum_congr rfl fun k _ => ?_
    rw [comb_lo, transpose_ix2_apply]
  · refine Finset.sum_congr rfl fun k _ => ?_
    rw [comb_hi, transpose_ix2_apply]

/-! ## Means, standard deviations, the layer normalisation -/

theorem meanCol_apply (v : FVec Ideal S65536x512 .f32) (r : Fin 65536) :
    meanCol (F := Ideal) v (ix2 r (0 : Fin 1)) = mean (rowOf (R := 65536) v r) := by
  unfold meanCol
  rw [hostDivf_apply, rowSum_apply, bcS1_apply, constant_apply]
  rfl

/-- The variance's divisor 512 − 1 is the word 511. -/
theorem dof_val : dof (F := Ideal) ix0 = c511 := by
  unfold dof
  rw [subf_apply, constant_apply, sitofp_apply, constantI_apply]
  show Ideal.ofBits .f32 0x44000000#32 - (((1#32 : BitVec 32).toInt : ℝ) : EReal) = Ideal.ofBits .f32 0x43FF8000#32
  have h1 : ((1#32 : BitVec 32).toInt : ℝ) = 1 := by
    have : (1#32 : BitVec 32).toInt = 1 := by decide
    rw [this]; norm_num
  rw [w512, w511, h1, ← EReal.coe_sub]
  norm_num

/-- The divisor is positive: jnp.std's guard selects the quotient. -/
theorem guard_val : cmpf .ogt (dof (F := Ideal)) (constant S_ .f32 0x00000000#32) ix0 = 1#1 := by
  rw [cmpf_apply, dof_val, constant_apply, Ideal.cmpf_def, Ideal.ofBits_zero_f32]
  show Ideal.cmp .ogt (Ideal.ofBits .f32 0x43FF8000#32) 0 = 1#1
  rw [w511]
  have h : (0 : EReal) < ((511 : ℝ) : EReal) := by exact_mod_cast (by norm_num : (0 : ℝ) < 511)
  show BitVec.ofBool (decide ((0 : EReal) < ((511 : ℝ) : EReal))) = 1#1
  rw [decide_eq_true h]; rfl

theorem stdCol_apply (v : FVec Ideal S65536x512 .f32) (r : Fin 65536) :
    stdCol (F := Ideal) v (ix2 r (0 : Fin 1)) = std (rowOf (R := 65536) v r) := by
  unfold stdCol
  show FloatOps.hostUnary .sqrt (select _ _ _ (ix2 r (0 : Fin 1))) = _
  rw [select_apply, broadcastInDim_scalar_apply, guard_val, select_one, hostDivf_apply, rowSum_apply, bcS1_apply, dof_val,
    Ideal.hostUnary_sqrt_def]
  unfold std
  refine congrArg (fun s => Ideal.sqrt (Ideal.div s c511)) ?_
  refine Finset.sum_congr rfl fun k _ => ?_
  rw [mulf_apply, subf_apply, bcCol_apply, meanCol_apply]
  rfl

/-- Row r of the layer normalisation of a batch is the layer normalisation of row r. -/
theorem ln_row (v : FVec Ideal S65536x512 .f32) (g β : FVec Ideal S512 .f32) (r : Fin 65536) :
    rowOf (R := 65536) (ln (F := Ideal) v g β) r = lnRow (rowOf (R := 65536) v r) (fun j => g (ix1 j)) (fun j => β (ix1 j)) := by
  funext j
  show ln (F := Ideal) v g β (ix2 r j) = _
  unfold ln
  rw [addf_apply, hostDivf_apply, mulf_apply, subf_apply, bcRow_apply, bcRow_apply, bcCol_apply, bcCol_apply, addf_apply,
    meanCol_apply, stdCol_apply, bcS1_apply, constant_apply]
  rfl

/-- The reference's spelling of the logistic, pointwise. -/
theorem sigm_apply (z : FVec Ideal S65536x512 .f32) (i : S65536x512.Idx) : sigm (F := Ideal) z i = Ideal.logistic (z i) := by
  unfold sigm
  rw [hostDivf_apply, addf_apply, bcS_apply, constant_apply, w1]
  rfl

/-! ## The gates and the cell -/

/-- A gate before its nonlinearity, at row r and feature j. -/
theorem gate_apply (x h : FVec Ideal S65536x512 .f32) (W : FVec Ideal S512x1024 .f32) (b g β : FVec Ideal S512 .f32)
    (r : Fin 65536) (j : Fin 512) :
    ln (F := Ideal) (aff (comb x h) W b) g β (ix2 r j)
      = gatePre (gateOf W b g β) (rowOf (R := 65536) x r) (rowOf (R := 65536) h r) j := by
  have e := ln_row (aff (F := Ideal) (comb x h) W b) g β r
  rw [aff_row] at e
  exact congrFun e j

theorem cNew_row (x h c : FVec Ideal S65536x512 .f32) (Wf : FVec Ideal S512x1024 .f32) (bf : FVec Ideal S512 .f32)
    (Wi : FVec Ideal S512x1024 .f32) (bi : FVec Ideal S512 .f32) (Wo : FVec Ideal S512x1024 .f32) (bo : FVec Ideal S512 .f32)
    (Wj : FVec Ideal S512x1024 .f32) (bj : FVec Ideal S512 .f32) (gf βf gi βi go βo gj βj gc βc : FVec Ideal S512 .f32) (r : Fin 65536) :
    rowOf (R := 65536) (RefTerm.cNew (F := Ideal) x h c Wf bf Wi bi Wj bj gf βf gi βi gj βj) r
      = LstmSpec.cNew (paramsOf Wf bf Wi bi Wo bo Wj bj gf βf gi βi go βo gj βj gc βc)
          (rowOf (R := 65536) x r) (rowOf (R := 65536) h r) (rowOf (R := 65536) c r) := by
  funext j
  show RefTerm.cNew (F := Ideal) x h c Wf bf Wi bi Wj bj gf βf gi βi gj βj (ix2 r j) = _
  unfold RefTerm.cNew
  rw [addf_apply, mulf_apply, mulf_apply, minimumf_apply, subf_apply, bcS_apply, constant_apply, sigm_apply, sigm_apply,
    gate_apply, gate_apply]
  show _ + min _ _ * Ideal.tanh (ln (F := Ideal) (aff (comb x h) Wj bj) gj βj (ix2 r j)) = _
  rw [gate_apply]
  rfl

/-- The reference's c result is the cell's c on every row. -/
theorem outC_eq (x h c : FVec Ideal S65536x512 .f32) (Wf : FVec Ideal S512x1024 .f32) (bf : FVec Ideal S512 .f32)
    (Wi : FVec Ideal S512x1024 .f32) (bi : FVec Ideal S512 .f32) (Wo : FVec Ideal S512x1024 .f32) (bo : FVec Ideal S512 .f32)
    (Wj : FVec Ideal S512x1024 .f32) (bj : FVec Ideal S512 .f32) (gf βf gi βi go βo gj βj gc βc : FVec Ideal S512 .f32) :
    outC (F := Ideal) x h c Wf bf Wi bi Wo bo Wj bj gf βf gi βi go βo gj βj gc βc
      = specC (R := 65536) (paramsOf Wf bf Wi bi Wo bo Wj bj gf βf gi βi go βo gj βj gc βc) x h c := by
  funext i
  obtain ⟨r, j, rfl⟩ : ∃ (r : Fin 65536) (j : Fin 512), i = ix2 r j := ⟨i 0, i 1, eq_ix2 i⟩
  rw [specC_ix2]
  unfold outC
  have e := ln_row (RefTerm.cNew (F := Ideal) x h c Wf bf Wi bi Wj bj gf βf gi βi gj βj) gc βc r
  rw [cNew_row x h c Wf bf Wi bi Wo bo Wj bj gf βf gi βi go βo gj βj gc βc r] at e
  exact congrFun e j

/-- The reference's h result is the cell's h on every row. -/
theorem outH_eq (x h c : FVec Ideal S65536x512 .f32) (Wf : FVec Ideal S512x1024 .f32) (bf : FVec Ideal S512 .f32)
    (Wi : FVec Ideal S512x1024 .f32) (bi : FVec Ideal S512 .f32) (Wo : FVec Ideal S512x1024 .f32) (bo : FVec Ideal S512 .f32)
    (Wj : FVec Ideal S512x1024 .f32) (bj : FVec Ideal S512 .f32) (gf βf gi βi go βo gj βj gc βc : FVec Ideal S512 .f32) :
    outH (F := Ideal) x h c Wf bf Wi bi Wo bo Wj bj gf βf gi βi go βo gj βj gc βc
      = specH (R := 65536) (paramsOf Wf bf Wi bi Wo bo Wj bj gf βf gi βi go βo gj βj gc βc) x h c := by
  funext i
  obtain ⟨r, j, rfl⟩ : ∃ (r : Fin 65536) (j : Fin 512), i = ix2 r j := ⟨i 0, i 1, eq_ix2 i⟩
  rw [specH_ix2]
  unfold outH
  rw [mulf_apply, sigm_apply, gate_apply, outC_eq, specC_ix2]
  rfl

end Cert.ReferenceIdeal.RefValue

end
-- ==== Proof.lean ====
/-
  The certificate of the LSTM cell with layer normalisation: the Pallas kernel, tiled over the batch in 128 blocks of 512
  rows, against its jnp reference, at the ideal values.

  Both programs compute, on every batch row, one function of that row of x, h, c and of the parameters (Proof/Spec.lean):
  four gates — an affine map of the concatenated row (x ‖ h), a layer normalisation with the sample standard deviation and
  ε added to it, then a logistic (tanh for the candidate) — the new cell state f·c + min(1 − f, i)·tanh-gate, its layer
  normalisation (the result c) and the result h = o · c.
  · The reference (Proof/RefTerm.lean, Proof/RefRun.lean, Proof/RefValue.lean): its run ends with the composed host
    operations of the arguments; read at a row, the matrix product of the concatenated batch with a transposed weight splits
    at feature 512 into the x-part and the h-part — additions of extended reals commute and associate, so the split needs no
    finiteness —, the row sums, means and standard deviations are the row's own (the variance's divisor 512 − 1 is the word
    511 and is positive, so jnp.std's guard selects the quotient), and 1 / (1 + exp(−z)) is the logistic.
  · The kernel (Proof/KPay.lean, Proof/KBlocks.lean): at grid point t its body maps rows 512 t … 512 t + 511 of x, h, c
    and the whole parameter arrays — each weight already split in two halves and transposed by the host operations before
    the call, the bf16 casts being the identity at the ideal values — to the same function of each row; the 128 blocks
    tile the two result arrays.
  The precondition (finite inputs) is never opened: the two sides are the same expression of extended reals row by row.
  No operation was rewritten by the idealization, so `preserves` is `True`; the frames of the two kernel programs are
  the generated ones, the reference's frame is its run with the results dropped.
-/
import proofs.«138021_j69595650064874_1_alg».proof.Defs
import proofs.«138021_j69595650064874_1_alg».proof.Proof.Gen.Kernel
import proofs.«138021_j69595650064874_1_alg».proof.Proof.Gen.Kernel.Frame
import proofs.«138021_j69595650064874_1_alg».proof.Proof.Gen.KernelIdeal
import proofs.«138021_j69595650064874_1_alg».proof.Proof.Gen.KernelIdeal.Frame
import proofs.«138021_j69595650064874_1_alg».proof.Proof.Gen.ReferenceIdeal
import proofs.«138021_j69595650064874_1_alg».proof.Proof.Gen.Pre_finite_inputs
import proofs.«138021_j69595650064874_1_alg».proof.Proof.KBlocks
import proofs.«138021_j69595650064874_1_alg».proof.Proof.RefRun
import proofs.«138021_j69595650064874_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.RefRun.run m ρ)

/-- Both runs end with the cell of the argument arrays on every row: the kernel's blocks tile it, the reference's term
    reads as it index by index; arguments that agree give equal results. -/
theorem algebraic : Cert.algebraic_KernelIdeal_ReferenceIdeal := by
  intro m ρ m' ρ' _ hagree
  refine ⟨_, _, Cert.KernelIdeal.KBlocks.run m ρ, ?_⟩
  refine (θ_run Cert.ReferenceIdeal.defs _ _).mono (fun _ h c => ⟨(h c).1.trans ?_, (h c).2.1.trans ?_, (h c).2.2⟩)
    (Cert.ReferenceIdeal.RefRun.run m' ρ')
  · obtain ⟨h0, h1, h2, h3, h4, h5, h6, h7, h8, h9, h10, h11, h12, h13, h14, h15, h16, h17, h18, h19, h20⟩ := hagree c
    rw [Cert.ReferenceIdeal.RefValue.outH_eq, h0, h1, h2, h3, h4, h5, h6, h7, h8, h9, h10, h11, h12, h13, h14, h15, h16, h17, h18, h19, h20]
    rfl
  · obtain ⟨h0, h1, h2, h3, h4, h5, h6, h7, h8, h9, h10, h11, h12, h13, h14, h15, h16, h17, h18, h19, h20⟩ := hagree c
    rw [Cert.ReferenceIdeal.RefValue.outC_eq, h0, h1, h2, h3, h4, h5, h6, h7, h8, h9, h10, h11, h12, h13, h14, h15, h16, h17, h18, h19, h20]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
